-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v66)) (v1 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_v68) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_v166) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S100000x64 : Shape := ⟨2, ![100000, 64]⟩
abbrev S2000000 : Shape := ⟨1, ![2000000]⟩
abbrev S2x16x64 : Shape := ⟨3, ![2, 16, 64]⟩
abbrev S2x64 : Shape := ⟨2, ![2, 64]⟩
abbrev S128x64 : Shape := ⟨2, ![128, 64]⟩
abbrev S64 : Shape := ⟨1, ![64]⟩
abbrev S192x64 : Shape := ⟨2, ![192, 64]⟩
abbrev S192 : Shape := ⟨1, ![192]⟩
abbrev S64x64 : Shape := ⟨2, ![64, 64]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S2x16x64 : S_.BroadcastsInDim S2x16x64 (![] : Fin 0 → Fin S2x16x64.rank)
  reducesTo_S2x16x64_S_d0_1_2 : S2x16x64.ReducesTo [0, 1, 2] S_
  bcast_S_S2x64 : S_.BroadcastsInDim S2x64 (![] : Fin 0 → Fin S2x64.rank)
  reducesTo_S2x64_S_d0_1 : S2x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_arg14 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg14
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg10 : FVec F S192x64 .f32) (main_arg11 : FVec F S192 .f32) (main_arg12 : FVec F S192 .f32) (main_arg13 : FVec F S64x64 .f32) (main_arg14 : FVec F S64 .f32) (main_v33 : IVec S_ 1) : IVec S_ 1 :=
  let main_v34 : FVec F S192x64 .f32 := Host.absf main_arg10
  let main_cst_12 : FVec F S_ .f32 := constant S_ .f32 0x7F800000#32
  let main_v35 : FVec F S192x64 .f32 := broadcastInDim S192x64 ![] bcast_S_S192x64 main_cst_12
  let main_v36 : IVec S192x64 1 := cmpf .olt main_v34 main_v35
  let main_c_13 : IVec S_ 1 := constantI S_ 1 1#1
  let main_v37 : IVec S_ 1 := (fun x v => Host.reduce IntOp.andi x v reducesTo_S192x64_S_d0_1 h_S_) main_v36 main_c_13
  let main_v38 : IVec S_ 1 := andi main_v33 main_v37
  let main_v39 : FVec F S192 .f32 := Host.absf main_arg11
  let main_cst_14 : FVec F S_ .f32 := constant S_ .f32 0x7F800000#32
  let main_v40 : FVec F S192 .f32 := broadcastInDim S192 ![] bcast_S_S192 main_cst_14
  let main_v41 : IVec S192 1 := cmpf .olt main_v39 main_v40
  let main_c_15 : IVec S_ 1 := constantI S_ 1 1#1
  let main_v42 : IVec S_ 1 := (fun x v => Host.reduce IntOp.andi x v reducesTo_S192_S_d0 h_S_) main_v41 main_c_15
  let main_v43 : IVec S_ 1 := andi main_v38 main_v42
  let main_v44 : FVec F S192 .f32 := Host.absf main_arg12
  let main_cst_16 : FVec F S_ .f32 := constant S_ .f32 0x7F800000#32
  let main_v45 : FVec F S192 .f32 := broadcastInDim S192 ![] bcast_S_S192 main_cst_16
  let main_v46 : IVec S192 1 := cmpf .olt main_v44 main_v45
  let main_c_17 : IVec S_ 1 := constantI S_ 1 1#1
  let main_v47 : IVec S_ 1 := (fun x v => Host.reduce IntOp.andi x v reducesTo_S192_S_d0 h_S_) main_v46 main_c_17
  let main_v48 : IVec S_ 1 := andi main_v43 main_v47
  let main_v49 : FVec F S64x64 .f32 := Host.absf main_arg13
  let main_cst_18 : FVec F S_ .f32 := constant S_ .f32 0x7F800000#32
  let main_v50 : FVec F S64x64 .f32 := broadcastInDim S64x64 ![] bcast_S_S64x64 main_cst_18
  fn_part3 (F := F) main_arg14 main_v48 main_v49 main_v50

def fn_part1 {F : FTy → Type} [FloatOps F] (main_arg7 : FVec F S128x64 .f32) (main_arg8 : FVec F S64 .f32) (main_arg9 : FVec F S192x64 .f32) (main_arg10 : FVec F S192x64 .f32) (main_arg11 : FVec F S192 .f32) (main_arg12 : FVec F S192 .f32) (main_arg13 : FVec F S64x64 .f32) (main_arg14 : FVec F S64 .f32) (main_v13 : IVec S_ 1) (main_v16 : IVec S2x64 1) : IVec S_ 1 :=
  let main_c_5 : IVec S_ 1 := constantI S_ 1 1#1
  let main_v17 : IVec S_ 1 := (fun x v => Host.reduce IntOp.andi x v reducesTo_S2x64_S_d0_1 h_S_) main_v16 main_c_5
  let main_v18 : IVec S_ 1 := andi main_v13 main_v17
  let main_v19 : FVec F S128x64 .f32 := Host.absf main_arg7
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S192x64 .f32 := Host.absf main_arg9
  let main_cst_10 : FVec F S_ .f32 := constant S_ .f32 0x7F800000#32
  let main_v30 : FVec F S192x64 .f32 := broadcastInDim S192x64 ![] bcast_S_S192x64 main_cst_10
  let main_v31 : IVec S192x64 1 := cmpf .olt main_v29 main_v30
  let main_c_11 : IVec S_ 1 := constantI S_ 1 1#1
  let main_v32 : IVec S_ 1 := (fun x v => Host.reduce IntOp.andi x v reducesTo_S192x64_S_d0_1 h_S_) main_v31 main_c_11
  let main_v33 : IVec S_ 1 := andi main_v28 main_v32
  fn_part2 (F := F) main_arg10 main_arg11 main_arg12 main_arg13 main_arg14 main_v33

def fn {F : FTy → Type} [FloatOps F] (main_arg0 : FVec F S100000x16 .f32) (main_arg1 : FVec F S100000x64 .f32) (main_arg2 : IVec S2000000 32) (main_arg3 : IVec S2000000 32) (main_arg4 : IVec S2000000 32) (main_arg5 : FVec F S2x16x64 .f32) (main_arg6 : FVec F S2x64 .f32) (main_arg7 : FVec F S128x64 .f32) (main_arg8 : FVec F S64 .f32) (main_arg9 : FVec F S192x64 .f32) (main_arg10 : FVec F S192x64 .f32) (main_arg11 : FVec F S192 .f32) (main_arg12 : FVec F S192 .f32) (main_arg13 : FVec F S64x64 .f32) (main_arg14 : FVec F S64 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S2x16x64 .f32 := Host.absf main_arg5
  let main_cst_2 : FVec F S_ .f32 := constant S_ .f32 0x7F800000#32
  let main_v10 : FVec F S2x16x64 .f32 := broadcastInDim S2x16x64 ![] bcast_S_S2x16x64 main_cst_2
  let main_v11 : IVec S2x16x64 1 := cmpf .olt main_v9 main_v10
  let main_c_3 : IVec S_ 1 := constantI S_ 1 1#1
  let main_v12 : IVec S_ 1 := (fun x v => Host.reduce IntOp.andi x v reducesTo_S2x16x64_S_d0_1_2 h_S_) main_v11 main_c_3
  let main_v13 : IVec S_ 1 := andi main_v8 main_v12
  let main_v14 : FVec F S2x64 .f32 := Host.absf main_arg6
  let main_cst_4 : FVec F S_ .f32 := constant S_ .f32 0x7F800000#32
  let main_v15 : FVec F S2x64 .f32 := broadcastInDim S2x64 ![] bcast_S_S2x64 main_cst_4
  let main_v16 : IVec S2x64 1 := cmpf .olt main_v14 main_v15
  fn_part1 (F := F) main_arg7 main_arg8 main_arg9 main_arg10 main_arg11 main_arg12 main_arg13 main_arg14 main_v13 main_v16
-- ==== Kernel.lean ====
abbrev S100000x16 : Shape := ⟨2, ![100000, 16]⟩
abbrev S100000x64 : Shape := ⟨2, ![100000, 64]⟩
abbrev S2000000 : Shape := ⟨1, ![2000000]⟩
abbrev S2x16x64 : Shape := ⟨3, ![2, 16, 64]⟩
abbrev S2x64 : Shape := ⟨2, ![2, 64]⟩
abbrev S128x64 : Shape := ⟨2, ![128, 64]⟩
abbrev S64 : Shape := ⟨1, ![64]⟩
abbrev S192x64 : Shape := ⟨2, ![192, 64]⟩
abbrev S192 : Shape := ⟨1, ![192]⟩
abbrev S64x64 : Shape := ⟨2, ![64, 64]⟩
abbrev S1x16x64 : Shape := ⟨3, ![1, 16, 64]⟩
abbrev S16x64 : Shape := ⟨2, ![16, 64]⟩
abbrev S16x128 : Shape := ⟨2, ![16, 128]⟩
abbrev S100000x128 : Shape := ⟨2, ![100000, 128]⟩
abbrev S4000x16 : Shape := ⟨2, ![4000, 16]⟩
abbrev S4000x128 : Shape := ⟨2, ![4000, 128]⟩
abbrev S2000000x1 : Shape := ⟨2, ![2000000, 1]⟩
abbrev S1x2 : Shape := ⟨2, ![1, 2]⟩
abbrev S2000000x2 : Shape := ⟨2, ![2000000, 2]⟩
abbrev S2000000x64 : Shape := ⟨2, ![2000000, 64]⟩
abbrev S2000000x128 : Shape := ⟨2, ![2000000, 128]⟩
abbrev S_ : Shape := ⟨0, ![]⟩
abbrev S200000x128 : Shape := ⟨2, ![200000, 128]⟩
abbrev S200000x2 : Shape := ⟨2, ![200000, 2]⟩
abbrev S200000x1 : Shape := ⟨2, ![200000, 1]⟩
abbrev S200000x64 : Shape := ⟨2, ![200000, 64]⟩
abbrev S100000x2 : Shape := ⟨2, ![100000, 2]⟩
abbrev S1x128 : Shape := ⟨2, ![1, 128]⟩
abbrev S64x192 : Shape := ⟨2, ![64, 192]⟩
abbrev S1x64 : Shape := ⟨2, ![1, 64]⟩
abbrev S1x192 : Shape := ⟨2, ![1, 192]⟩
abbrev S2000x128 : Shape := ⟨2, ![2000, 128]⟩
abbrev S2000x2 : Shape := ⟨2, ![2000, 2]⟩
abbrev S2000x64 : Shape := ⟨2, ![2000, 64]⟩
abbrev S2000x1 : Shape := ⟨2, ![2000, 1]⟩
abbrev S2000x192 : Shape := ⟨2, ![2000, 192]⟩
abbrev S100000x3 : Shape := ⟨2, ![100000, 3]⟩

abbrev nBuf : Space → Nat
  | .hbm => 107
  | .vmem => 23
  | .smem => 0
  | _ => 0

abbrev bufTy : (tb : Table) → Fin (tcTables nBuf tb) → BufTy
  | .hbm, ⟨0, _⟩ => ⟨S100000x16, .f32⟩
  | .hbm, ⟨1, _⟩ => ⟨S100000x64, .f32⟩
  | .hbm, ⟨2, _⟩ => ⟨S2000000, .i32⟩
  | .hbm, ⟨3, _⟩ => ⟨S2000000, .i32⟩
  | .hbm, ⟨4, _⟩ => ⟨S2000000, .i32⟩
  | .hbm, ⟨5, _⟩ => ⟨S2x16x64, .f32⟩
  | .hbm, ⟨6, _⟩ => ⟨S2x64, .f32⟩
  | .hbm, ⟨7, _⟩ => ⟨S128x64, .f32⟩
  | .hbm, ⟨8, _⟩ => ⟨S64, .f32⟩
  | .hbm, ⟨9, _⟩ => ⟨S192x64, .f32⟩
  | .hbm, ⟨10, _⟩ => ⟨S192x64, .f32⟩
  | .hbm, ⟨11, _⟩ => ⟨S192, .f32⟩
  | .hbm, ⟨12, _⟩ => ⟨S192, .f32⟩
  | .hbm, ⟨13, _⟩ => ⟨S64x64, .f32⟩
  | .hbm, ⟨14, _⟩ => ⟨S64, .f32⟩
  | .hbm, ⟨15, _⟩ => ⟨S1x16x64, .f32⟩
  | .hbm, ⟨16, _⟩ => ⟨S16x64, .f32⟩
  | .hbm, ⟨17, _⟩ => ⟨S1x16x64, .f32⟩
  | .hbm, ⟨18, _⟩ => ⟨S16x64, .f32⟩
  | .hbm, ⟨19, _⟩ => ⟨S16x128, .f32⟩
  | .hbm, ⟨20, _⟩ => ⟨S100000x128, .f32⟩
  | .hbm, ⟨21, _⟩ => ⟨S2000000x1, .i32⟩
  | .hbm, ⟨22, _⟩ => ⟨S1x2, .i32⟩
  | .hbm, ⟨23, _⟩ => ⟨S2000000x2, .i32⟩
  | .hbm, ⟨24, _⟩ => ⟨S2000000x2, .i32⟩
  | .hbm, ⟨25, _⟩ => ⟨S2000000x2, .i1⟩
  | .hbm, ⟨26, _⟩ => ⟨S2000000x2, .f32⟩
  | .hbm, ⟨27, _⟩ => ⟨S2000000x1, .f32⟩
  | .hbm, ⟨28, _⟩ => ⟨S2000000x64, .f32⟩
  | .hbm, ⟨29, _⟩ => ⟨S2000000x1, .f32⟩
  | .hbm, ⟨30, _⟩ => ⟨S2000000x64, .f32⟩
  | .hbm, ⟨31, _⟩ => ⟨S2000000x128, .f32⟩
  | .hbm, ⟨32, _⟩ => ⟨S_, .i32⟩
  | .hbm, ⟨33, _⟩ => ⟨S2000000, .i32⟩
  | .hbm, ⟨34, _⟩ => ⟨S2000000, .i1⟩
  | .hbm, ⟨35, _⟩ => ⟨S_, .i32⟩
  | .hbm, ⟨36, _⟩ => ⟨S2000000, .i32⟩
  | .hbm, ⟨37, _⟩ => ⟨S2000000, .i32⟩
  | .hbm, ⟨38, _⟩ => ⟨S2000000, .i32⟩
  | .hbm, ⟨39, _⟩ => ⟨S2000000x1, .i32⟩
  | .hbm, ⟨40, _⟩ => ⟨S2000000x128, .f32⟩
  | .hbm, ⟨41, _⟩ => ⟨S2000000x128, .f32⟩
  | .hbm, ⟨42, _⟩ => ⟨S_, .f32⟩
  | .hbm, ⟨43, _⟩ => ⟨S200000x128, .f32⟩
  | .hbm, ⟨44, _⟩ => ⟨S2000000x1, .i32⟩
  | .hbm, ⟨45, _⟩ => ⟨S200000x128, .f32⟩
  | .hbm, ⟨46, _⟩ => ⟨S_, .f32⟩
  | .hbm, ⟨47, _⟩ => ⟨S200000x2, .f32⟩
  | .hbm, ⟨48, _⟩ => ⟨S2000000x1, .i32⟩
  | .hbm, ⟨49, _⟩ => ⟨S200000x2, .f32⟩
  | .hbm, ⟨50, _⟩ => ⟨S_, .f32⟩
  | .hbm, ⟨51, _⟩ => ⟨S200000x2, .f32⟩
  | .hbm, ⟨52, _⟩ => ⟨S200000x2, .i1⟩
  | .hbm, ⟨53, _⟩ => ⟨S_, .f32⟩
  | .hbm, ⟨54, _⟩ => ⟨S200000x2, .f32⟩
  | .hbm, ⟨55, _⟩ => ⟨S200000x2, .f32⟩
  | .hbm, ⟨56, _⟩ => ⟨S_, .f32⟩
  | .hbm, ⟨57, _⟩ => ⟨S_, .f32⟩
  | .hbm, ⟨58, _⟩ => ⟨S200000x2, .f32⟩
  | .hbm, ⟨59, _⟩ => ⟨S200000x2, .f32⟩
  | .hbm, ⟨60, _⟩ => ⟨S200000x1, .f32⟩
  | .hbm, ⟨61, _⟩ => ⟨S200000x64, .f32⟩
  | .hbm, ⟨62, _⟩ => ⟨S200000x1, .f32⟩
  | .hbm, ⟨63, _⟩ => ⟨S200000x64, .f32⟩
  | .hbm, ⟨64, _⟩ => ⟨S200000x128, .f32⟩
  | .hbm, ⟨65, _⟩ => ⟨S200000x128, .f32⟩
  | .hbm, ⟨66, _⟩ => ⟨S_, .i32⟩
  | .hbm, ⟨67, _⟩ => ⟨S2000000, .i32⟩
  | .hbm, ⟨68, _⟩ => ⟨S2000000, .i1⟩
  | .hbm, ⟨69, _⟩ => ⟨S_, .i32⟩
  | .hbm, ⟨70, _⟩ => ⟨S2000000, .i32⟩
  | .hbm, ⟨71, _⟩ => ⟨S2000000, .i32⟩
  | .hbm, ⟨72, _⟩ => ⟨S2000000, .i32⟩
  | .hbm, ⟨73, _⟩ => ⟨S2000000x1, .i32⟩
  | .hbm, ⟨74, _⟩ => ⟨S2000000x128, .f32⟩
  | .hbm, ⟨75, _⟩ => ⟨S2000000x128, .f32⟩
  | .hbm, ⟨76, _⟩ => ⟨S_, .f32⟩
  | .hbm, ⟨77, _⟩ => ⟨S100000x128, .f32⟩
  | .hbm, ⟨78, _⟩ => ⟨S2000000x1, .i32⟩
  | .hbm, ⟨79, _⟩ => ⟨S100000x128, .f32⟩
  | .hbm, ⟨80, _⟩ => ⟨S_, .f32⟩
  | .hbm, ⟨81, _⟩ => ⟨S100000x2, .f32⟩
  | .hbm, ⟨82, _⟩ => ⟨S2000000x1, .i32⟩
  | .hbm, ⟨83, _⟩ => ⟨S100000x2, .f32⟩
  | .hbm, ⟨84, _⟩ => ⟨S_, .f32⟩
  | .hbm, ⟨85, _⟩ => ⟨S100000x2, .f32⟩
  | .hbm, ⟨86, _⟩ => ⟨S100000x2, .i1⟩
  | .hbm, ⟨87, _⟩ => ⟨S_, .f32⟩
  | .hbm, ⟨88, _⟩ => ⟨S100000x2, .f32⟩
  | .hbm, ⟨89, _⟩ => ⟨S100000x2, .f32⟩
  | .hbm, ⟨90, _⟩ => ⟨S_, .f32⟩
  | .hbm, ⟨91, _⟩ => ⟨S_, .f32⟩
  | .hbm, ⟨92, _⟩ => ⟨S100000x2, .f32⟩
  | .hbm, ⟨93, _⟩ => ⟨S100000x2, .f32⟩
  | .hbm, ⟨94, _⟩ => ⟨S1x128, .f32⟩
  | .hbm, ⟨95, _⟩ => ⟨S64x64, .f32⟩
  | .hbm, ⟨96, _⟩ => ⟨S64x64, .f32⟩
  | .hbm, ⟨97, _⟩ => ⟨S64x192, .f32⟩
  | .hbm, ⟨98, _⟩ => ⟨S64x192, .f32⟩
  | .hbm, ⟨99, _⟩ => ⟨S1x64, .f32⟩
  | .hbm, ⟨100, _⟩ => ⟨S1x192, .f32⟩
  | .hbm, ⟨101, _⟩ => ⟨S1x192, .f32⟩
  | .hbm, ⟨102, _⟩ => ⟨S1x64, .f32⟩
  | .hbm, ⟨103, _⟩ => ⟨S100000x128, .f32⟩
  | .hbm, ⟨104, _⟩ => ⟨S100000x64, .f32⟩
  | .hbm, ⟨105, _⟩ => ⟨S100000x64, .f32⟩
  | .hbm, ⟨106, _⟩ => ⟨S100000x3, .f32⟩
  | .local _ .vmem, ⟨0, _⟩ => ⟨S4000x16, .f32⟩
  | .local _ .vmem, ⟨1, _⟩ => ⟨S4000x16, .f32⟩
  | .local _ .vmem, ⟨2, _⟩ => ⟨S16x128, .f32⟩
  | .local _ .vmem, ⟨3, _⟩ => ⟨S4000x128, .f32⟩
  | .local _ .vmem, ⟨4, _⟩ => ⟨S4000x128, .f32⟩
  | .local _ .vmem, ⟨5, _⟩ => ⟨S2000x128, .f32⟩
  | .local _ .vmem, ⟨6, _⟩ => ⟨S2000x128, .f32⟩
  | .local _ .vmem, ⟨7, _⟩ => ⟨S2000x2, .f32⟩
  | .local _ .vmem, ⟨8, _⟩ => ⟨S2000x2, .f32⟩
  | .local _ .vmem, ⟨9, _⟩ => ⟨S2000x64, .f32⟩
  | .local _ .vmem, ⟨10, _⟩ => ⟨S2000x64, .f32⟩
  | .local _ .vmem, ⟨11, _⟩ => ⟨S1x128, .f32⟩
  | .local _ .vmem, ⟨12, _⟩ => ⟨S64x64, .f32⟩
  | .local _ .vmem, ⟨13, _⟩ => ⟨S64x64, .f32⟩
  | .local _ .vmem, ⟨14, _⟩ => ⟨S1x64, .f32⟩
  | .local _ .vmem, ⟨15, _⟩ => ⟨S64x192, .f32⟩
  | .local _ .vmem, ⟨16, _⟩ => ⟨S64x192, .f32⟩
  | .local _ .vmem, ⟨17, _⟩ => ⟨S1x192, .f32⟩
  | .local _ .vmem, ⟨18, _⟩ => ⟨S1x192, .f32⟩
  | .local _ .vmem, ⟨19, _⟩ => ⟨S64x64, .f32⟩
  | .local _ .vmem, ⟨20, _⟩ => ⟨S1x64, .f32⟩
  | .local _ .vmem, ⟨21, _⟩ => ⟨S2000x128, .f32⟩
  | .local _ .vmem, ⟨22, _⟩ => ⟨S2000x128, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c : Ref sig .tc := ⟨.hbm, 32, rfl⟩
abbrev main_v12 : Ref sig .tc := ⟨.hbm, 33, rfl⟩
abbrev main_v13 : Ref sig .tc := ⟨.hbm, 34, rfl⟩
abbrev main_c_0 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_1 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_2 : Ref sig .tc := ⟨.hbm, 50, rfl⟩
abbrev main_v26 : Ref sig .tc := ⟨.hbm, 51, rfl⟩
abbrev main_v27 : Ref sig .tc := ⟨.hbm, 52, rfl⟩
abbrev main_cst_3 : Ref sig .tc := ⟨.hbm, 53, rfl⟩
abbrev main_v28 : Ref sig .tc := ⟨.hbm, 54, rfl⟩
abbrev main_v29 : Ref sig .tc := ⟨.hbm, 55, rfl⟩
abbrev main_cst_4 : Ref sig .tc := ⟨.hbm, 56, rfl⟩
abbrev main_call1_v0 : Ref sig .tc := ⟨.hbm, 57, rfl⟩
abbrev main_call1_v1 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_c_5 : Ref sig .tc := ⟨.hbm, 66, rfl⟩
abbrev main_v37 : Ref sig .tc := ⟨.hbm, 67, rfl⟩
abbrev main_v38 : Ref sig .tc := ⟨.hbm, 68, rfl⟩
abbrev main_c_6 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_7 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_8 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_9 : Ref sig .tc := ⟨.hbm, 84, rfl⟩
abbrev main_v51 : Ref sig .tc := ⟨.hbm, 85, rfl⟩
abbrev main_v52 : Ref sig .tc := ⟨.hbm, 86, rfl⟩
abbrev main_cst_10 : Ref sig .tc := ⟨.hbm, 87, rfl⟩
abbrev main_v53 : Ref sig .tc := ⟨.hbm, 88, rfl⟩
abbrev main_v54 : Ref sig .tc := ⟨.hbm, 89, rfl⟩
abbrev main_cst_11 : Ref sig .tc := ⟨.hbm, 90, rfl⟩
abbrev main_call2_v0 : Ref sig .tc := ⟨.hbm, 91, rfl⟩
abbrev main_call2_v1 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg11_0 : Ref sig .tc := ⟨.vmem, 19, rfl⟩
abbrev cc1_stg12_0 : Ref sig .tc := ⟨.vmem, 20, rfl⟩
abbrev cc1_stg13_0 : Ref sig .tc := ⟨.vmem, 21, rfl⟩
abbrev cc1_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem11_0 : DmaSem sig := 19
abbrev cc1_sem12_0 : DmaSem sig := 20
abbrev cc1_sem13_0 : DmaSem sig := 21
abbrev cc1_sem13_1 : DmaSem sig := 22

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x192 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x192 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x192 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x192 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S64x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S2000x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  slices_S2x16x64_S1x16x64_0_0_0 : S2x16x64.Slices ![0, 0, 0] S1x16x64
  shapeCasts_S1x16x64_S16x64 : S1x16x64.ShapeCasts S16x64
  slices_S2x16x64_S1x16x64_1_0_0 : S2x16x64.Slices ![1, 0, 0] S1x16x64
  concatenates_S16x64_S16x64_S16x128_d1 : Shape.Concatenates [S16x64, S16x64] S16x128 1
  inb_S4000x16_S4000x16_0_0 : ∀ a, (![0, 0] : Fin 2 → Nat) a + S4000x16.size a ≤ S4000x16.size a
  h_S4000x16 : 0 < S4000x16.numel
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S4000x128_S4000x128_0_0 : ∀ a, (![0, 0] : Fin 2 → Nat) a + S4000x128.size a ≤ S4000x128.size a
  h_S4000x128 : 0 < S4000x128.numel
  bcast_S2000000_S2000000x1_0 : S2000000.BroadcastsInDim S2000000x1 (![0] : Fin 1 → Fin S2000000x1.rank)
  bcast_S2000000x1_S2000000x2_0_1 : S2000000x1.BroadcastsInDim S2000000x2 (![0, 1] : Fin 2 → Fin S2000000x2.rank)
  bcast_S1x2_S2000000x2_0_1 : S1x2.BroadcastsInDim S2000000x2 (![0, 1] : Fin 2 → Fin S2000000x2.rank)
  slices_S2000000x2_S2000000x1_0_0 : S2000000x2.Slices ![0, 0] S2000000x1
  bcast_S2000000x1_S2000000x64_0_1 : S2000000x1.BroadcastsInDim S2000000x64 (![0, 1] : Fin 2 → Fin S2000000x64.rank)
  slices_S2000000x2_S2000000x1_0_1 : S2000000x2.Slices ![0, 1] S2000000x1
  concatenates_S2000000x64_S2000000x64_S2000000x128_d1 : Shape.Concatenates [S2000000x64, S2000000x64] S2000000x128 1
  bcast_S_S2000000 : S_.BroadcastsInDim S2000000 (![] : Fin 0 → Fin S2000000.rank)
  bcast_S_S200000x128 : S_.BroadcastsInDim S200000x128 (![] : Fin 0 → Fin S200000x128.rank)
  bcast_S_S200000x2 : S_.BroadcastsInDim S200000x2 (![] : Fin 0 → Fin S200000x2.rank)
  slices_S200000x2_S200000x1_0_0 : S200000x2.Slices ![0, 0] S200000x1
  bcast_S200000x1_S200000x64_0_1 : S200000x1.BroadcastsInDim S200000x64 (![0, 1] : Fin 2 → Fin S200000x64.rank)
  slices_S200000x2_S200000x1_0_1 : S200000x2.Slices ![0, 1] S200000x1
  concatenates_S200000x64_S200000x64_S200000x128_d1 : Shape.Concatenates [S200000x64, S200000x64] S200000x128 1
  bcast_S_S100000x128 : S_.BroadcastsInDim S100000x128 (![] : Fin 0 → Fin S100000x128.rank)
  bcast_S_S100000x2 : S_.BroadcastsInDim S100000x2 (![] : Fin 0 → Fin S100000x2.rank)
  shapeCasts_S2x64_S1x128 : S2x64.ShapeCasts S1x128
  slices_S128x64_S64x64_0_0 : S128x64.Slices ![0, 0] S64x64
  slices_S128x64_S64x64_64_0 : S128x64.Slices ![64, 0] S64x64
  transposes_S192x64_S64x192_1_0 : S192x64.Transposes [1, 0] S64x192
  shapeCasts_S64_S1x64 : S64.ShapeCasts S1x64
  shapeCasts_S192_S1x192 : S192.ShapeCasts S1x192
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x2_S2000x2_0_0 : ∀ a, (![0, 0] : Fin 2 → Nat) a + S2000x2.size a ≤ S2000x2.size a
  h_S2000x2 : 0 < S2000x2.numel
  shapeCasts_S2000x2_S2000x2 : S2000x2.ShapeCasts S2000x2
  inb_S1x128_S1x128_0_0 : ∀ a, (![0, 0] : Fin 2 → Nat) a + S1x128.size a ≤ S1x128.size a
  h_S1x128 : 0 < S1x128.numel
  shapeCasts_S1x128_S1x128 : S1x128.ShapeCasts S1x128
  slices_S2000x128_o0_0_S2000x64 : S2000x128.Slices ![0, 0] S2000x64
  slices_S2000x128_o0_64_S2000x64 : S2000x128.Slices ![0, 64] S2000x64
  slices_S2000x2_o0_0_S2000x1 : S2000x2.Slices ![0, 0] S2000x1
  slices_S2000x2_o0_1_S2000x1 : S2000x2.Slices ![0, 1] S2000x1
  slices_S1x128_o0_0_S1x64 : S1x128.Slices ![0, 0] S1x64
  slices_S1x128_o0_64_S1x64 : S1x128.Slices ![0, 64] S1x64
  broadcasts_S2000x1_S2000x64 : S2000x1.Broadcasts S2000x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S2000x64_S2000x64_0_0 : ∀ a, (![0, 0] : Fin 2 → Nat) a + S2000x64.size a ≤ S2000x64.size a
  h_S2000x64 : 0 < S2000x64.numel
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S2000x192 : S1x192.Broadcasts S2000x192
  slices_S2000x192_o0_0_S2000x64 : S2000x192.Slices ![0, 0] S2000x64
  slices_S2000x192_o0_64_S2000x64 : S2000x192.Slices ![0, 64] S2000x64
  slices_S2000x192_o0_128_S2000x64 : S2000x192.Slices ![0, 128] S2000x64
  inb_S2000x128_S2000x64_0_0 : ∀ a, (![0, 0] : Fin 2 → Nat) a + S2000x64.size a ≤ S2000x128.size a
  inb_S2000x128_S2000x64_0_64 : ∀ a, (![0, 64] : Fin 2 → Nat) a + S2000x64.size a ≤ S2000x128.size a
  slices_S100000x128_S100000x64_0_0 : S100000x128.Slices ![0, 0] S100000x64
  slices_S100000x128_S100000x64_0_64 : S100000x128.Slices ![0, 64] S100000x64
  slices_S100000x64_S100000x3_0_0 : S100000x64.Slices ![0, 0] S100000x3
  dot_S4000x16_S16x128_S4000x128_1_0_0_1_n_n_wf : DotDims.WF S4000x16 S16x128 S4000x128 [1] [0] [0] [1] [] []
  gather_S100000x128_S2000000x1_S2000000x128_1_0_n_n_0_1_1128_wf : GatherDims.WF S100000x128 S2000000x1 S2000000x128 [1] [0] [] [0] [] 1 ![1, 128]
  scatter_S200000x128_S2000000x1_S2000000x128_1_0_0_1_wf : ScatterDims.WF S200000x128 S2000000x1 S2000000x128 [1] [0] [0] 1
  scatter_S200000x2_S2000000x1_S2000000x2_1_0_0_1_wf : ScatterDims.WF S200000x2 S2000000x1 S2000000x2 [1] [0] [0] 1
  gather_S200000x128_S2000000x1_S2000000x128_1_0_n_n_0_1_1128_wf : GatherDims.WF S200000x128 S2000000x1 S2000000x128 [1] [0] [] [0] [] 1 ![1, 128]
  scatter_S100000x128_S2000000x1_S2000000x128_1_0_0_1_wf : ScatterDims.WF S100000x128 S2000000x1 S2000000x128 [1] [0] [0] 1
  scatter_S100000x2_S2000000x1_S2000000x2_1_0_0_1_wf : ScatterDims.WF S100000x2 S2000000x1 S2000000x2 [1] [0] [0] 1
  dot_S2000x64_S64x64_S2000x64_1_0_0_1_n_n_wf : DotDims.WF S2000x64 S64x64 S2000x64 [1] [0] [0] [1] [] []
  dot_S2000x64_S64x192_S2000x192_1_0_0_1_n_n_wf : DotDims.WF S2000x64 S64x192 S2000x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x16.size a ≤ S100000x16.size a
  hwx0_0 : ∀ i : grid0.Coords, EltTy.bits .f32 = 32 ∨ (Rect.block (s := S100000x16) S4000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x2.size a ≤ S100000x2.size a
  hwx1_1 : ∀ i : grid1.Coords, EltTy.bits .f32 = 32 ∨ (Rect.block (s := S100000x2) S2000x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x192.size a ≤ S64x192.size a
  hwx1_7 : ∀ i : grid1.Coords, EltTy.bits .f32 = 32 ∨ (Rect.block (s := S64x192) S64x192.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x192.size a ≤ S64x192.size a
  hwx1_8 : ∀ i : grid1.Coords, EltTy.bits .f32 = 32 ∨ (Rect.block (s := S64x192) S64x192.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x192.size a ≤ S1x192.size a
  hwx1_9 : ∀ i : grid1.Coords, EltTy.bits .f32 = 32 ∨ (Rect.block (s := S1x192) S1x192.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x192.size a ≤ S1x192.size a
  hwx1_10 : ∀ i : grid1.Coords, EltTy.bits .f32 = 32 ∨ (Rect.block (s := S1x192) S1x192.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S64x64.size a ≤ S64x64.size a
  hwx1_11 : ∀ i : grid1.Coords, EltTy.bits .f32 = 32 ∨ (Rect.block (s := S64x64) S64x64.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x64.size a ≤ S1x64.size a
  hwx1_12 : ∀ i : grid1.Coords, EltTy.bits .f32 = 32 ∨ (Rect.block (s := S1x64) S1x64.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S2000x128.size a ≤ S100000x128.size a
  hwx1_13 : ∀ i : grid1.Coords, EltTy.bits .f32 = 32 ∨ (Rect.block (s := S100000x128) S2000x128.size (cc1_transform_13 i) (hinb1_13 i)).WholeWords (EltTy.packing .f32)

variable [Facts₀]

def dot_S4000x16_S16x128_S4000x128_1_0_0_1_n_n : DotDims S4000x16 S16x128 S4000x128 where
  lhsContracting := [1]
  rhsContracting := [0]
  lhsNonContracting := [0]
  rhsNonContracting := [1]
  lhsBatch := []
  rhsBatch := []
  wf := dot_S4000x16_S16x128_S4000x128_1_0_0_1_n_n_wf
def gather_S100000x128_S2000000x1_S2000000x128_1_0_n_n_0_1_1128 : GatherDims S100000x128 S2000000x1 S2000000x128 where
  offsetDims := [1]
  collapsedSliceDims := [0]
  operandBatchingDims := []
  startIndicesBatchingDims := []
  startIndexMap := [0]
  indexVectorDim := 1
  sliceSizes := ![1, 128]
  wf := gather_S100000x128_S2000000x1_S2000000x128_1_0_n_n_0_1_1128_wf
def scatter_S200000x128_S2000000x1_S2000000x128_1_0_0_1 : ScatterDims S200000x128 S2000000x1 S2000000x128 where
  updateWindowDims := [1]
  insertedWindowDims := [0]
  scatterDimsToOperandDims := [0]
  indexVectorDim := 1
  wf := scatter_S200000x128_S2000000x1_S2000000x128_1_0_0_1_wf
def scatter_S200000x2_S2000000x1_S2000000x2_1_0_0_1 : ScatterDims S200000x2 S2000000x1 S2000000x2 where
  updateWindowDims := [1]
  insertedWindowDims := [0]
  scatterDimsToOperandDims := [0]
  indexVectorDim := 1
  wf := scatter_S200000x2_S2000000x1_S2000000x2_1_0_0_1_wf
def gather_S200000x128_S2000000x1_S2000000x128_1_0_n_n_0_1_1128 : GatherDims S200000x128 S2000000x1 S2000000x128 where
  offsetDims := [1]
  collapsedSliceDims := [0]
  operandBatchingDims := []
  startIndicesBatchingDims := []
  startIndexMap := [0]
  indexVectorDim := 1
  sliceSizes := ![1, 128]
  wf := gather_S200000x128_S2000000x1_S2000000x128_1_0_n_n_0_1_1128_wf
def scatter_S100000x128_S2000000x1_S2000000x128_1_0_0_1 : ScatterDims S100000x128 S2000000x1 S2000000x128 where
  updateWindowDims := [1]
  insertedWindowDims := [0]
  scatterDimsToOperandDims := [0]
  indexVectorDim := 1
  wf := scatter_S100000x128_S2000000x1_S2000000x128_1_0_0_1_wf
def scatter_S100000x2_S2000000x1_S2000000x2_1_0_0_1 : ScatterDims S100000x2 S2000000x1 S2000000x2 where
  updateWindowDims := [1]
  insertedWindowDims := [0]
  scatterDimsToOperandDims := [0]
  indexVectorDim := 1
  wf := scatter_S100000x2_S2000000x1_S2000000x2_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x192_S2000x192_1_0_0_1_n_n : DotDims S2000x64 S64x192 S2000x192 where
  lhsContracting := [1]
  rhsContracting := [0]
  lhsNonContracting := [0]
  rhsNonContracting := [1]
  lhsBatch := []
  rhsBatch := []
  wf := dot_S2000x64_S64x192_S2000x192_1_0_0_1_n_n_wf

abbrev win0_0 : Pipeline.Window sig grid0 :=
  Pipeline.Window.ofSpec (Memref.whole main_arg0) S4000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S2000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v56) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v57) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v58) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v61) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v59) S64x192.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v60) S64x192.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v62) S1x192.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v63) S1x192.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg13) S64x64.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v64) S1x64.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v65) S2000x128.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S100000x16 : Shape := ⟨2, ![100000, 16]⟩
abbrev S100000x64 : Shape := ⟨2, ![100000, 64]⟩
abbrev S2000000 : Shape := ⟨1, ![2000000]⟩
abbrev S2x16x64 : Shape := ⟨3, ![2, 16, 64]⟩
abbrev S2x64 : Shape := ⟨2, ![2, 64]⟩
abbrev S128x64 : Shape := ⟨2, ![128, 64]⟩
abbrev S64 : Shape := ⟨1, ![64]⟩
abbrev S192x64 : Shape := ⟨2, ![192, 64]⟩
abbrev S192 : Shape := ⟨1, ![192]⟩
abbrev S64x64 : Shape := ⟨2, ![64, 64]⟩
abbrev S_ : Shape := ⟨0, ![]⟩
abbrev S1x16x64 : Shape := ⟨3, ![1, 16, 64]⟩
abbrev S16x64 : Shape := ⟨2, ![16, 64]⟩
abbrev S1x64 : Shape := ⟨2, ![1, 64]⟩
abbrev S200000 : Shape := ⟨1, ![200000]⟩
abbrev S2000000x1 : Shape := ⟨2, ![2000000, 1]⟩
abbrev S100000 : Shape := ⟨1, ![100000]⟩
abbrev S2000000x64 : Shape := ⟨2, ![2000000, 64]⟩
abbrev S200000x64 : Shape := ⟨2, ![200000, 64]⟩
abbrev S200000x1 : Shape := ⟨2, ![200000, 1]⟩
abbrev S100000x1 : Shape := ⟨2, ![100000, 1]⟩
abbrev S100000x128 : Shape := ⟨2, ![100000, 128]⟩
abbrev S64x192 : Shape := ⟨2, ![64, 192]⟩
abbrev S100000x192 : Shape := ⟨2, ![100000, 192]⟩
abbrev S1x192 : Shape := ⟨2, ![1, 192]⟩
abbrev S100000x3 : Shape := ⟨2, ![100000, 3]⟩

abbrev nBuf : Space → Nat
  | .hbm => 227
  | .vmem => 0
  | .smem => 0
  | _ => 0

abbrev hbmTy0_0 (i : Nat) : BufTy := match i % 128 with
  | 0 => ⟨S100000x16, .f32⟩
  | 1 => ⟨S100000x64, .f32⟩
  | 2 => ⟨S2000000, .i32⟩
  | 3 => ⟨S2000000, .i32⟩
  | 4 => ⟨S2000000, .i32⟩
  | 5 => ⟨S2x16x64, .f32⟩
  | 6 => ⟨S2x64, .f32⟩
  | 7 => ⟨S128x64, .f32⟩
  | 8 => ⟨S64, .f32⟩
  | 9 => ⟨S192x64, .f32⟩
  | 10 => ⟨S192x64, .f32⟩
  | 11 => ⟨S192, .f32⟩
  | 12 => ⟨S192, .f32⟩
  | 13 => ⟨S64x64, .f32⟩
  | 14 => ⟨S64, .f32⟩
  | 15 => ⟨S_, .i32⟩
  | 16 => ⟨S2000000, .i32⟩
  | 17 => ⟨S2000000, .i1⟩
  | 18 => ⟨S2000000, .f32⟩
  | 19 => ⟨S1x16x64, .f32⟩
  | 20 => ⟨S16x64, .f32⟩
  | 21 => ⟨S1x64, .f32⟩
  | 22 => ⟨S64, .f32⟩
  | 23 => ⟨S100000x64, .f32⟩
  | 24 => ⟨S_, .f32⟩
  | 25 => ⟨S200000, .f32⟩
  | 26 => ⟨S2000000x1, .i32⟩
  | 27 => ⟨S200000, .f32⟩
  | 28 => ⟨S_, .f32⟩
  | 29 => ⟨S100000, .f32⟩
  | 30 => ⟨S2000000x1, .i32⟩
  | 31 => ⟨S100000, .f32⟩
  | 32 => ⟨S_, .f32⟩
  | 33 => ⟨S200000, .f32⟩
  | 34 => ⟨S200000, .i1⟩
  | 35 => ⟨S_, .f32⟩
  | 36 => ⟨S200000, .f32⟩
  | 37 => ⟨S200000, .f32⟩
  | 38 => ⟨S_, .f32⟩
  | 39 => ⟨S_, .f32⟩
  | 40 => ⟨S200000, .f32⟩
  | 41 => ⟨S200000, .f32⟩
  | 42 => ⟨S_, .f32⟩
  | 43 => ⟨S100000, .f32⟩
  | 44 => ⟨S100000, .i1⟩
  | 45 => ⟨S_, .f32⟩
  | 46 => ⟨S100000, .f32⟩
  | 47 => ⟨S100000, .f32⟩
  | 48 => ⟨S_, .f32⟩
  | 49 => ⟨S_, .f32⟩
  | 50 => ⟨S100000, .f32⟩
  | 51 => ⟨S100000, .f32⟩
  | 52 => ⟨S_, .i32⟩
  | 53 => ⟨S2000000, .i32⟩
  | 54 => ⟨S2000000, .i1⟩
  | 55 => ⟨S_, .i32⟩
  | 56 => ⟨S2000000, .i32⟩
  | 57 => ⟨S2000000, .i32⟩
  | 58 => ⟨S2000000, .i32⟩
  | 59 => ⟨S2000000x1, .i32⟩
  | 60 => ⟨S2000000x64, .f32⟩
  | 61 => ⟨S2000000x1, .f32⟩
  | 62 => ⟨S2000000x64, .f32⟩
  | 63 => ⟨S2000000x64, .f32⟩
  | 64 => ⟨S_, .f32⟩
  | 65 => ⟨S200000x64, .f32⟩
  | 66 => ⟨S2000000x1, .i32⟩
  | 67 => ⟨S200000x64, .f32⟩
  | 68 => ⟨S200000x1, .f32⟩
  | 69 => ⟨S200000x64, .f32⟩
  | 70 => ⟨S200000x64, .f32⟩
  | 71 => ⟨S_, .i32⟩
  | 72 => ⟨S2000000, .i32⟩
  | 73 => ⟨S2000000, .i1⟩
  | 74 => ⟨S_, .i32⟩
  | 75 => ⟨S2000000, .i32⟩
  | 76 => ⟨S2000000, .i32⟩
  | 77 => ⟨S2000000, .i32⟩
  | 78 => ⟨S2000000x1, .i32⟩
  | 79 => ⟨S2000000x64, .f32⟩
  | 80 => ⟨S2000000x1, .f32⟩
  | 81 => ⟨S2000000x64, .f32⟩
  | 82 => ⟨S2000000x64, .f32⟩
  | 83 => ⟨S_, .f32⟩
  | 84 => ⟨S100000x64, .f32⟩
  | 85 => ⟨S2000000x1, .i32⟩
  | 86 => ⟨S100000x64, .f32⟩
  | 87 => ⟨S100000x1, .f32⟩
  | 88 => ⟨S100000x64, .f32⟩
  | 89 => ⟨S100000x64, .f32⟩
  | 90 => ⟨S1x64, .f32⟩
  | 91 => ⟨S100000x64, .f32⟩
  | 92 => ⟨S100000x64, .f32⟩
  | 93 => ⟨S_, .i32⟩
  | 94 => ⟨S2000000, .i32⟩
  | 95 => ⟨S2000000, .i1⟩
  | 96 => ⟨S2000000, .f32⟩
  | 97 => ⟨S1x16x64, .f32⟩
  | 98 => ⟨S16x64, .f32⟩
  | 99 => ⟨S1x64, .f32⟩
  | 100 => ⟨S64, .f32⟩
  | 101 => ⟨S100000x64, .f32⟩
  | 102 => ⟨S_, .f32⟩
  | 103 => ⟨S200000, .f32⟩
  | 104 => ⟨S2000000x1, .i32⟩
  | 105 => ⟨S200000, .f32⟩
  | 106 => ⟨S_, .f32⟩
  | 107 => ⟨S100000, .f32⟩
  | 108 => ⟨S2000000x1, .i32⟩
  | 109 => ⟨S100000, .f32⟩
  | 110 => ⟨S_, .f32⟩
  | 111 => ⟨S200000, .f32⟩
  | 112 => ⟨S200000, .i1⟩
  | 113 => ⟨S_, .f32⟩
  | 114 => ⟨S200000, .f32⟩
  | 115 => ⟨S200000, .f32⟩
  | 116 => ⟨S_, .f32⟩
  | 117 => ⟨S_, .f32⟩
  | 118 => ⟨S200000, .f32⟩
  | 119 => ⟨S200000, .f32⟩
  | 120 => ⟨S_, .f32⟩
  | 121 => ⟨S100000, .f32⟩
  | 122 => ⟨S100000, .i1⟩
  | 123 => ⟨S_, .f32⟩
  | 124 => ⟨S100000, .f32⟩
  | 125 => ⟨S100000, .f32⟩
  | 126 => ⟨S_, .f32⟩
  | 127 => ⟨S_, .f32⟩
  | _ => ⟨S100000x16, .f32⟩

abbrev hbmTy0_1 (i : Nat) : BufTy := match i % 128 with
  | 0 => ⟨S100000, .f32⟩
  | 1 => ⟨S100000, .f32⟩
  | 2 => ⟨S_, .i32⟩
  | 3 => ⟨S2000000, .i32⟩
  | 4 => ⟨S2000000, .i1⟩
  | 5 => ⟨S_, .i32⟩
  | 6 => ⟨S2000000, .i32⟩
  | 7 => ⟨S2000000, .i32⟩
  | 8 => ⟨S2000000, .i32⟩
  | 9 => ⟨S2000000x1, .i32⟩
  | 10 => ⟨S2000000x64, .f32⟩
  | 11 => ⟨S2000000x1, .f32⟩
  | 12 => ⟨S2000000x64, .f32⟩
  | 13 => ⟨S2000000x64, .f32⟩
  | 14 => ⟨S_, .f32⟩
  | 15 => ⟨S200000x64, .f32⟩
  | 16 => ⟨S2000000x1, .i32⟩
  | 17 => ⟨S200000x64, .f32⟩
  | 18 => ⟨S200000x1, .f32⟩
  | 19 => ⟨S200000x64, .f32⟩
  | 20 => ⟨S200000x64, .f32⟩
  | 21 => ⟨S_, .i32⟩
  | 22 => ⟨S2000000, .i32⟩
  | 23 => ⟨S2000000, .i1⟩
  | 24 => ⟨S_, .i32⟩
  | 25 => ⟨S2000000, .i32⟩
  | 26 => ⟨S2000000, .i32⟩
  | 27 => ⟨S2000000, .i32⟩
  | 28 => ⟨S2000000x1, .i32⟩
  | 29 => ⟨S2000000x64, .f32⟩
  | 30 => ⟨S2000000x1, .f32⟩
  | 31 => ⟨S2000000x64, .f32⟩
  | 32 => ⟨S2000000x64, .f32⟩
  | 33 => ⟨S_, .f32⟩
  | 34 => ⟨S100000x64, .f32⟩
  | 35 => ⟨S2000000x1, .i32⟩
  | 36 => ⟨S100000x64, .f32⟩
  | 37 => ⟨S100000x1, .f32⟩
  | 38 => ⟨S100000x64, .f32⟩
  | 39 => ⟨S100000x64, .f32⟩
  | 40 => ⟨S1x64, .f32⟩
  | 41 => ⟨S100000x64, .f32⟩
  | 42 => ⟨S100000x64, .f32⟩
  | 43 => ⟨S100000x128, .f32⟩
  | 44 => ⟨S100000x64, .f32⟩
  | 45 => ⟨S1x64, .f32⟩
  | 46 => ⟨S100000x64, .f32⟩
  | 47 => ⟨S100000x64, .f32⟩
  | 48 => ⟨S_, .f32⟩
  | 49 => ⟨S100000x64, .f32⟩
  | 50 => ⟨S100000x64, .f32⟩
  | 51 => ⟨S64x192, .f32⟩
  | 52 => ⟨S100000x192, .f32⟩
  | 53 => ⟨S1x192, .f32⟩
  | 54 => ⟨S100000x192, .f32⟩
  | 55 => ⟨S100000x192, .f32⟩
  | 56 => ⟨S64x192, .f32⟩
  | 57 => ⟨S100000x192, .f32⟩
  | 58 => ⟨S1x192, .f32⟩
  | 59 => ⟨S100000x192, .f32⟩
  | 60 => ⟨S100000x192, .f32⟩
  | 61 => ⟨S100000x64, .f32⟩
  | 62 => ⟨S100000x64, .f32⟩
  | 63 => ⟨S100000x64, .f32⟩
  | 64 => ⟨S100000x64, .f32⟩
  | 65 => ⟨S100000x64, .f32⟩
  | 66 => ⟨S100000x64, .f32⟩
  | 67 => ⟨S100000x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S100000x64, .f32⟩
  | 77 => ⟨S100000x64, .f32⟩
  | 78 => ⟨S100000x64, .f32⟩
  | 79 => ⟨S_, .f32⟩
  | 80 => ⟨S100000x64, .f32⟩
  | 81 => ⟨S100000x64, .f32⟩
  | 82 => ⟨S_, .f32⟩
  | 83 => ⟨S100000x64, .f32⟩
  | 84 => ⟨S100000x64, .f32⟩
  | 85 => ⟨S100000x64, .f32⟩
  | 86 => ⟨S100000x64, .f32⟩
  | 87 => ⟨S100000x64, .f32⟩
  | 88 => ⟨S_, .f32⟩
  | 89 => ⟨S100000x64, .f32⟩
  | 90 => ⟨S100000x64, .f32⟩
  | 91 => ⟨S100000x64, .f32⟩
  | 92 => ⟨S100000x64, .f32⟩
  | 93 => ⟨S100000x64, .f32⟩
  | 94 => ⟨S100000x64, .f32⟩
  | 95 => ⟨S1x64, .f32⟩
  | 96 => ⟨S100000x64, .f32⟩
  | 97 => ⟨S100000x64, .f32⟩
  | 98 => ⟨S100000x3, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_v15 : Ref sig .tc := ⟨.hbm, 34, rfl⟩
abbrev main_cst_2 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v18 : Ref sig .tc := ⟨.hbm, 41, rfl⟩
abbrev main_cst_4 : Ref sig .tc := ⟨.hbm, 42, rfl⟩
abbrev main_v19 : Ref sig .tc := ⟨.hbm, 43, rfl⟩
abbrev main_v20 : Ref sig .tc := ⟨.hbm, 44, rfl⟩
abbrev main_cst_5 : Ref sig .tc := ⟨.hbm, 45, rfl⟩
abbrev main_v21 : Ref sig .tc := ⟨.hbm, 46, rfl⟩
abbrev main_v22 : Ref sig .tc := ⟨.hbm, 47, rfl⟩
abbrev main_cst_6 : Ref sig .tc := ⟨.hbm, 48, rfl⟩
abbrev main_call1_v0 : Ref sig .tc := ⟨.hbm, 49, rfl⟩
abbrev main_call1_v1 : Ref sig .tc := ⟨.hbm, 50, rfl⟩
abbrev main_v23 : Ref sig .tc := ⟨.hbm, 51, rfl⟩
abbrev main_c_7 : Ref sig .tc := ⟨.hbm, 52, rfl⟩
abbrev main_v24 : Ref sig .tc := ⟨.hbm, 53, rfl⟩
abbrev main_v25 : Ref sig .tc := ⟨.hbm, 54, rfl⟩
abbrev main_c_8 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_9 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_c_10 : Ref sig .tc := ⟨.hbm, 71, rfl⟩
abbrev main_v40 : Ref sig .tc := ⟨.hbm, 72, rfl⟩
abbrev main_v41 : Ref sig .tc := ⟨.hbm, 73, rfl⟩
abbrev main_c_11 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_12 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_c_13 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_14 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_15 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_16 : Ref sig .tc := ⟨.hbm, 110, rfl⟩
abbrev main_v73 : Ref sig .tc := ⟨.hbm, 111, rfl⟩
abbrev main_v74 : Ref sig .tc := ⟨.hbm, 112, rfl⟩
abbrev main_cst_17 : Ref sig .tc := ⟨.hbm, 113, rfl⟩
abbrev main_v75 : Ref sig .tc := ⟨.hbm, 114, rfl⟩
abbrev main_v76 : Ref sig .tc := ⟨.hbm, 115, rfl⟩
abbrev main_cst_18 : Ref sig .tc := ⟨.hbm, 116, rfl⟩
abbrev main_call2_v0 : Ref sig .tc := ⟨.hbm, 117, rfl⟩
abbrev main_call2_v1 : Ref sig .tc := ⟨.hbm, 118, rfl⟩
abbrev main_v77 : Ref sig .tc := ⟨.hbm, 119, rfl⟩
abbrev main_cst_19 : Ref sig .tc := ⟨.hbm, 120, rfl⟩
abbrev main_v78 : Ref sig .tc := ⟨.hbm, 121, rfl⟩
abbrev main_v79 : Ref sig .tc := ⟨.hbm, 122, rfl⟩
abbrev main_cst_20 : Ref sig .tc := ⟨.hbm, 123, rfl⟩
abbrev main_v80 : Ref sig .tc := ⟨.hbm, 124, rfl⟩
abbrev main_v81 : Ref sig .tc := ⟨.hbm, 125, rfl⟩
abbrev main_cst_21 : Ref sig .tc := ⟨.hbm, 126, rfl⟩
abbrev main_call3_v0 : Ref sig .tc := ⟨.hbm, 127, rfl⟩
abbrev main_call3_v1 : Ref sig .tc := ⟨.hbm, 128, rfl⟩
abbrev main_v82 : Ref sig .tc := ⟨.hbm, 129, rfl⟩
abbrev main_c_22 : Ref sig .tc := ⟨.hbm, 130, rfl⟩
abbrev main_v83 : Ref sig .tc := ⟨.hbm, 131, rfl⟩
abbrev main_v84 : Ref sig .tc := ⟨.hbm, 132, rfl⟩
abbrev main_c_23 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_cst_24 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_c_25 : Ref sig .tc := ⟨.hbm, 149, rfl⟩
abbrev main_v99 : Ref sig .tc := ⟨.hbm, 150, rfl⟩
abbrev main_v100 : Ref sig .tc := ⟨.hbm, 151, rfl⟩
abbrev main_c_26 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_cst_27 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_call4_cst : Ref sig .tc := ⟨.hbm, 176, rfl⟩
abbrev main_call4_v0 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_cst_28 : Ref sig .tc := ⟨.hbm, 198, rfl⟩
abbrev main_v143 : Ref sig .tc := ⟨.hbm, 199, rfl⟩
abbrev main_v144 : Ref sig .tc := ⟨.hbm, 200, rfl⟩
abbrev main_cst_29 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_cst_30 : Ref sig .tc := ⟨.hbm, 207, rfl⟩
abbrev main_v150 : Ref sig .tc := ⟨.hbm, 208, rfl⟩
abbrev main_v151 : Ref sig .tc := ⟨.hbm, 209, rfl⟩
abbrev main_cst_31 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_cst_32 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  slices_S2x16x64_S1x16x64_0_0_0 : S2x16x64.Slices ![0, 0, 0] S1x16x64
  shapeCasts_S1x16x64_S16x64 : S1x16x64.ShapeCasts S16x64
  slices_S2x64_S1x64_0_0 : S2x64.Slices ![0, 0] S1x64
  shapeCasts_S1x64_S64 : S1x64.ShapeCasts S64
  bcast_S_S200000 : S_.BroadcastsInDim S200000 (![] : Fin 0 → Fin S200000.rank)
  bcast_S2000000_S2000000x1_0 : S2000000.BroadcastsInDim S2000000x1 (![0] : Fin 1 → Fin S2000000x1.rank)
  bcast_S_S100000 : S_.BroadcastsInDim S100000 (![] : Fin 0 → Fin S100000.rank)
  bcast_S2000000x1_S2000000x64_0_1 : S2000000x1.BroadcastsInDim S2000000x64 (![0, 1] : Fin 2 → Fin S2000000x64.rank)
  bcast_S_S200000x64 : S_.BroadcastsInDim S200000x64 (![] : Fin 0 → Fin S200000x64.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x16x64_S1x16x64_1_0_0 : S2x16x64.Slices ![1, 0, 0] S1x16x64
  slices_S2x64_S1x64_1_0 : S2x64.Slices ![1, 0] S1x64
  concatenates_S100000x64_S100000x64_S100000x128_d1 : Shape.Concatenates [S100000x64, S100000x64] S100000x128 1
  transposes_S192x64_S64x192_1_0 : S192x64.Transposes [1, 0] S64x192
  bcast_S192_S1x192_1 : S192.BroadcastsInDim S1x192 (![1] : Fin 1 → Fin S1x192.rank)
  bcast_S1x192_S100000x192_0_1 : S1x192.BroadcastsInDim S100000x192 (![0, 1] : Fin 2 → Fin S100000x192.rank)
  slices_S100000x192_S100000x64_0_0 : S100000x192.Slices ![0, 0] S100000x64
  slices_S100000x192_S100000x64_0_64 : S100000x192.Slices ![0, 64] S100000x64
  slices_S100000x192_S100000x64_0_128 : S100000x192.Slices ![0, 128] S100000x64
  slices_S100000x64_S100000x3_0_0 : S100000x64.Slices ![0, 0] S100000x3
  dot_S100000x16_S16x64_S100000x64_1_0_0_1_n_n_wf : DotDims.WF S100000x16 S16x64 S100000x64 [1] [0] [0] [1] [] []
  scatter_S200000_S2000000x1_S2000000_n_0_0_1_wf : ScatterDims.WF S200000 S2000000x1 S2000000 [] [0] [0] 1
  scatter_S100000_S2000000x1_S2000000_n_0_0_1_wf : ScatterDims.WF S100000 S2000000x1 S2000000 [] [0] [0] 1
  gather_S100000x64_S2000000x1_S2000000x64_1_0_n_n_0_1_164_wf : GatherDims.WF S100000x64 S2000000x1 S2000000x64 [1] [0] [] [0] [] 1 ![1, 64]
  scatter_S200000x64_S2000000x1_S2000000x64_1_0_0_1_wf : ScatterDims.WF S200000x64 S2000000x1 S2000000x64 [1] [0] [0] 1
  gather_S200000x64_S2000000x1_S2000000x64_1_0_n_n_0_1_164_wf : GatherDims.WF S200000x64 S2000000x1 S2000000x64 [1] [0] [] [0] [] 1 ![1, 64]
  scatter_S100000x64_S2000000x1_S2000000x64_1_0_0_1_wf : ScatterDims.WF S100000x64 S2000000x1 S2000000x64 [1] [0] [0] 1
  dot_S100000x128_S128x64_S100000x64_1_0_0_1_n_n_wf : DotDims.WF S100000x128 S128x64 S100000x64 [1] [0] [0] [1] [] []
  dot_S100000x64_S64x192_S100000x192_1_0_0_1_n_n_wf : DotDims.WF S100000x64 S64x192 S100000x192 [1] [0] [0] [1] [] []
  dot_S100000x64_S64x64_S100000x64_1_0_0_1_n_n_wf : DotDims.WF S100000x64 S64x64 S100000x64 [1] [0] [0] [1] [] []

variable [Facts₀]

def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def scatter_S200000_S2000000x1_S2000000_n_0_0_1 : ScatterDims S200000 S2000000x1 S2000000 where
  updateWindowDims := []
  insertedWindowDims := [0]
  scatterDimsToOperandDims := [0]
  indexVectorDim := 1
  wf := scatter_S200000_S2000000x1_S2000000_n_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x192_S100000x192_1_0_0_1_n_n : DotDims S100000x64 S64x192 S100000x192 where
  lhsContracting := [1]
  rhsContracting := [0]
  lhsNonContracting := [0]
  rhsNonContracting := [1]
  lhsBatch := []
  rhsBatch := []
  wf := dot_S100000x64_S64x192_S100000x192_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.RefFrame.lean ====
/-
  The reference program has no kernel launch: its run is a straight line of host operations, and its frame claim
  is that run with the results forgotten.
-/
import proofs.«119679_j17197049053669_2_alg».proof.Defs
import proofs.«119679_j17197049053669_2_alg».proof.Proof.Gen.ReferenceIdeal
import proofs.«119679_j17197049053669_2_alg».proof.Proof.Gen.Pre_finite_inputs
import proofs.«119679_j17197049053669_2_alg».proof.Proof.RefReadP

noncomputable section

open Idealize.ShloMosaic Idealize.ShloMosaic.TcCoe Idealize.SL.Sem

namespace Cert.Hyper

/-- Every weakly fair execution of the reference terminates without a fault and leaves its arguments as launched. -/
theorem frame_ref : Cert.frame_ReferenceIdeal := fun m ρ _ =>
  (θ_run Cert.ReferenceIdeal.defs _ _).mono (fun _ h c => (h c).2.2) (Cert.ReferenceIdeal.Value.run (F := Ideal) m ρ)

end Cert.Hyper

end
-- ==== Proof.KRun.lean ====
/-
  The idealized kernel program's run with its two results named.

  @main is ten segments: stretches of host operations and the two kernel launches.  The buffer contents at each
  segment boundary are a fold from the launch memory: a host stretch applies its operations, a launch leaves each of
  its arrays at what its write-backs fold to and every other buffer alone.  Every weakly fair execution ends with
  every unscoped buffer at the last boundary's contents; read at the two result buffers and at the arguments this is
  the statement below.  The arguments end as launched because no segment writes one.
-/
import proofs.«119679_j17197049053669_2_alg».proof.Proof.Gen.KernelIdeal.Frame

set_option maxRecDepth 16384

noncomputable section

namespace Cert.Hyper.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault, with the two results at the last
    boundary's contents and the arguments as launched. -/
theorem run : θ_run defs (onTc (τ := τ) (main (F := F))) ⟨m, fun _ => 0, ρ⟩ (fun r => ∀ c : Dev nD,
      r.2.mem ((c.tc : Thread nD τ).loc main_v66) = W10 m ρ c (Proc.devRef .tc main_v66)
      ∧ r.2.mem ((c.tc : Thread nD τ).loc main_v68) = W10 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v66 (by decide)), h c _ (mem_uc main_v68 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c)⟩)

end Cert.Hyper.KRun

end
-- ==== Proof.Spec.lean ====
/-
  One node of the network, after the hypergraph convolution, as a function of that node's two convolution rows
  `c0 c1` (one per edge type) and its previous hidden row `hp`:

    hid    = max (c0 · Wm0 + c1 · Wm1 + bm) 0                         the mixing layer and the rectifier
    gi, gh = hid · Wi + bi,  hp · Wh + bh                             the two gate pre-activations, 3 × 64 lanes each
    r, z   = σ (gi₀ + gh₀), σ (gi₁ + gh₁)                             reset and update gates
    n      = tanh (gi₂ + r · gh₂)                                     candidate
    hnext  = (1 − z) · n + z · hp
    pred   = hnext · Wo + bo

  Everything is on the extended reals; no entry is assumed finite.  The weights are whatever arrays the two programs
  hand over, read as functions of their coordinates (row of the product first): both programs hand over the same ones.
-/
import Idealize.ShloMosaic.PureOps.Ideal
import Idealize.ShloMosaic.Lib.ValueIdx

noncomputable section

open scoped BigOperators
open Idealize.ShloMosaic Idealize.ShloMosaic.ValueIdx

namespace Cert.Hyper

/-- Column `k` of the first 64-lane half of a 128-lane row. -/
def lo (k : Fin 64) : Fin 128 := ⟨k.val, by omega⟩

/-- Column `k` of the second 64-lane half of a 128-lane row. -/
def hi (k : Fin 64) : Fin 128 := ⟨64 + k.val, by omega⟩

/-! ## Two layouts of one pair of arrays

The fused program keeps the two edge types' 64-lane arrays side by side in one 128-lane array, and their per-row
scalars side by side in a 2-column array; the other program keeps them apart. -/

/-- `A` is `A0` and `A1` side by side: its first 64 lanes are `A0`'s, its last 64 are `A1`'s. -/
def Fused {n : Nat} (A : (⟨2, ![n, 128]⟩ : Shape).Idx → EReal) (A0 A1 : (⟨2, ![n, 64]⟩ : Shape).Idx → EReal) : Prop :=
  ∀ (p : Fin n) (j : Fin 64), A (ix2 p (lo j)) = A0 (ix2 p j) ∧ A (ix2 p (hi j)) = A1 (ix2 p j)

/-- `D`'s two columns are the vectors `D0` and `D1`. -/
def Paired {n : Nat} (D : (⟨2, ![n, 2]⟩ : Shape).Idx → EReal) (D0 D1 : (⟨1, ![n]⟩ : Shape).Idx → EReal) : Prop :=
  ∀ p : Fin n, D (ix2 p (0 : Fin 2)) = D0 (ix1 p) ∧ D (ix2 p (1 : Fin 2)) = D1 (ix1 p)

/-- `M` repeats `d0` along its first 64 lanes and `d1` along its last 64. -/
def Lanes {n : Nat} (M : (⟨2, ![n, 128]⟩ : Shape).Idx → EReal) (d0 d1 : (⟨1, ![n]⟩ : Shape).Idx → EReal) : Prop :=
  ∀ (p : Fin n) (j : Fin 64), M (ix2 p (lo j)) = d0 (ix1 p) ∧ M (ix2 p (hi j)) = d1 (ix1 p)

/-- `B` repeats the vector `d` along its 64 lanes. -/
def Cols {n : Nat} (B : (⟨2, ![n, 64]⟩ : Shape).Idx → EReal) (d : (⟨1, ![n]⟩ : Shape).Idx → EReal) : Prop :=
  ∀ (p : Fin n) (j : Fin 64), B (ix2 p j) = d (ix1 p)

/-- Lane `j` of gate group `g` (0 reset, 1 update, 2 candidate) among the 192 gate lanes. -/
def lane (g : Fin 3) (j : Fin 64) : Fin 192 := ⟨64 * g.val + j.val, by omega⟩

section Head

variable (c0 c1 hp : Fin 64 → EReal)
  (Wm0 Wm1 : Fin 64 → Fin 64 → EReal) (bm : Fin 64 → EReal)
  (Wi Wh : Fin 64 → Fin 192 → EReal) (bi bh : Fin 192 → EReal)
  (Wo : Fin 64 → Fin 64 → EReal) (bo : Fin 64 → EReal)

/-- The mixing layer and the rectifier. -/
def hid (j : Fin 64) : EReal :=
  max (((∑ k : Fin 64, c0 k * Wm0 k j) + (∑ k : Fin 64, c1 k * Wm1 k j)) + bm j)
    (Ideal.ofBits .f32 0x00000000#32)

/-- The input-side gate pre-activations. -/
def gi (q : Fin 192) : EReal := (∑ k : Fin 64, hid c0 c1 Wm0 Wm1 bm k * Wi k q) + bi q

/-- The hidden-side gate pre-activations. -/
def gh (q : Fin 192) : EReal := (∑ k : Fin 64, hp k * Wh k q) + bh q

/-- The reset gate. -/
def rgate (j : Fin 64) : EReal :=
  Ideal.logistic (gi c0 c1 Wm0 Wm1 bm Wi bi (lane 0 j) + gh hp Wh bh (lane 0 j))

/-- The update gate. -/
def zgate (j : Fin 64) : EReal :=
  Ideal.logistic (gi c0 c1 Wm0 Wm1 bm Wi bi (lane 1 j) + gh hp Wh bh (lane 1 j))

/-- The candidate state. -/
def cand (j : Fin 64) : EReal :=
  Ideal.tanh (gi c0 c1 Wm0 Wm1 bm Wi bi (lane 2 j) + rgate c0 c1 hp Wm0 Wm1 bm Wi Wh bi bh j * gh hp Wh bh (lane 2 j))

/-- The next hidden state. -/
def hnext (j : Fin 64) : EReal :=
  (Ideal.ofBits .f32 0x3F800000#32 - zgate c0 c1 hp Wm0 Wm1 bm Wi Wh bi bh j) * cand c0 c1 hp Wm0 Wm1 bm Wi Wh bi bh j
    + zgate c0 c1 hp Wm0 Wm1 bm Wi Wh bi bh j * hp j

/-- The prediction head. -/
def pred (j : Fin 64) : EReal :=
  (∑ k : Fin 64, hnext c0 c1 hp Wm0 Wm1 bm Wi Wh bi bh k * Wo k j) + bo j

end Head

end Cert.Hyper

end
-- ==== Proof.LibOutlined.lean ====
/-
  Two facts about a line of host operations, for any program.

  * The buffer contents after two lines run one after the other are the second line's contents from the first's:
    `after (l₁ ++ l₂) V = after l₂ (after l₁ V)`. A long line can therefore be read back one stretch at a time, each
    stretch from an arbitrary valuation, and the readings composed.
  * An operation of an outlined function carries each value to its buffer's own type and, at the next operation, back
    (`TRef.toBuf`, `TRef.ofBuf`: transport along the equation "the buffer's type is the value's"). A value carried there
    and back is unchanged, whatever the buffer: `x.ofBuf (x.toBuf v) = v`. Rewriting with it (it matches syntactically,
    no buffer type is evaluated) clears every intermediate of an outlined function from the contents after its
    operations; what is left are the transports at the function's inputs and results, one small equation each.
-/
import Idealize.ShloMosaic.Lib.StableHlo.Run

noncomputable section

namespace Cert.Lib.Outlined

open Idealize.ShloMosaic Idealize.ShloMosaic.StableHlo

variable {τ : Topo} {sig : RefSig} {Val : EltTy → Type}

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => exact ih _

/-- Contents carried to a buffer's own type and back are unchanged. -/
theorem ofBuf_toBuf {T : BufTy} (x : TRef sig T) (v : T.Contents Val) : x.ofBuf (x.toBuf v) = v := by
  obtain ⟨r, h, _, _⟩ := x
  subst h
  rfl

/-- The other way round. -/
theorem toBuf_ofBuf {T : BufTy} (x : TRef sig T) (u : x.ref.ty.Contents Val) : x.toBuf (x.ofBuf u) = u := by
  obtain ⟨r, h, _, _⟩ := x
  subst h
  rfl

end Cert.Lib.Outlined

end
-- ==== Proof.LibConcatPair.lean ====
/-
  A concatenation of two arrays as a function of the two arrays alone.

  `concatenate t a xs h` takes its operands as a list of (shape, array) pairs, and the evidence `h` that the shapes fit is
  stated about that list. So the type of `h` mentions the arrays, and a rewrite of an operand inside the list has to carry
  `h` along: rewriting under a concatenation stops there. For two operands `pair` is the same array with the evidence
  stated about the two shapes only; `concatenate_pair` turns the one into the other (the two are the same term up to
  unfolding), after which both operands are ordinary arguments and can be rewritten.
-/
import Idealize.ShloMosaic.PureOps.ShapeOps

noncomputable section

namespace Cert.Lib.ConcatPair

open Idealize.ShloMosaic

variable {α : Type}

/-- Two arrays joined along axis `a` of the result shape `t`. -/
def pair (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

/-- A two-operand concatenation is `pair` of its operands. -/
theorem concatenate_pair (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = pair t a s₁ s₂ x₁ x₂ h := rfl

end Cert.Lib.ConcatPair

end
-- ==== Proof.LibReadLine.lean ====
/-
  One tactic for reading a buffer's contents after a line of host operations.

  The contents after a line are a fold of the operations' results over the contents before it. Reading the fold at one
  buffer is a computation: each operation's result at its own result buffer is its function of its operands' contents, and
  at any other buffer what was there (the references differ: decided). `read_line` does this in one simplifier pass — so
  that a value with several consumers is visited once — with two additions:
    * a two-operand concatenation is opened into a function of its two operands (`Cert.Lib.ConcatPair`), so that the pass
      goes on inside them;
    * a value carried to an outlined function's buffer and back is left as it was (`Cert.Lib.Outlined.ofBuf_toBuf`).
  It leaves an equation between a pure term over the contents at the line's inputs and the goal's right-hand side (closed
  by `rfl` against the same term, or by the lemma that names the term), or closes the goal when the buffer is not written.
-/
import Idealize.ShloMosaic.Lib.StableHlo.Run
import proofs.«119679_j17197049053669_2_alg».proof.Proof.LibOutlined
import proofs.«119679_j17197049053669_2_alg».proof.Proof.LibConcatPair

namespace Cert.Lib.ReadLine

/-- Reads `after ops V (Proc.devRef .tc r)` for a literal list `ops` (possibly several nested `after`s): see the
    module's header. -/
macro "read_line" : tactic =>
  `(tactic| simp (disch := decide) only [Idealize.ShloMosaic.StableHlo.after_cons, Idealize.ShloMosaic.StableHlo.after_nil,
      Idealize.ShloMosaic.StableHlo.nullary_result', Idealize.ShloMosaic.StableHlo.unary_result',
      Idealize.ShloMosaic.StableHlo.binary_result', Idealize.ShloMosaic.StableHlo.ternary_result',
      Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne',
      Idealize.ShloMosaic.StableHlo.binary_result_ne', Idealize.ShloMosaic.StableHlo.ternary_result_ne',
      Idealize.ShloMosaic.StableHlo.quaternary_result_ne', Idealize.ShloMosaic.StableHlo.reshape_result_ne',
      Idealize.ShloMosaic.StableHlo.nary_result_ne', Idealize.ShloMosaic.StableHlo.unaryIndexed_result_ne',
      Idealize.ShloMosaic.StableHlo.binaryIndexed_result_ne',
      Cert.Lib.ConcatPair.concatenate_pair, Cert.Lib.Outlined.ofBuf_toBuf])

end Cert.Lib.ReadLine
-- ==== Proof.KHost.lean ====
/-
  The host side of the fused program, read at entries: the results, the first launch's inputs, and the arrays the host
  stretch between the launches starts from.

  Between the launch and the return the program's buffers pass through a fixed sequence of contents: the launch memory, then
  the contents after each stretch of host operations, with the arrays of each of the two kernel launches replaced, at the
  launch's exit, by what its pipeline leaves.  A stretch is read at one buffer for ANY contents before it, then instantiated.

    * The two results are lane slices of the second launch's output array: lanes 0..63, and the first 3 of lanes 64..127.
    * The first launch reads the node features as launched, and the two edge types' weight matrices side by side: the
      `[2, 16, 64]` argument cut into its two `[16, 64]` matrices and joined along the lanes.
    * The stretch between the launches starts from three argument arrays, which nothing before it writes, and from the first
      launch's output array, which holds what that launch's pipeline leaves.
-/
import proofs.«119679_j17197049053669_2_alg».proof.Proof.Gen.KernelIdeal.Frame
import proofs.«119679_j17197049053669_2_alg».proof.Proof.Spec
import proofs.«119679_j17197049053669_2_alg».proof.Proof.LibReadLine
import Idealize.ShloMosaic.Lib.Pipeline.Value
import Idealize.ShloMosaic.Lib.ValueLayout
import Idealize.ShloMosaic.Lib.ValueIdx

noncomputable section

open scoped BigOperators
open Idealize.ShloMosaic Idealize.ShloMosaic.TcCoe Idealize.ShloMosaic.ValueIdx Idealize.SL.Sem
open Cert.KernelIdeal Cert.KernelIdeal.Gen
open Cert.Lib.ReadLine

namespace Cert.Hyper.KHost

/-! ## One stretch of host operations read at one buffer, whatever the contents before it -/

section Lines
variable (V : Valuation τ sig (Elt Ideal))

/-- The first stretch writes none of these arguments. -/
theorem keep0_arg0 : StableHlo.after hostOps0 V (Proc.devRef .tc main_arg0) = V (Proc.devRef .tc main_arg0) := by read_line
theorem keep0_arg2 : StableHlo.after hostOps0 V (Proc.devRef .tc main_arg2) = V (Proc.devRef .tc main_arg2) := by read_line
theorem keep0_arg3 : StableHlo.after hostOps0 V (Proc.devRef .tc main_arg3) = V (Proc.devRef .tc main_arg3) := by read_line
theorem keep0_arg4 : StableHlo.after hostOps0 V (Proc.devRef .tc main_arg4) = V (Proc.devRef .tc main_arg4) := by read_line
theorem keep0_arg5 : StableHlo.after hostOps0 V (Proc.devRef .tc main_arg5) = V (Proc.devRef .tc main_arg5) := by read_line

/-- The first result is lanes 0..63 of the second launch's output array. -/
theorem tail66_apply (n : Fin 100000) (j : Fin 64) :
    (StableHlo.after hostOps2 V (Proc.devRef .tc main_v66) : S100000x64.Idx → EReal) (ix2 n j)
      = (V (Proc.devRef .tc main_v65) : S100000x128.Idx → EReal) (ix2 n (lo j)) := by
  read_line
  exact slice2_axis1_apply 0 _ _ n j (lo j) (by show j.val = 0 + j.val; omega)

/-- The second result is the first 3 of lanes 64..127. -/
theorem tail68_apply (n : Fin 100000) (j : Fin 3) :
    (StableHlo.after hostOps2 V (Proc.devRef .tc main_v68) : S100000x3.Idx → EReal) (ix2 n j)
      = (V (Proc.devRef .tc main_v65) : S100000x128.Idx → EReal) (ix2 n (hi ⟨j.val, by omega⟩)) := by
  read_line
  refine (slice2_axis1_apply 0 _ _ n j (⟨j.val, by omega⟩ : Fin 64) (by show j.val = 0 + j.val; omega)).trans ?_
  exact slice2_axis1_apply 64 _ _ n (⟨j.val, by omega⟩ : Fin 64) (hi ⟨j.val, by omega⟩) rfl

/-- The first launch's weight array at lanes 0..63: the first of the argument's two matrices. -/
theorem xw_lo_apply (k : Fin 16) (j : Fin 64) :
    (StableHlo.after hostOps0 V (Proc.devRef .tc main_v4) : S16x128.Idx → EReal) (ix2 k (lo j))
      = (V (Proc.devRef .tc main_arg5) : S2x16x64.Idx → EReal) (ix3 (0 : Fin 2) k j) := by
  read_line
  unfold Cert.Lib.ConcatPair.pair
  refine (concatenate_pair_apply_left (t := S16x128) (s₁ := S16x64) (s₂ := S16x64) (1 : Fin 2) _ _ _ (ix2 k (lo j)) rfl (ix2 k j)
    (fun b => match b with | ⟨0, _⟩ => rfl | ⟨1, _⟩ => rfl)).trans ?_
  refine (shapeCast_1ab_ab_apply _ _ k j).trans ?_
  exact extractStridedSlice_apply _ _ _ _ (ix3 (0 : Fin 2) k j) (fun a => match a with
    | ⟨0, _⟩ => rfl
    | ⟨1, _⟩ => (Nat.zero_add _).symm
    | ⟨2, _⟩ => (Nat.zero_add _).symm)

/-- At lanes 64..127: the second. -/
theorem xw_hi_apply (k : Fin 16) (j : Fin 64) :
    (StableHlo.after hostOps0 V (Proc.devRef .tc main_v4) : S16x128.Idx → EReal) (ix2 k (hi j))
      = (V (Proc.devRef .tc main_arg5) : S2x16x64.Idx → EReal) (ix3 (1 : Fin 2) k j) := by
  read_line
  unfold Cert.Lib.ConcatPair.pair
  refine (concatenate_pair_apply_right (t := S16x128) (s₁ := S16x64) (s₂ := S16x64) (1 : Fin 2) _ _ _ (ix2 k (hi j)) rfl rfl (ix2 k j)
    (fun b => match b with | ⟨0, _⟩ => fun _ => rfl | ⟨1, _⟩ => fun h => absurd rfl h)
    (by show j.val + 64 = 64 + j.val; omega)).trans ?_
  refine (shapeCast_1ab_ab_apply _ _ k j).trans ?_
  exact extractStridedSlice_apply _ _ _ _ (ix3 (1 : Fin 2) k j) (fun a => match a with
    | ⟨0, _⟩ => rfl
    | ⟨1, _⟩ => (Nat.zero_add _).symm
    | ⟨2, _⟩ => (Nat.zero_add _).symm)

end Lines

variable (m : (ℓ : Loc nD τ sig) → Buf (Elt Ideal) ℓ) (ρ : Dev nD → PrngReg) (c : Dev nD)

/-! ## The results -/

/-- The first result, at `(n, j)`, is the second launch's output array at `(n, lo j)`. -/
theorem tail_hnext (n : Fin 100000) (j : Fin 64) :
    (W10 m ρ c (Proc.devRef .tc main_v66) : S100000x64.Idx → EReal) (ix2 n j)
      = ((dat1 (F := Ideal) (V8 m ρ) c).arrAt 13 cfg1.N : S100000x128.Idx → EReal) (ix2 n (lo j)) :=
  (tail66_apply (W9 m ρ c) n j).trans
    (congrArg (fun X : S100000x128.Idx → EReal => X (ix2 n (lo j))) (W9_arr m ρ c 13))

/-- The second result, at `(n, j)`, `j` below 3, is the second launch's output array at `(n, hi j)`. -/
theorem tail_pred (n : Fin 100000) (j : Fin 3) :
    (W10 m ρ c (Proc.devRef .tc main_v68) : S100000x3.Idx → EReal) (ix2 n j)
      = ((dat1 (F := Ideal) (V8 m ρ) c).arrAt 13 cfg1.N : S100000x128.Idx → EReal) (ix2 n (hi ⟨j.val, by omega⟩)) :=
  (tail68_apply (W9 m ρ c) n j).trans
    (congrArg (fun X : S100000x128.Idx → EReal => X (ix2 n (hi ⟨j.val, by omega⟩))) (W9_arr m ρ c 13))

/-! ## The first launch's inputs at its entry -/

/-- The node features are as launched. -/
theorem in_x : V1 m ρ c main_arg0 = m ((c : Thread nD τ).loc main_arg0) :=
  (keep0_arg0 (W0 m ρ c)).trans rfl

/-- The weight array's lanes 0..63 hold the first edge type's matrix … -/
theorem in_w_lo (k : Fin 16) (j : Fin 64) :
    (V1 m ρ c main_v4 : S16x128.Idx → EReal) (ix2 k (lo j))
      = (m ((c : Thread nD τ).loc main_arg5) : S2x16x64.Idx → EReal) (ix3 (0 : Fin 2) k j) :=
  (xw_lo_apply (W0 m ρ c) k j).trans rfl

/-- … and its lanes 64..127 the second's. -/
theorem in_w_hi (k : Fin 16) (j : Fin 64) :
    (V1 m ρ c main_v4 : S16x128.Idx → EReal) (ix2 k (hi j))
      = (m ((c : Thread nD τ).loc main_arg5) : S2x16x64.Idx → EReal) (ix3 (1 : Fin 2) k j) :=
  (xw_hi_apply (W0 m ρ c) k j).trans rfl

/-! ## What the host stretch between the launches starts from -/

/-- The three index and attribute arguments are as launched: the first stretch does not write them and they are not
    arrays of the first launch. -/
theorem leaf_nodes : W2 m ρ c (Proc.devRef .tc main_arg2) = m ((c : Thread nD τ).loc main_arg2) :=
  (W2_of_ne m ρ c main_arg2 (by decide)).trans ((keep0_arg2 (W0 m ρ c)).trans rfl)
theorem leaf_hedges : W2 m ρ c (Proc.devRef .tc main_arg3) = m ((c : Thread nD τ).loc main_arg3) :=
  (W2_of_ne m ρ c main_arg3 (by decide)).trans ((keep0_arg3 (W0 m ρ c)).trans rfl)
theorem leaf_attr : W2 m ρ c (Proc.devRef .tc main_arg4) = m ((c : Thread nD τ).loc main_arg4) :=
  (W2_of_ne m ρ c main_arg4 (by decide)).trans ((keep0_arg4 (W0 m ρ c)).trans rfl)

/-- The first launch's output array holds what its pipeline leaves. -/
theorem leaf_xw : W2 m ρ c (Proc.devRef .tc main_v5) = (dat0 (F := Ideal) (V1 m ρ) c).arrAt 2 cfg0.N :=
  W2_arr m ρ c 2

end Cert.Hyper.KHost

end
-- ==== Proof.KHostWin.lean ====
/-
  The host side of the fused program, read at entries: the second launch's weight and bias arrays at its entry.

  Each is an argument of the program passed through one layout operation of the host stretch just before the launch — a row
  slice, a transpose, a reshape — or the argument itself.  A stretch is read at one buffer for ANY contents before it; an
  argument, which no operation writes and which is not an output of either launch, is carried back to the launch memory from
  the fact that it ends as launched.  So each array is read at an entry in terms of the launch memory:

    * the previous hidden state and the output layer's weight are the arguments;
    * the mixing weight's two `[64, 64]` halves are rows 0..63 and 64..127 of the `[128, 64]` argument;
    * the two gate weights are the `[192, 64]` arguments transposed;
    * the four bias rows are the bias vectors with a unit axis in front;
    * the convolution bias row `[1, 128]` is the `[2, 64]` argument's two rows one after the other.
-/
import proofs.«119679_j17197049053669_2_alg».proof.Proof.Gen.KernelIdeal.Frame
import proofs.«119679_j17197049053669_2_alg».proof.Proof.Spec
import proofs.«119679_j17197049053669_2_alg».proof.Proof.LibReadLine
import Idealize.ShloMosaic.Lib.Pipeline.Value
import Idealize.ShloMosaic.Lib.ValueLayout
import Idealize.ShloMosaic.Lib.ValueIdx

noncomputable section

open scoped BigOperators
open Idealize.ShloMosaic Idealize.ShloMosaic.TcCoe Idealize.ShloMosaic.ValueIdx Idealize.SL.Sem
open Cert.KernelIdeal Cert.KernelIdeal.Gen
open Cert.Lib.ReadLine

namespace Cert.Hyper.KHost

/-! ## One stretch of host operations read at one buffer, whatever the contents before it -/

section Lines
variable (V : Valuation τ sig (Elt Ideal))

/-! The last stretch writes none of the arguments … -/
theorem keep2_arg1 : StableHlo.after hostOps2 V (Proc.devRef .tc main_arg1) = V (Proc.devRef .tc main_arg1) := by read_line
theorem keep2_arg6 : StableHlo.after hostOps2 V (Proc.devRef .tc main_arg6) = V (Proc.devRef .tc main_arg6) := by read_line
theorem keep2_arg7 : StableHlo.after hostOps2 V (Proc.devRef .tc main_arg7) = V (Proc.devRef .tc main_arg7) := by read_line
theorem keep2_arg8 : StableHlo.after hostOps2 V (Proc.devRef .tc main_arg8) = V (Proc.devRef .tc main_arg8) := by read_line
theorem keep2_arg9 : StableHlo.after hostOps2 V (Proc.devRef .tc main_arg9) = V (Proc.devRef .tc main_arg9) := by read_line
theorem keep2_arg10 : StableHlo.after hostOps2 V (Proc.devRef .tc main_arg10) = V (Proc.devRef .tc main_arg10) := by read_line
theorem keep2_arg11 : StableHlo.after hostOps2 V (Proc.devRef .tc main_arg11) = V (Proc.devRef .tc main_arg11) := by read_line
theorem keep2_arg12 : StableHlo.after hostOps2 V (Proc.devRef .tc main_arg12) = V (Proc.devRef .tc main_arg12) := by read_line
theorem keep2_arg13 : StableHlo.after hostOps2 V (Proc.devRef .tc main_arg13) = V (Proc.devRef .tc main_arg13) := by read_line
theorem keep2_arg14 : StableHlo.after hostOps2 V (Proc.devRef .tc main_arg14) = V (Proc.devRef .tc main_arg14) := by read_line

/-! … nor does the stretch before the second launch. -/
theorem keep15_arg6 : StableHlo.after hostOps1_5 V (Proc.devRef .tc main_arg6) = V (Proc.devRef .tc main_arg6) := by read_line
theorem keep15_arg7 : StableHlo.after hostOps1_5 V (Proc.devRef .tc main_arg7) = V (Proc.devRef .tc main_arg7) := by read_line
theorem keep15_arg8 : StableHlo.after hostOps1_5 V (Proc.devRef .tc main_arg8) = V (Proc.devRef .tc main_arg8) := by read_line
theorem keep15_arg9 : StableHlo.after hostOps1_5 V (Proc.devRef .tc main_arg9) = V (Proc.devRef .tc main_arg9) := by read_line
theorem keep15_arg10 : StableHlo.after hostOps1_5 V (Proc.devRef .tc main_arg10) = V (Proc.devRef .tc main_arg10) := by read_line
theorem keep15_arg11 : StableHlo.after hostOps1_5 V (Proc.devRef .tc main_arg11) = V (Proc.devRef .tc main_arg11) := by read_line
theorem keep15_arg12 : StableHlo.after hostOps1_5 V (Proc.devRef .tc main_arg12) = V (Proc.devRef .tc main_arg12) := by read_line
theorem keep15_arg14 : StableHlo.after hostOps1_5 V (Proc.devRef .tc main_arg14) = V (Proc.devRef .tc main_arg14) := by read_line

/-- Rows 0..63 of the mixing weight. -/
theorem pre_wmix_lo (k j : Fin 64) :
    (StableHlo.after hostOps1_5 V (Proc.devRef .tc main_v57) : S64x64.Idx → EReal) (ix2 k j)
      = (V (Proc.devRef .tc main_arg7) : S128x64.Idx → EReal) (ix2 (lo k) j) := by
  read_line
  exact slice2_axis0_apply 0 _ _ k j (lo k) (by show k.val = 0 + k.val; omega)

/-- Rows 64..127. -/
theorem pre_wmix_hi (k j : Fin 64) :
    (StableHlo.after hostOps1_5 V (Proc.devRef .tc main_v58) : S64x64.Idx → EReal) (ix2 k j)
      = (V (Proc.devRef .tc main_arg7) : S128x64.Idx → EReal) (ix2 (hi k) j) := by
  read_line
  exact slice2_axis0_apply 64 _ _ k j (hi k) rfl

/-- The input-side gate weight, transposed. -/
theorem pre_wih (k : Fin 64) (q : Fin 192) :
    (StableHlo.after hostOps1_5 V (Proc.devRef .tc main_v59) : S64x192.Idx → EReal) (ix2 k q)
      = (V (Proc.devRef .tc main_arg9) : S192x64.Idx → EReal) (ix2 q k) := by
  read_line
  exact transpose_ix2_apply _ _ k q

/-- The hidden-side gate weight, transposed. -/
theorem pre_whh (k : Fin 64) (q : Fin 192) :
    (StableHlo.after hostOps1_5 V (Proc.devRef .tc main_v60) : S64x192.Idx → EReal) (ix2 k q)
      = (V (Proc.devRef .tc main_arg10) : S192x64.Idx → EReal) (ix2 q k) := by
  read_line
  exact transpose_ix2_apply _ _ k q

/-- The mixing bias as a row. -/
theorem pre_bmix (j : Fin 64) :
    (StableHlo.after hostOps1_5 V (Proc.devRef .tc main_v61) : S1x64.Idx → EReal) (ix2 (0 : Fin 1) j)
      = (V (Proc.devRef .tc main_arg8) : S64.Idx → EReal) (ix1 j) := by
  read_line
  exact shapeCast_a_1a_apply _ _ (0 : Fin 1) j

/-- The input-side gate bias as a row. -/
theorem pre_bih (q : Fin 192) :
    (StableHlo.after hostOps1_5 V (Proc.devRef .tc main_v62) : S1x192.Idx → EReal) (ix2 (0 : Fin 1) q)
      = (V (Proc.devRef .tc main_arg11) : S192.Idx → EReal) (ix1 q) := by
  read_line
  exact shapeCast_a_1a_apply _ _ (0 : Fin 1) q

/-- The hidden-side gate bias as a row. -/
theorem pre_bhh (q : Fin 192) :
    (StableHlo.after hostOps1_5 V (Proc.devRef .tc main_v63) : S1x192.Idx → EReal) (ix2 (0 : Fin 1) q)
      = (V (Proc.devRef .tc main_arg12) : S192.Idx → EReal) (ix1 q) := by
  read_line
  exact shapeCast_a_1a_apply _ _ (0 : Fin 1) q

/-- The output bias as a row. -/
theorem pre_bout (j : Fin 64) :
    (StableHlo.after hostOps1_5 V (Proc.devRef .tc main_v64) : S1x64.Idx → EReal) (ix2 (0 : Fin 1) j)
      = (V (Proc.devRef .tc main_arg14) : S64.Idx → EReal) (ix1 j) := by
  read_line
  exact shapeCast_a_1a_apply _ _ (0 : Fin 1) j

/-- The convolution bias row at lanes 0..63: the argument's first row (position `k` of 128 is position `0 · 64 + k`). -/
theorem pre_bconv_lo (k : Fin 64) :
    (StableHlo.after hostOps1_5 V (Proc.devRef .tc main_v56) : S1x128.Idx → EReal) (ix2 (0 : Fin 1) (lo k))
      = (V (Proc.devRef .tc main_arg6) : S2x64.Idx → EReal) (ix2 (0 : Fin 2) k) := by
  read_line
  exact shapeCast_apply (s := S2x64) (t := S1x128) _ _ (ix2 (0 : Fin 1) (lo k)) (ix2 (0 : Fin 2) k) (by
    rw [Shape.rowMajor_val_two, Shape.rowMajor_val_two]
    show 0 * 64 + k.val = 0 * 128 + k.val
    omega)

/-- At lanes 64..127: its second row (position `64 + k` is `1 · 64 + k`). -/
theorem pre_bconv_hi (k : Fin 64) :
    (StableHlo.after hostOps1_5 V (Proc.devRef .tc main_v56) : S1x128.Idx → EReal) (ix2 (0 : Fin 1) (hi k))
      = (V (Proc.devRef .tc main_arg6) : S2x64.Idx → EReal) (ix2 (1 : Fin 2) k) := by
  read_line
  exact shapeCast_apply (s := S2x64) (t := S1x128) _ _ (ix2 (0 : Fin 1) (hi k)) (ix2 (1 : Fin 2) k) (by
    rw [Shape.rowMajor_val_two, Shape.rowMajor_val_two]
    show 1 * 64 + k.val = 0 * 128 + (64 + k.val)
    omega)

end Lines

variable (m : (ℓ : Loc nD τ sig) → Buf (Elt Ideal) ℓ) (ρ : Dev nD → PrngReg) (c : Dev nD)

/-! ## The arguments before the second launch's last host stretch are as launched

Each ends as launched; the last stretch and the second launch leave it alone, and so does the stretch before the launch. -/

theorem W7_arg6 : W7 m ρ c (Proc.devRef .tc main_arg6) = m ((c : Thread nD τ).loc main_arg6) :=
  (keep15_arg6 (W7 m ρ c)).symm.trans ((W9_of_ne m ρ c main_arg6 (by decide)).symm.trans
    ((keep2_arg6 (W9 m ρ c)).symm.trans (W10_main_arg6 m ρ c)))
theorem W7_arg7 : W7 m ρ c (Proc.devRef .tc main_arg7) = m ((c : Thread nD τ).loc main_arg7) :=
  (keep15_arg7 (W7 m ρ c)).symm.trans ((W9_of_ne m ρ c main_arg7 (by decide)).symm.trans
    ((keep2_arg7 (W9 m ρ c)).symm.trans (W10_main_arg7 m ρ c)))
theorem W7_arg8 : W7 m ρ c (Proc.devRef .tc main_arg8) = m ((c : Thread nD τ).loc main_arg8) :=
  (keep15_arg8 (W7 m ρ c)).symm.trans ((W9_of_ne m ρ c main_arg8 (by decide)).symm.trans
    ((keep2_arg8 (W9 m ρ c)).symm.trans (W10_main_arg8 m ρ c)))
theorem W7_arg9 : W7 m ρ c (Proc.devRef .tc main_arg9) = m ((c : Thread nD τ).loc main_arg9) :=
  (keep15_arg9 (W7 m ρ c)).symm.trans ((W9_of_ne m ρ c main_arg9 (by decide)).symm.trans
    ((keep2_arg9 (W9 m ρ c)).symm.trans (W10_main_arg9 m ρ c)))
theorem W7_arg10 : W7 m ρ c (Proc.devRef .tc main_arg10) = m ((c : Thread nD τ).loc main_arg10) :=
  (keep15_arg10 (W7 m ρ c)).symm.trans ((W9_of_ne m ρ c main_arg10 (by decide)).symm.trans
    ((keep2_arg10 (W9 m ρ c)).symm.trans (W10_main_arg10 m ρ c)))
theorem W7_arg11 : W7 m ρ c (Proc.devRef .tc main_arg11) = m ((c : Thread nD τ).loc main_arg11) :=
  (keep15_arg11 (W7 m ρ c)).symm.trans ((W9_of_ne m ρ c main_arg11 (by decide)).symm.trans
    ((keep2_arg11 (W9 m ρ c)).symm.trans (W10_main_arg11 m ρ c)))
theorem W7_arg12 : W7 m ρ c (Proc.devRef .tc main_arg12) = m ((c : Thread nD τ).loc main_arg12) :=
  (keep15_arg12 (W7 m ρ c)).symm.trans ((W9_of_ne m ρ c main_arg12 (by decide)).symm.trans
    ((keep2_arg12 (W9 m ρ c)).symm.trans (W10_main_arg12 m ρ c)))
theorem W7_arg14 : W7 m ρ c (Proc.devRef .tc main_arg14) = m ((c : Thread nD τ).loc main_arg14) :=
  (keep15_arg14 (W7 m ρ c)).symm.trans ((W9_of_ne m ρ c main_arg14 (by decide)).symm.trans
    ((keep2_arg14 (W9 m ρ c)).symm.trans (W10_main_arg14 m ρ c)))

/-! ## The second launch's arrays at its entry -/

/-- The previous hidden state is one of the launch's input arrays — the launch leaves it as entered — and an argument. -/
theorem win_hprev : V8 m ρ c main_arg1 = m ((c : Thread nD τ).loc main_arg1) :=
  ((W9_arr m ρ c 2).trans (((dat1 (V8 m ρ) c).arrAt_in 2 rfl _).trans (A_eq1 (V8 m ρ) c 2))).symm.trans
    ((keep2_arg1 (W9 m ρ c)).symm.trans (W10_main_arg1 m ρ c))

/-- So is the output layer's weight. -/
theorem win_wout : V8 m ρ c main_arg13 = m ((c : Thread nD τ).loc main_arg13) :=
  ((W9_arr m ρ c 11).trans (((dat1 (V8 m ρ) c).arrAt_in 11 rfl _).trans (A_eq1 (V8 m ρ) c 11))).symm.trans
    ((keep2_arg13 (W9 m ρ c)).symm.trans (W10_main_arg13 m ρ c))

theorem win_wmix_lo (k j : Fin 64) :
    (V8 m ρ c main_v57 : S64x64.Idx → EReal) (ix2 k j)
      = (m ((c : Thread nD τ).loc main_arg7) : S128x64.Idx → EReal) (ix2 (lo k) j) :=
  (pre_wmix_lo (W7 m ρ c) k j).trans (congrArg (fun X : S128x64.Idx → EReal => X (ix2 (lo k) j)) (W7_arg7 m ρ c))

theorem win_wmix_hi (k j : Fin 64) :
    (V8 m ρ c main_v58 : S64x64.Idx → EReal) (ix2 k j)
      = (m ((c : Thread nD τ).loc main_arg7) : S128x64.Idx → EReal) (ix2 (hi k) j) :=
  (pre_wmix_hi (W7 m ρ c) k j).trans (congrArg (fun X : S128x64.Idx → EReal => X (ix2 (hi k) j)) (W7_arg7 m ρ c))

theorem win_wih (k : Fin 64) (q : Fin 192) :
    (V8 m ρ c main_v59 : S64x192.Idx → EReal) (ix2 k q)
      = (m ((c : Thread nD τ).loc main_arg9) : S192x64.Idx → EReal) (ix2 q k) :=
  (pre_wih (W7 m ρ c) k q).trans (congrArg (fun X : S192x64.Idx → EReal => X (ix2 q k)) (W7_arg9 m ρ c))

theorem win_whh (k : Fin 64) (q : Fin 192) :
    (V8 m ρ c main_v60 : S64x192.Idx → EReal) (ix2 k q)
      = (m ((c : Thread nD τ).loc main_arg10) : S192x64.Idx → EReal) (ix2 q k) :=
  (pre_whh (W7 m ρ c) k q).trans (congrArg (fun X : S192x64.Idx → EReal => X (ix2 q k)) (W7_arg10 m ρ c))

theorem win_bmix (j : Fin 64) :
    (V8 m ρ c main_v61 : S1x64.Idx → EReal) (ix2 (0 : Fin 1) j)
      = (m ((c : Thread nD τ).loc main_arg8) : S64.Idx → EReal) (ix1 j) :=
  (pre_bmix (W7 m ρ c) j).trans (congrArg (fun X : S64.Idx → EReal => X (ix1 j)) (W7_arg8 m ρ c))

theorem win_bih (q : Fin 192) :
    (V8 m ρ c main_v62 : S1x192.Idx → EReal) (ix2 (0 : Fin 1) q)
      = (m ((c : Thread nD τ).loc main_arg11) : S192.Idx → EReal) (ix1 q) :=
  (pre_bih (W7 m ρ c) q).trans (congrArg (fun X : S192.Idx → EReal => X (ix1 q)) (W7_arg11 m ρ c))

theorem win_bhh (q : Fin 192) :
    (V8 m ρ c main_v63 : S1x192.Idx → EReal) (ix2 (0 : Fin 1) q)
      = (m ((c : Thread nD τ).loc main_arg12) : S192.Idx → EReal) (ix1 q) :=
  (pre_bhh (W7 m ρ c) q).trans (congrArg (fun X : S192.Idx → EReal => X (ix1 q)) (W7_arg12 m ρ c))

theorem win_bout (j : Fin 64) :
    (V8 m ρ c main_v64 : S1x64.Idx → EReal) (ix2 (0 : Fin 1) j)
      = (m ((c : Thread nD τ).loc main_arg14) : S64.Idx → EReal) (ix1 j) :=
  (pre_bout (W7 m ρ c) j).trans (congrArg (fun X : S64.Idx → EReal => X (ix1 j)) (W7_arg14 m ρ c))

theorem win_bconv_lo (k : Fin 64) :
    (V8 m ρ c main_v56 : S1x128.Idx → EReal) (ix2 (0 : Fin 1) (lo k))
      = (m ((c : Thread nD τ).loc main_arg6) : S2x64.Idx → EReal) (ix2 (0 : Fin 2) k) :=
  (pre_bconv_lo (W7 m ρ c) k).trans (congrArg (fun X : S2x64.Idx → EReal => X (ix2 (0 : Fin 2) k)) (W7_arg6 m ρ c))

theorem win_bconv_hi (k : Fin 64) :
    (V8 m ρ c main_v56 : S1x128.Idx → EReal) (ix2 (0 : Fin 1) (hi k))
      = (m ((c : Thread nD τ).loc main_arg6) : S2x64.Idx → EReal) (ix2 (1 : Fin 2) k) :=
  (pre_bconv_hi (W7 m ρ c) k).trans (congrArg (fun X : S2x64.Idx → EReal => X (ix2 (1 : Fin 2) k)) (W7_arg6 m ρ c))

end Cert.Hyper.KHost

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.BodyHead.lean ====
/-
  The second kernel body, read at one entry of its output block.

  The body takes a block of 2000 nodes: the two edge types' raw convolution sums side by side in 128 lanes, their inverse
  degrees side by side in 2 columns, the previous hidden rows, and the weights.  It scales and shifts the raw sums into the two
  convolution rows of each node, mixes them, rectifies, runs one gated recurrent step against the previous hidden row and
  applies the output layer; it stores the next hidden row in lanes 0..63 and the prediction in lanes 64..127 of the node's
  output row.

  Here: over the extended reals, entry `(p, lo j)` of what the body leaves is `hnext … j` and entry `(p, hi j)` is `pred … j`
  of node `p`'s rows, with every sum and product in the order the specification writes them.  The steps: which of the two
  stores an output entry is under; the layout operations (a lane slice, a column or a row repeated over the block) read at an
  entry; each matrix product read at an entry as a sum over its contracted coordinate; the rest is entrywise.
-/
import proofs.«119679_j17197049053669_2_alg».proof.Proof.Gen.KernelIdeal.Frame
import proofs.«119679_j17197049053669_2_alg».proof.Proof.Spec
import proofs.«119679_j17197049053669_2_alg».proof.Proof.LibDotCols
import Idealize.ShloMosaic.Lib.Pipeline.Value
import Idealize.ShloMosaic.Lib.ValueLayout
import Idealize.ShloMosaic.Lib.ValueIdx

noncomputable section

open scoped BigOperators
open Idealize.ShloMosaic Idealize.ShloMosaic.ValueIdx
open Cert.KernelIdeal Cert.KernelIdeal.Gen

namespace Cert.Hyper.Body

/-! ## Which store an output entry is under -/

theorem zeros2 : (![0, 0] : Fin 2 → Nat) = fun _ => 0 := by
  funext a; fin_cases a <;> rfl

/-- Entry `(p, j)` of the store to lanes 0..63 sits at `(p, lo j)` of the output block … -/
theorem emb_lo (p : Fin 2000) (j : Fin 64) : r1_8.emb (ix2 p j) = ix2 p (lo j) := by
  funext a
  refine Fin.ext ?_
  match a with
  | ⟨0, _⟩ => show 0 + 1 * p.val = p.val; omega
  | ⟨1, _⟩ => show 0 + 1 * j.val = j.val; omega

/-- … and entry `(p, j)` of the store to lanes 64..127 at `(p, hi j)`. -/
theorem emb_hi (p : Fin 2000) (j : Fin 64) : r1_9.emb (ix2 p j) = ix2 p (hi j) := by
  funext a
  refine Fin.ext ?_
  match a with
  | ⟨0, _⟩ => show 0 + 1 * p.val = p.val; omega
  | ⟨1, _⟩ => show 64 + 1 * j.val = 64 + j.val; omega

/-- A lane below 64 is not under the store to lanes 64..127. -/
theorem lo_not_mem_hi (p : Fin 2000) (j : Fin 64) : ix2 p (lo j) ∉ r1_9.set := by
  intro h
  have h1 := (Rect.mem_set_unit.mp h) 1
  have : (64 : Nat) ≤ j.val := h1.1
  omega

section Pair
variable {Val : EltTy → Type} [∀ e, Nonempty (Val e)] {s : Shape} {e : EltTy}

/-- Two stores, the later one listed first: under the later one the buffer holds the later one's payload. -/
theorem canon_pair_fst (r r' : Rect s) (w : r.shape.Idx → Val e) (w' : r'.shape.Idx → Val e) (x : r.shape.Idx) :
    View.canon [(⟨r, w⟩ : View.Piece Val s e), ⟨r', w'⟩] (r.emb x) = w x :=
  View.canon_cons_emb r w _ x

/-- Off the later one and under the earlier one it holds the earlier one's payload. -/
theorem canon_pair_snd (r r' : Rect s) (w : r.shape.Idx → Val e) (w' : r'.shape.Idx → Val e) (x : r'.shape.Idx)
    (h : r'.emb x ∉ r.set) :
    View.canon [(⟨r, w⟩ : View.Piece Val s e), ⟨r', w'⟩] (r'.emb x) = w' x := by
  rw [View.canon_cons_of_not_mem (⟨r, w⟩ : View.Piece Val s e) [⟨r', w'⟩] h]
  exact View.canon_cons_emb r' w' [] x

end Pair

section Stores
variable {F : FTy → Type} [FloatOps F]

/-- The output block at `(p, lo j)` is the first store's payload at `(p, j)`. -/
theorem canon_lo (w4 w3 : S2000x64.Idx → Elt F .f32) (p : Fin 2000) (j : Fin 64) :
    View.canon [(⟨r1_9, w4⟩ : View.Piece (Elt F) S2000x128 .f32), ⟨r1_8, w3⟩] (ix2 p (lo j)) = w3 (ix2 p j) := by
  have h := canon_pair_snd (Val := Elt F) r1_9 r1_8 w4 w3 (ix2 p j) (by rw [emb_lo]; exact lo_not_mem_hi p j)
  rw [emb_lo] at h
  exact h

/-- The output block at `(p, hi j)` is the second store's payload at `(p, j)`. -/
theorem canon_hi (w4 w3 : S2000x64.Idx → Elt F .f32) (p : Fin 2000) (j : Fin 64) :
    View.canon [(⟨r1_9, w4⟩ : View.Piece (Elt F) S2000x128 .f32), ⟨r1_8, w3⟩] (ix2 p (hi j)) = w4 (ix2 p j) := by
  have h := canon_pair_fst (Val := Elt F) r1_9 r1_8 w4 w3 (ix2 p j)
  rw [emb_hi] at h
  exact h

end Stores

/-! ## Layout operations at an entry -/

section Layout
variable {α : Type}

/-- An `[a, 1]` column repeated along `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first 64 of 128 lanes. -/
theorem slice_lo {n : ℕ} (X : (⟨2, ![n, 128]⟩ : Shape).Idx → α) (h : (⟨2, ![n, 128]⟩ : Shape).Slices ![0, 0] ⟨2, ![n, 64]⟩)
    (p : Fin n) (k : Fin 64) : extractStridedSlice ⟨2, ![n, 64]⟩ ![0, 0] X h (ix2 p k) = X (ix2 p (lo k)) :=
  slice2_axis1_apply 0 X h p k (lo k) (by show k.val = 0 + k.val; omega)

/-- The last 64 of 128 lanes. -/
theorem slice_hi {n : ℕ} (X : (⟨2, ![n, 128]⟩ : Shape).Idx → α) (h : (⟨2, ![n, 128]⟩ : Shape).Slices ![0, 64] ⟨2, ![n, 64]⟩)
    (p : Fin n) (k : Fin 64) : extractStridedSlice ⟨2, ![n, 64]⟩ ![0, 64] X h (ix2 p k) = X (ix2 p (hi k)) :=
  slice2_axis1_apply 64 X h p k (hi k) rfl

/-- The first of two columns. -/
theorem slice_col0 {n : ℕ} (X : (⟨2, ![n, 2]⟩ : Shape).Idx → α) (h : (⟨2, ![n, 2]⟩ : Shape).Slices ![0, 0] ⟨2, ![n, 1]⟩)
    (p : Fin n) : extractStridedSlice ⟨2, ![n, 1]⟩ ![0, 0] X h (ix2 p (0 : Fin 1)) = X (ix2 p (0 : Fin 2)) :=
  slice2_axis1_apply 0 X h p (0 : Fin 1) (0 : Fin 2) rfl

/-- The second of two columns. -/
theorem slice_col1 {n : ℕ} (X : (⟨2, ![n, 2]⟩ : Shape).Idx → α) (h : (⟨2, ![n, 2]⟩ : Shape).Slices ![0, 1] ⟨2, ![n, 1]⟩)
    (p : Fin n) : extractStridedSlice ⟨2, ![n, 1]⟩ ![0, 1] X h (ix2 p (0 : Fin 1)) = X (ix2 p (1 : Fin 2)) :=
  slice2_axis1_apply 1 X h p (0 : Fin 1) (1 : Fin 2) rfl

/-- The reset gate's 64 of the 192 gate lanes. -/
theorem slice_lane0 {n : ℕ} (X : (⟨2, ![n, 192]⟩ : Shape).Idx → α) (h : (⟨2, ![n, 192]⟩ : Shape).Slices ![0, 0] ⟨2, ![n, 64]⟩)
    (p : Fin n) (j : Fin 64) : extractStridedSlice ⟨2, ![n, 64]⟩ ![0, 0] X h (ix2 p j) = X (ix2 p (lane 0 j)) :=
  slice2_axis1_apply 0 X h p j (lane 0 j) (by show 64 * 0 + j.val = 0 + j.val; omega)

/-- The update gate's. -/
theorem slice_lane1 {n : ℕ} (X : (⟨2, ![n, 192]⟩ : Shape).Idx → α) (h : (⟨2, ![n, 192]⟩ : Shape).Slices ![0, 64] ⟨2, ![n, 64]⟩)
    (p : Fin n) (j : Fin 64) : extractStridedSlice ⟨2, ![n, 64]⟩ ![0, 64] X h (ix2 p j) = X (ix2 p (lane 1 j)) :=
  slice2_axis1_apply 64 X h p j (lane 1 j) (by show 64 * 1 + j.val = 64 + j.val; omega)

/-- The candidate's. -/
theorem slice_lane2 {n : ℕ} (X : (⟨2, ![n, 192]⟩ : Shape).Idx → α) (h : (⟨2, ![n, 192]⟩ : Shape).Slices ![0, 128] ⟨2, ![n, 64]⟩)
    (p : Fin n) (j : Fin 64) : extractStridedSlice ⟨2, ![n, 64]⟩ ![0, 128] X h (ix2 p j) = X (ix2 p (lane 2 j)) :=
  slice2_axis1_apply 128 X h p j (lane 2 j) (by show 64 * 2 + j.val = 128 + j.val; omega)

end Layout

/-- The logistic function of an array, at an entry. -/
theorem logistic_apply {s : Shape} {φ : FTy} (a : FVec Ideal s φ) (i : s.Idx) : logistic a i = Ideal.logistic (a i) := rfl
/-- The hyperbolic tangent of an array, at an entry. -/
theorem tanh_apply {s : Shape} {φ : FTy} (a : FVec Ideal s φ) (i : s.Idx) : tanh a i = Ideal.tanh (a i) := rfl

/-! ## The body's arithmetic at an entry -/

/-- The first edge type's convolution row of node `p`: its raw sums times the node's inverse degree, plus the bias. -/
def crow0 (x0 : Vec Ideal S2000x128 .f32) (x1 : Vec Ideal S2000x2 .f32) (x3 : Vec Ideal S1x128 .f32) (p : Fin 2000) (k : Fin 64) : EReal :=
  x0 (ix2 p (lo k)) * x1 (ix2 p (0 : Fin 2)) + x3 (ix2 (0 : Fin 1) (lo k))

/-- The second edge type's: lanes 64..127 and the second inverse-degree column. -/
def crow1 (x0 : Vec Ideal S2000x128 .f32) (x1 : Vec Ideal S2000x2 .f32) (x3 : Vec Ideal S1x128 .f32) (p : Fin 2000) (k : Fin 64) : EReal :=
  x0 (ix2 p (hi k)) * x1 (ix2 p (1 : Fin 2)) + x3 (ix2 (0 : Fin 1) (hi k))

/-- The scaled and shifted first half of the raw block, at `(p, k)`. -/
theorem mix0_apply (x0 : Vec Ideal S2000x128 .f32) (x1 : Vec Ideal S2000x2 .f32) (x3 : Vec Ideal S1x128 .f32) (p : Fin 2000) (k : Fin 64) :
    addf (F := Ideal) (φ := .f32) (mulf (F := Ideal) (φ := .f32) (extractStridedSlice S2000x64 ![0, 0] x0 slices_S2000x128_o0_0_S2000x64)
        (broadcastTo S2000x64 (extractStridedSlice S2000x1 ![0, 0] x1 slices_S2000x2_o0_0_S2000x1) broadcasts_S2000x1_S2000x64))
      (broadcastTo S2000x64 (extractStridedSlice S1x64 ![0, 0] x3 slices_S1x128_o0_0_S1x64) broadcasts_S1x64_S2000x64) (ix2 p k)
      = crow0 x0 x1 x3 p k := by
  rw [addf_apply, mulf_apply, slice_lo, broadcastTo_a1_ab_apply, slice_col0, broadcastTo_1b_ab_apply, slice_lo]
  rfl

/-- The scaled and shifted second half, at `(p, k)`. -/
theorem mix1_apply (x0 : Vec Ideal S2000x128 .f32) (x1 : Vec Ideal S2000x2 .f32) (x3 : Vec Ideal S1x128 .f32) (p : Fin 2000) (k : Fin 64) :
    addf (F := Ideal) (φ := .f32) (mulf (F := Ideal) (φ := .f32) (extractStridedSlice S2000x64 ![0, 64] x0 slices_S2000x128_o0_64_S2000x64)
        (broadcastTo S2000x64 (extractStridedSlice S2000x1 ![0, 1] x1 slices_S2000x2_o0_1_S2000x1) broadcasts_S2000x1_S2000x64))
      (broadcastTo S2000x64 (extractStridedSlice S1x64 ![0, 64] x3 slices_S1x128_o0_64_S1x64) broadcasts_S1x64_S2000x64) (ix2 p k)
      = crow1 x0 x1 x3 p k := by
  rw [addf_apply, mulf_apply, slice_hi, broadcastTo_a1_ab_apply, slice_col1, broadcastTo_1b_ab_apply, slice_hi]
  rfl

/-- The mixed and rectified row: the first payload at `(p, j)` is `hid` of node `p`'s two convolution rows. -/
theorem pay1_apply (x0 : Vec Ideal S2000x128 .f32) (x1 : Vec Ideal S2000x2 .f32) (x3 : Vec Ideal S1x128 .f32)
    (x4 x5 : Vec Ideal S64x64 .f32) (x6 : Vec Ideal S1x64 .f32) (p : Fin 2000) (j : Fin 64) :
    k1_pay1 (F := Ideal) x0 x1 x3 x4 x5 x6 (ix2 p j)
      = hid (crow0 x0 x1 x3 p) (crow1 x0 x1 x3 p) (fun k j => x4 (ix2 k j)) (fun k j => x5 (ix2 k j))
          (fun j => x6 (ix2 (0 : Fin 1) j)) j := by
  unfold k1_pay1
  simp only [shapeCast_self, matmul]
  rw [truncf_apply, maximumf_apply, addf_apply, addf_apply, broadcast_apply,
    Cert.Lib.DotCols.matmul_cols_apply dot_S2000x64_S64x64_S2000x64_1_0_0_1_n_n rfl,
    Cert.Lib.DotCols.matmul_cols_apply dot_S2000x64_S64x64_S2000x64_1_0_0_1_n_n rfl, broadcastTo_1b_ab_apply]
  simp only [truncf_apply, mix0_apply, mix1_apply]
  rfl

section Gates

variable (x2 : Vec Ideal S2000x64 .f32) (v38 : FVec Ideal S2000x64 .bf16) (x7 x8 : Vec Ideal S64x192 .f32)
  (x9 x10 : Vec Ideal S1x192 .f32) (x11 : Vec Ideal S64x64 .f32) (x12 : Vec Ideal S1x64 .f32)
  (c0 c1 : Fin 64 → EReal) (Wm0 Wm1 : Fin 64 → Fin 64 → EReal) (bm : Fin 64 → EReal) (p : Fin 2000)

/-- The input-side gate pre-activations at `(p, q)`, when row `p` of the product's left operand is the hidden row. -/
theorem gi_apply (h38 : ∀ k, v38 (ix2 p k) = hid c0 c1 Wm0 Wm1 bm k) (q : Fin 192) :
    FloatOps.matmul (F := Ideal) dot_S2000x64_S64x192_S2000x192_1_0_0_1_n_n none v38 (truncf (F := Ideal) .bf16 x7 bitsLt_bf16_f32)
        (constant S2000x192 .f32 0x00000000#32) (ix2 p q)
      + broadcastTo S2000x192 x9 broadcasts_S1x192_S2000x192 (ix2 p q)
      = gi c0 c1 Wm0 Wm1 bm (fun k q => x7 (ix2 k q)) (fun q => x9 (ix2 (0 : Fin 1) q)) q := by
  rw [Cert.Lib.DotCols.matmul_cols_apply dot_S2000x64_S64x192_S2000x192_1_0_0_1_n_n rfl, broadcastTo_1b_ab_apply]
  simp only [truncf_apply, h38]
  rfl

/-- The hidden-side gate pre-activations at `(p, q)`. -/
theorem gh_apply (q : Fin 192) :
    FloatOps.matmul (F := Ideal) dot_S2000x64_S64x192_S2000x192_1_0_0_1_n_n none
        (truncf (F := Ideal) .bf16 x2 bitsLt_bf16_f32) (truncf (F := Ideal) .bf16 x8 bitsLt_bf16_f32)
        (constant S2000x192 .f32 0x00000000#32) (ix2 p q)
      + broadcastTo S2000x192 x10 broadcasts_S1x192_S2000x192 (ix2 p q)
      = gh (fun k => x2 (ix2 p k)) (fun k q => x8 (ix2 k q)) (fun q => x10 (ix2 (0 : Fin 1) q)) q := by
  rw [Cert.Lib.DotCols.matmul_cols_apply dot_S2000x64_S64x192_S2000x192_1_0_0_1_n_n rfl, broadcastTo_1b_ab_apply]
  simp only [truncf_apply]
  rfl

/-- The gated step: the third payload at `(p, j)` is `hnext`. -/
theorem pay3_apply (h38 : ∀ k, v38 (ix2 p k) = hid c0 c1 Wm0 Wm1 bm k) (j : Fin 64) :
    k1_pay3 (F := Ideal) x2 v38 (k1_pay2 x2) x7 x8 x9 x10 (ix2 p j)
      = hnext c0 c1 (fun k => x2 (ix2 p k)) Wm0 Wm1 bm (fun k q => x7 (ix2 k q)) (fun k q => x8 (ix2 k q))
          (fun q => x9 (ix2 (0 : Fin 1) q)) (fun q => x10 (ix2 (0 : Fin 1) q)) j := by
  unfold k1_pay3 k1_pay2
  simp only [shapeCast_self, matmul]
  simp only [addf_apply, mulf_apply, subf_apply, broadcast_apply, logistic_apply, tanh_apply,
    slice_lane0, slice_lane1, slice_lane2,
    gi_apply v38 x7 x9 c0 c1 Wm0 Wm1 bm p h38, gh_apply x2 x8 x10 p]
  rfl

/-- The output layer: the fourth payload at `(p, j)` is `pred`. -/
theorem pay4_apply (h38 : ∀ k, v38 (ix2 p k) = hid c0 c1 Wm0 Wm1 bm k) (j : Fin 64) :
    k1_pay4 (F := Ideal) x2 v38 (k1_pay2 x2) x7 x8 x9 x10 x11 x12 (ix2 p j)
      = pred c0 c1 (fun k => x2 (ix2 p k)) Wm0 Wm1 bm (fun k q => x7 (ix2 k q)) (fun k q => x8 (ix2 k q))
          (fun q => x9 (ix2 (0 : Fin 1) q)) (fun q => x10 (ix2 (0 : Fin 1) q))
          (fun k j => x11 (ix2 k j)) (fun j => x12 (ix2 (0 : Fin 1) j)) j := by
  unfold k1_pay4
  simp only [shapeCast_self, matmul]
  rw [addf_apply, Cert.Lib.DotCols.matmul_cols_apply dot_S2000x64_S64x64_S2000x64_1_0_0_1_n_n rfl, broadcastTo_1b_ab_apply]
  simp only [truncf_apply, pay3_apply x2 v38 x7 x8 x9 x10 c0 c1 Wm0 Wm1 bm p h38]
  rfl

end Gates

/-! ## The output block at an entry -/

section Out

variable (x0 : Vec Ideal S2000x128 .f32) (x1 : Vec Ideal S2000x2 .f32) (x2 : Vec Ideal S2000x64 .f32) (x3 : Vec Ideal S1x128 .f32)
  (x4 x5 : Vec Ideal S64x64 .f32) (x6 : Vec Ideal S1x64 .f32) (x7 x8 : Vec Ideal S64x192 .f32) (x9 x10 : Vec Ideal S1x192 .f32)
  (x11 : Vec Ideal S64x64 .f32) (x12 : Vec Ideal S1x64 .f32)

/-- Every input is loaded whole: the loaded value is the buffer's contents. -/
theorem ld_all :
    View.ld x0 r1_0 = x0 ∧ View.ld x1 r1_1 = x1 ∧ View.ld x3 r1_2 = x3 ∧ View.ld x4 r1_3 = x4 ∧ View.ld x5 r1_3 = x5
      ∧ View.ld x6 r1_4 = x6 ∧ View.ld x2 r1_5 = x2 ∧ View.ld x7 r1_6 = x7 ∧ View.ld x8 r1_6 = x8 ∧ View.ld x9 r1_7 = x9
      ∧ View.ld x10 r1_7 = x10 ∧ View.ld x11 r1_3 = x11 ∧ View.ld x12 r1_4 = x12 :=
  ⟨View.ld_unit_zero (S := S2000x128) zeros2 _ x0, View.ld_unit_zero (S := S2000x2) zeros2 _ x1,
    View.ld_unit_zero (S := S1x128) zeros2 _ x3, View.ld_unit_zero (S := S64x64) zeros2 _ x4,
    View.ld_unit_zero (S := S64x64) zeros2 _ x5, View.ld_unit_zero (S := S1x64) zeros2 _ x6,
    View.ld_unit_zero (S := S2000x64) zeros2 _ x2, View.ld_unit_zero (S := S64x192) zeros2 _ x7,
    View.ld_unit_zero (S := S64x192) zeros2 _ x8, View.ld_unit_zero (S := S1x192) zeros2 _ x9,
    View.ld_unit_zero (S := S1x192) zeros2 _ x10, View.ld_unit_zero (S := S64x64) zeros2 _ x11,
    View.ld_unit_zero (S := S1x64) zeros2 _ x12⟩

/-- Lanes 0..63 of node `p`'s output row hold its next hidden row. -/
theorem out_hnext (p : Fin 2000) (j : Fin 64) :
    out1_13 (F := Ideal) x0 x1 x2 x3 x4 x5 x6 x7 x8 x9 x10 x11 x12 (ix2 p (lo j))
      = hnext (crow0 x0 x1 x3 p) (crow1 x0 x1 x3 p) (fun k => x2 (ix2 p k)) (fun k j => x4 (ix2 k j)) (fun k j => x5 (ix2 k j))
          (fun j => x6 (ix2 (0 : Fin 1) j)) (fun k q => x7 (ix2 k q)) (fun k q => x8 (ix2 k q))
          (fun q => x9 (ix2 (0 : Fin 1) q)) (fun q => x10 (ix2 (0 : Fin 1) q)) j := by
  obtain ⟨e0, e1, e3, e4, e5, e6, e2, e7, e8, e9, e10, e11, e12⟩ := ld_all x0 x1 x2 x3 x4 x5 x6 x7 x8 x9 x10 x11 x12
  unfold out1_13
  refine (canon_lo (F := Ideal) _ _ p j).trans ?_
  rw [e0, e1, e3, e4, e5, e6, e2, e7, e8, e9, e10]
  exact pay3_apply x2 _ x7 x8 x9 x10 _ _ _ _ _ p (fun k => pay1_apply x0 x1 x3 x4 x5 x6 p k) j

/-- Lanes 64..127 hold its prediction. -/
theorem out_pred (p : Fin 2000) (j : Fin 64) :
    out1_13 (F := Ideal) x0 x1 x2 x3 x4 x5 x6 x7 x8 x9 x10 x11 x12 (ix2 p (hi j))
      = pred (crow0 x0 x1 x3 p) (crow1 x0 x1 x3 p) (fun k => x2 (ix2 p k)) (fun k j => x4 (ix2 k j)) (fun k j => x5 (ix2 k j))
          (fun j => x6 (ix2 (0 : Fin 1) j)) (fun k q => x7 (ix2 k q)) (fun k q => x8 (ix2 k q))
          (fun q => x9 (ix2 (0 : Fin 1) q)) (fun q => x10 (ix2 (0 : Fin 1) q))
          (fun k j => x11 (ix2 k j)) (fun j => x12 (ix2 (0 : Fin 1) j)) j := by
  obtain ⟨e0, e1, e3, e4, e5, e6, e2, e7, e8, e9, e10, e11, e12⟩ := ld_all x0 x1 x2 x3 x4 x5 x6 x7 x8 x9 x10 x11 x12
  unfold out1_13
  refine (canon_hi (F := Ideal) _ _ p j).trans ?_
  rw [e0, e1, e3, e4, e5, e6, e2, e7, e8, e9, e10, e11, e12]
  exact pay4_apply x2 _ x7 x8 x9 x10 x11 x12 _ _ _ _ _ p (fun k => pay1_apply x0 x1 x3 x4 x5 x6 p k) j

end Out

end Cert.Hyper.Body

end
-- ==== Proof.Region1Out.lean ====
/-
  The second launch's output, as an array.

  Row n of the output is a function of row n of three row-blocked arrays — the raw convolution sums (two 64-lane halves
  side by side), the two inverse-degree columns, the previous hidden rows — and of the weights and biases: lanes 0..63
  hold node n's next hidden row and lanes 64..127 its prediction.  This file defines that array, "out", reads it at an
  entry, and shows that a block of 2000 rows run through the launch's body gives the same entries as "out" at the
  corresponding rows of the whole arrays, whenever the blocks' rows are those rows and the weight blocks are the weights.
-/
import proofs.«119679_j17197049053669_2_alg».proof.Proof.Gen.KernelIdeal.Frame
import proofs.«119679_j17197049053669_2_alg».proof.Proof.Spec
import proofs.«119679_j17197049053669_2_alg».proof.Proof.BodyHead
import Idealize.ShloMosaic.Lib.ValueIdx

set_option maxRecDepth 16384

noncomputable section

open scoped BigOperators

namespace Cert.Hyper.Region1

open Cert.KernelIdeal Cert.KernelIdeal.Gen
open Idealize.ShloMosaic Idealize.ShloMosaic.ValueIdx
open Cert.Hyper

/-! ## The output array -/

/-- The first edge type's convolution row of node n: its raw sums (lanes 0..63) times the node's first inverse
    degree, plus the bias. -/
def nrow0 (raw : S100000x128.Idx → EReal) (dinv : S100000x2.Idx → EReal) (bc : S1x128.Idx → EReal)
    (n : Fin 100000) (k : Fin 64) : EReal :=
  raw (ix2 n (lo k)) * dinv (ix2 n (0 : Fin 2)) + bc (ix2 (0 : Fin 1) (lo k))

/-- The second edge type's: lanes 64..127 and the second inverse degree. -/
def nrow1 (raw : S100000x128.Idx → EReal) (dinv : S100000x2.Idx → EReal) (bc : S1x128.Idx → EReal)
    (n : Fin 100000) (k : Fin 64) : EReal :=
  raw (ix2 n (hi k)) * dinv (ix2 n (1 : Fin 2)) + bc (ix2 (0 : Fin 1) (hi k))

/-- The output: row n is node n's next hidden row (lanes 0..63) followed by its prediction (lanes 64..127), both
    computed from the node's two convolution rows and its previous hidden row. -/
def out (raw : S100000x128.Idx → EReal) (dinv : S100000x2.Idx → EReal) (hp : S100000x64.Idx → EReal)
    (bc : S1x128.Idx → EReal) (w0 w1 : S64x64.Idx → EReal) (bm : S1x64.Idx → EReal) (wi wh : S64x192.Idx → EReal)
    (bi bh : S1x192.Idx → EReal) (wo : S64x64.Idx → EReal) (bo : S1x64.Idx → EReal) : S100000x128.Idx → EReal :=
  fun i =>
    if h : (i 1).val < 64 then
      hnext (nrow0 raw dinv bc (i 0)) (nrow1 raw dinv bc (i 0)) (fun k => hp (ix2 (i 0) k))
      (fun k j => w0 (ix2 k j)) (fun k j => w1 (ix2 k j)) (fun j => bm (ix2 (0 : Fin 1) j))
      (fun k q => wi (ix2 k q)) (fun k q => wh (ix2 k q)) (fun q => bi (ix2 (0 : Fin 1) q)) (fun q => bh (ix2 (0 : Fin 1) q)) ⟨(i 1).val, h⟩
    else
      pred (nrow0 raw dinv bc (i 0)) (nrow1 raw dinv bc (i 0)) (fun k => hp (ix2 (i 0) k))
      (fun k j => w0 (ix2 k j)) (fun k j => w1 (ix2 k j)) (fun j => bm (ix2 (0 : Fin 1) j))
      (fun k q => wi (ix2 k q)) (fun k q => wh (ix2 k q)) (fun q => bi (ix2 (0 : Fin 1) q)) (fun q => bh (ix2 (0 : Fin 1) q))
      (fun k j => wo (ix2 k j)) (fun j => bo (ix2 (0 : Fin 1) j)) ⟨(i 1).val - 64, by have h1 : (i 1).val < 128 := (i 1).isLt; omega⟩

/-- Lane j of the first half of row n is entry j of node n's next hidden row. -/
theorem out_lo (raw : S100000x128.Idx → EReal) (dinv : S100000x2.Idx → EReal) (hp : S100000x64.Idx → EReal)
    (bc : S1x128.Idx → EReal) (w0 w1 : S64x64.Idx → EReal) (bm : S1x64.Idx → EReal) (wi wh : S64x192.Idx → EReal)
    (bi bh : S1x192.Idx → EReal) (wo : S64x64.Idx → EReal) (bo : S1x64.Idx → EReal) (n : Fin 100000) (j : Fin 64) :
    out raw dinv hp bc w0 w1 bm wi wh bi bh wo bo (ix2 n (lo j))
      = hnext (nrow0 raw dinv bc n) (nrow1 raw dinv bc n) (fun k => hp (ix2 n k))
      (fun k j => w0 (ix2 k j)) (fun k j => w1 (ix2 k j)) (fun j => bm (ix2 (0 : Fin 1) j))
      (fun k q => wi (ix2 k q)) (fun k q => wh (ix2 k q)) (fun q => bi (ix2 (0 : Fin 1) q)) (fun q => bh (ix2 (0 : Fin 1) q)) j := by
  unfold out
  have h : ((ix2 n (lo j) : S100000x128.Idx) 1).val < 64 := j.isLt
  rw [dif_pos h]
  rfl

/-- Lane j of the second half of row n is entry j of node n's prediction. -/
theorem out_hi (raw : S100000x128.Idx → EReal) (dinv : S100000x2.Idx → EReal) (hp : S100000x64.Idx → EReal)
    (bc : S1x128.Idx → EReal) (w0 w1 : S64x64.Idx → EReal) (bm : S1x64.Idx → EReal) (wi wh : S64x192.Idx → EReal)
    (bi bh : S1x192.Idx → EReal) (wo : S64x64.Idx → EReal) (bo : S1x64.Idx → EReal) (n : Fin 100000) (j : Fin 64) :
    out raw dinv hp bc w0 w1 bm wi wh bi bh wo bo (ix2 n (hi j))
      = pred (nrow0 raw dinv bc n) (nrow1 raw dinv bc n) (fun k => hp (ix2 n k))
      (fun k j => w0 (ix2 k j)) (fun k j => w1 (ix2 k j)) (fun j => bm (ix2 (0 : Fin 1) j))
      (fun k q => wi (ix2 k q)) (fun k q => wh (ix2 k q)) (fun q => bi (ix2 (0 : Fin 1) q)) (fun q => bh (ix2 (0 : Fin 1) q))
      (fun k j => wo (ix2 k j)) (fun j => bo (ix2 (0 : Fin 1) j)) j := by
  unfold out
  have h : ¬ ((ix2 n (hi j) : S100000x128.Idx) 1).val < 64 := by
    show ¬ (64 + j.val < 64)
    omega
  rw [dif_neg h]
  exact congrArg (pred (nrow0 raw dinv bc n) (nrow1 raw dinv bc n) (fun k => hp (ix2 n k))
      (fun k j => w0 (ix2 k j)) (fun k j => w1 (ix2 k j)) (fun j => bm (ix2 (0 : Fin 1) j))
      (fun k q => wi (ix2 k q)) (fun k q => wh (ix2 k q)) (fun q => bi (ix2 (0 : Fin 1) q)) (fun q => bh (ix2 (0 : Fin 1) q))
      (fun k j => wo (ix2 k j)) (fun j => bo (ix2 (0 : Fin 1) j))) (Fin.ext (by show 64 + j.val - 64 = j.val; omega))

/-! ## Equal arguments give equal rows -/

theorem hnext_congr {c0 c0' c1 c1' hp hp' : Fin 64 → EReal} {Wm0 Wm0' Wm1 Wm1' : Fin 64 → Fin 64 → EReal}
    {bm bm' : Fin 64 → EReal} {Wi Wi' Wh Wh' : Fin 64 → Fin 192 → EReal} {bi bi' bh bh' : Fin 192 → EReal}
    (e1 : c0 = c0') (e2 : c1 = c1') (e3 : hp = hp') (e4 : Wm0 = Wm0') (e5 : Wm1 = Wm1') (e6 : bm = bm')
    (e7 : Wi = Wi') (e8 : Wh = Wh') (e9 : bi = bi') (e10 : bh = bh') (j : Fin 64) :
    hnext c0 c1 hp Wm0 Wm1 bm Wi Wh bi bh j = hnext c0' c1' hp' Wm0' Wm1' bm' Wi' Wh' bi' bh' j := by
  subst e1 e2 e3 e4 e5 e6 e7 e8 e9 e10
  rfl

theorem pred_congr {c0 c0' c1 c1' hp hp' : Fin 64 → EReal} {Wm0 Wm0' Wm1 Wm1' : Fin 64 → Fin 64 → EReal}
    {bm bm' : Fin 64 → EReal} {Wi Wi' Wh Wh' : Fin 64 → Fin 192 → EReal} {bi bi' bh bh' : Fin 192 → EReal}
    {Wo Wo' : Fin 64 → Fin 64 → EReal} {bo bo' : Fin 64 → EReal}
    (e1 : c0 = c0') (e2 : c1 = c1') (e3 : hp = hp') (e4 : Wm0 = Wm0') (e5 : Wm1 = Wm1') (e6 : bm = bm')
    (e7 : Wi = Wi') (e8 : Wh = Wh') (e9 : bi = bi') (e10 : bh = bh') (e11 : Wo = Wo') (e12 : bo = bo') (j : Fin 64) :
    pred c0 c1 hp Wm0 Wm1 bm Wi Wh bi bh Wo bo j = pred c0' c1' hp' Wm0' Wm1' bm' Wi' Wh' bi' bh' Wo' bo' j := by
  subst e1 e2 e3 e4 e5 e6 e7 e8 e9 e10 e11 e12
  rfl

/-! ## A block of rows against the whole arrays

Thirteen blocks x0 … x12 whose row p (for the three row-blocked ones) is row n of the whole arrays, and which are the
whole arrays otherwise, give at row p of the body's output block what "out" has at row n. -/

/-- The first convolution row computed from the blocks is the one computed from the whole arrays. -/
theorem crow0_eq (x0 : Vec Ideal S2000x128 .f32) (x1 : Vec Ideal S2000x2 .f32) (x3 : Vec Ideal S1x128 .f32)
    (raw : S100000x128.Idx → EReal) (dinv : S100000x2.Idx → EReal) (bc : S1x128.Idx → EReal)
    (p : Fin 2000) (n : Fin 100000)
    (e0 : ∀ k : Fin 128, x0 (ix2 p k) = raw (ix2 n k)) (e1 : ∀ k : Fin 2, x1 (ix2 p k) = dinv (ix2 n k))
    (e3 : ∀ (a : Fin 1) (k : Fin 128), x3 (ix2 a k) = bc (ix2 a k)) :
    Body.crow0 x0 x1 x3 p = nrow0 raw dinv bc n := by
  funext k
  unfold Body.crow0 nrow0
  rw [e0, e1, e3]

/-- The second one likewise. -/
theorem crow1_eq (x0 : Vec Ideal S2000x128 .f32) (x1 : Vec Ideal S2000x2 .f32) (x3 : Vec Ideal S1x128 .f32)
    (raw : S100000x128.Idx → EReal) (dinv : S100000x2.Idx → EReal) (bc : S1x128.Idx → EReal)
    (p : Fin 2000) (n : Fin 100000)
    (e0 : ∀ k : Fin 128, x0 (ix2 p k) = raw (ix2 n k)) (e1 : ∀ k : Fin 2, x1 (ix2 p k) = dinv (ix2 n k))
    (e3 : ∀ (a : Fin 1) (k : Fin 128), x3 (ix2 a k) = bc (ix2 a k)) :
    Body.crow1 x0 x1 x3 p = nrow1 raw dinv bc n := by
  funext k
  unfold Body.crow1 nrow1
  rw [e0, e1, e3]

/-- Lanes 0..63 of row p of the body's output block are lanes 0..63 of row n of "out". -/
theorem block_lo (x0 : Vec Ideal S2000x128 .f32) (x1 : Vec Ideal S2000x2 .f32) (x2 : Vec Ideal S2000x64 .f32) (x3 : Vec Ideal S1x128 .f32) (x4 : Vec Ideal S64x64 .f32) (x5 : Vec Ideal S64x64 .f32) (x6 : Vec Ideal S1x64 .f32) (x7 : Vec Ideal S64x192 .f32) (x8 : Vec Ideal S64x192 .f32) (x9 : Vec Ideal S1x192 .f32) (x10 : Vec Ideal S1x192 .f32) (x11 : Vec Ideal S64x64 .f32) (x12 : Vec Ideal S1x64 .f32)
    (raw : S100000x128.Idx → EReal) (dinv : S100000x2.Idx → EReal) (hp : S100000x64.Idx → EReal)
    (bc : S1x128.Idx → EReal) (w0 w1 : S64x64.Idx → EReal) (bm : S1x64.Idx → EReal) (wi wh : S64x192.Idx → EReal)
    (bi bh : S1x192.Idx → EReal) (wo : S64x64.Idx → EReal) (bo : S1x64.Idx → EReal)
    (p : Fin 2000) (n : Fin 100000)
    (e0 : ∀ k : Fin 128, x0 (ix2 p k) = raw (ix2 n k))
    (e1 : ∀ k : Fin 2, x1 (ix2 p k) = dinv (ix2 n k))
    (e2 : ∀ k : Fin 64, x2 (ix2 p k) = hp (ix2 n k))
    (e3 : ∀ (a : Fin 1) (k : Fin 128), x3 (ix2 a k) = bc (ix2 a k))
    (e4 : ∀ (a : Fin 64) (k : Fin 64), x4 (ix2 a k) = w0 (ix2 a k))
    (e5 : ∀ (a : Fin 64) (k : Fin 64), x5 (ix2 a k) = w1 (ix2 a k))
    (e6 : ∀ (a : Fin 1) (k : Fin 64), x6 (ix2 a k) = bm (ix2 a k))
    (e7 : ∀ (a : Fin 64) (k : Fin 192), x7 (ix2 a k) = wi (ix2 a k))
    (e8 : ∀ (a : Fin 64) (k : Fin 192), x8 (ix2 a k) = wh (ix2 a k))
    (e9 : ∀ (a : Fin 1) (k : Fin 192), x9 (ix2 a k) = bi (ix2 a k))
    (e10 : ∀ (a : Fin 1) (k : Fin 192), x10 (ix2 a k) = bh (ix2 a k))
    (e11 : ∀ (a : Fin 64) (k : Fin 64), x11 (ix2 a k) = wo (ix2 a k))
    (e12 : ∀ (a : Fin 1) (k : Fin 64), x12 (ix2 a k) = bo (ix2 a k))
    (j : Fin 64) :
    out1_13 (F := Ideal) x0 x1 x2 x3 x4 x5 x6 x7 x8 x9 x10 x11 x12 (ix2 p (lo j)) = out raw dinv hp bc w0 w1 bm wi wh bi bh wo bo (ix2 n (lo j)) :=
  (Body.out_hnext x0 x1 x2 x3 x4 x5 x6 x7 x8 x9 x10 x11 x12 p j).trans
    ((hnext_congr (crow0_eq x0 x1 x3 raw dinv bc p n e0 e1 e3) (crow1_eq x0 x1 x3 raw dinv bc p n e0 e1 e3)
      (funext fun k => e2 k) (funext fun a => funext fun k => e4 a k) (funext fun a => funext fun k => e5 a k)
      (funext fun k => e6 (0 : Fin 1) k) (funext fun a => funext fun k => e7 a k) (funext fun a => funext fun k => e8 a k)
      (funext fun k => e9 (0 : Fin 1) k) (funext fun k => e10 (0 : Fin 1) k) j).trans
      (out_lo raw dinv hp bc w0 w1 bm wi wh bi bh wo bo n j).symm)

/-- Lanes 64..127 of row p of the body's output block are lanes 64..127 of row n of "out". -/
theorem block_hi (x0 : Vec Ideal S2000x128 .f32) (x1 : Vec Ideal S2000x2 .f32) (x2 : Vec Ideal S2000x64 .f32) (x3 : Vec Ideal S1x128 .f32) (x4 : Vec Ideal S64x64 .f32) (x5 : Vec Ideal S64x64 .f32) (x6 : Vec Ideal S1x64 .f32) (x7 : Vec Ideal S64x192 .f32) (x8 : Vec Ideal S64x192 .f32) (x9 : Vec Ideal S1x192 .f32) (x10 : Vec Ideal S1x192 .f32) (x11 : Vec Ideal S64x64 .f32) (x12 : Vec Ideal S1x64 .f32)
    (raw : S100000x128.Idx → EReal) (dinv : S100000x2.Idx → EReal) (hp : S100000x64.Idx → EReal)
    (bc : S1x128.Idx → EReal) (w0 w1 : S64x64.Idx → EReal) (bm : S1x64.Idx → EReal) (wi wh : S64x192.Idx → EReal)
    (bi bh : S1x192.Idx → EReal) (wo : S64x64.Idx → EReal) (bo : S1x64.Idx → EReal)
    (p : Fin 2000) (n : Fin 100000)
    (e0 : ∀ k : Fin 128, x0 (ix2 p k) = raw (ix2 n k))
    (e1 : ∀ k : Fin 2, x1 (ix2 p k) = dinv (ix2 n k))
    (e2 : ∀ k : Fin 64, x2 (ix2 p k) = hp (ix2 n k))
    (e3 : ∀ (a : Fin 1) (k : Fin 128), x3 (ix2 a k) = bc (ix2 a k))
    (e4 : ∀ (a : Fin 64) (k : Fin 64), x4 (ix2 a k) = w0 (ix2 a k))
    (e5 : ∀ (a : Fin 64) (k : Fin 64), x5 (ix2 a k) = w1 (ix2 a k))
    (e6 : ∀ (a : Fin 1) (k : Fin 64), x6 (ix2 a k) = bm (ix2 a k))
    (e7 : ∀ (a : Fin 64) (k : Fin 192), x7 (ix2 a k) = wi (ix2 a k))
    (e8 : ∀ (a : Fin 64) (k : Fin 192), x8 (ix2 a k) = wh (ix2 a k))
    (e9 : ∀ (a : Fin 1) (k : Fin 192), x9 (ix2 a k) = bi (ix2 a k))
    (e10 : ∀ (a : Fin 1) (k : Fin 192), x10 (ix2 a k) = bh (ix2 a k))
    (e11 : ∀ (a : Fin 64) (k : Fin 64), x11 (ix2 a k) = wo (ix2 a k))
    (e12 : ∀ (a : Fin 1) (k : Fin 64), x12 (ix2 a k) = bo (ix2 a k))
    (j : Fin 64) :
    out1_13 (F := Ideal) x0 x1 x2 x3 x4 x5 x6 x7 x8 x9 x10 x11 x12 (ix2 p (hi j)) = out raw dinv hp bc w0 w1 bm wi wh bi bh wo bo (ix2 n (hi j)) :=
  (Body.out_pred x0 x1 x2 x3 x4 x5 x6 x7 x8 x9 x10 x11 x12 p j).trans
    ((pred_congr (crow0_eq x0 x1 x3 raw dinv bc p n e0 e1 e3) (crow1_eq x0 x1 x3 raw dinv bc p n e0 e1 e3)
      (funext fun k => e2 k) (funext fun a => funext fun k => e4 a k) (funext fun a => funext fun k => e5 a k)
      (funext fun k => e6 (0 : Fin 1) k) (funext fun a => funext fun k => e7 a k) (funext fun a => funext fun k => e8 a k)
      (funext fun k => e9 (0 : Fin 1) k) (funext fun k => e10 (0 : Fin 1) k)
      (funext fun a => funext fun k => e11 a k) (funext fun k => e12 (0 : Fin 1) k) j).trans
      (out_hi raw dinv hp bc w0 w1 bm wi wh bi bh wo bo n j).symm)

end Cert.Hyper.Region1

end
-- ==== Proof.Region1Emb.lean ====
/-
  The second launch's windows: which block each point stages, and where a block's entries sit in its array.

  The grid has 50 points.  Four windows — the raw sums, the inverse degrees, the previous hidden rows and the output —
  are cut in blocks of 2000 rows and point t takes block t; the other ten windows are whole arrays at every point.
  A block's coordinate in its array is the block index times the block size plus the coordinate inside the block, so
  entry (p, k) of a row block at point t is entry (2000·t + p, k) of the array, and a whole-array block is the array.
-/
import proofs.«119679_j17197049053669_2_alg».proof.Proof.Gen.KernelIdeal.Points
import Idealize.ShloMosaic.Lib.Pipeline.Value
import Idealize.ShloMosaic.Lib.ValueIdx

set_option maxRecDepth 16384

noncomputable section

open scoped BigOperators

namespace Cert.Hyper.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The index maps over the 50 points -/

/-- Window 0's block at point t is row block t. -/
theorem idx_w0 : ∀ t : Fin cfg1.N, win1_0.index t (0 : Fin 2) = t.val ∧ win1_0.index t (1 : Fin 2) = 0 :=
  (by decide +kernel : ∀ t : Fin grid1.N, _)

/-- Window 1's block at point t is row block t. -/
theorem idx_w1 : ∀ t : Fin cfg1.N, win1_1.index t (0 : Fin 2) = t.val ∧ win1_1.index t (1 : Fin 2) = 0 :=
  (by decide +kernel : ∀ t : Fin grid1.N, _)

/-- Window 2's block at point t is row block t. -/
theorem idx_w2 : ∀ t : Fin cfg1.N, win1_2.index t (0 : Fin 2) = t.val ∧ win1_2.index t (1 : Fin 2) = 0 :=
  (by decide +kernel : ∀ t : Fin grid1.N, _)

/-- Window 3's block at every point is the whole array. -/
theorem idx_w3 : ∀ t : Fin cfg1.N, win1_3.index t (0 : Fin 2) = 0 ∧ win1_3.index t (1 : Fin 2) = 0 :=
  (by decide +kernel : ∀ t : Fin grid1.N, _)

/-- Window 4's block at every point is the whole array. -/
theorem idx_w4 : ∀ t : Fin cfg1.N, win1_4.index t (0 : Fin 2) = 0 ∧ win1_4.index t (1 : Fin 2) = 0 :=
  (by decide +kernel : ∀ t : Fin grid1.N, _)

/-- Window 5's block at every point is the whole array. -/
theorem idx_w5 : ∀ t : Fin cfg1.N, win1_5.index t (0 : Fin 2) = 0 ∧ win1_5.index t (1 : Fin 2) = 0 :=
  (by decide +kernel : ∀ t : Fin grid1.N, _)

/-- Window 6's block at every point is the whole array. -/
theorem idx_w6 : ∀ t : Fin cfg1.N, win1_6.index t (0 : Fin 2) = 0 ∧ win1_6.index t (1 : Fin 2) = 0 :=
  (by decide +kernel : ∀ t : Fin grid1.N, _)

/-- Window 7's block at every point is the whole array. -/
theorem idx_w7 : ∀ t : Fin cfg1.N, win1_7.index t (0 : Fin 2) = 0 ∧ win1_7.index t (1 : Fin 2) = 0 :=
  (by decide +kernel : ∀ t : Fin grid1.N, _)

/-- Window 8's block at every point is the whole array. -/
theorem idx_w8 : ∀ t : Fin cfg1.N, win1_8.index t (0 : Fin 2) = 0 ∧ win1_8.index t (1 : Fin 2) = 0 :=
  (by decide +kernel : ∀ t : Fin grid1.N, _)

/-- Window 9's block at every point is the whole array. -/
theorem idx_w9 : ∀ t : Fin cfg1.N, win1_9.index t (0 : Fin 2) = 0 ∧ win1_9.index t (1 : Fin 2) = 0 :=
  (by decide +kernel : ∀ t : Fin grid1.N, _)

/-- Window 10's block at every point is the whole array. -/
theorem idx_w10 : ∀ t : Fin cfg1.N, win1_10.index t (0 : Fin 2) = 0 ∧ win1_10.index t (1 : Fin 2) = 0 :=
  (by decide +kernel : ∀ t : Fin grid1.N, _)

/-- Window 11's block at every point is the whole array. -/
theorem idx_w11 : ∀ t : Fin cfg1.N, win1_11.index t (0 : Fin 2) = 0 ∧ win1_11.index t (1 : Fin 2) = 0 :=
  (by decide +kernel : ∀ t : Fin grid1.N, _)

/-- Window 12's block at every point is the whole array. -/
theorem idx_w12 : ∀ t : Fin cfg1.N, win1_12.index t (0 : Fin 2) = 0 ∧ win1_12.index t (1 : Fin 2) = 0 :=
  (by decide +kernel : ∀ t : Fin grid1.N, _)

/-- Window 13's block at point t is row block t. -/
theorem idx_w13 : ∀ t : Fin cfg1.N, win1_13.index t (0 : Fin 2) = t.val ∧ win1_13.index t (1 : Fin 2) = 0 :=
  (by decide +kernel : ∀ t : Fin grid1.N, _)

/-! ## A block's entries in its array

A block's coordinate in its array is the block index times the block size plus the coordinate inside the block. -/

/-- Entry (p, k) of window 0's block at point t is entry (2000·t + p, k) of its array. -/
theorem emb_w0 (t : Fin cfg1.N) (p : Fin 2000) (n : Fin 100000) (hn : n.val = t.val * 2000 + p.val) (k : Fin 128) :
    ((cfg1.win 0).blk t).view.emb (ix2 p k) = ix2 n k := by
  obtain ⟨ea, eb⟩ := idx_w0 t
  funext a; apply Fin.ext
  match a with
  | ⟨0, _⟩ => show win1_0.index t (0 : Fin 2) * 2000 + 1 * p.val = n.val; omega
  | ⟨1, _⟩ => show win1_0.index t (1 : Fin 2) * 128 + 1 * k.val = k.val; omega

/-- Entry (p, k) of window 1's block at point t is entry (2000·t + p, k) of its array. -/
theorem emb_w1 (t : Fin cfg1.N) (p : Fin 2000) (n : Fin 100000) (hn : n.val = t.val * 2000 + p.val) (k : Fin 2) :
    ((cfg1.win 1).blk t).view.emb (ix2 p k) = ix2 n k := by
  obtain ⟨ea, eb⟩ := idx_w1 t
  funext a; apply Fin.ext
  match a with
  | ⟨0, _⟩ => show win1_1.index t (0 : Fin 2) * 2000 + 1 * p.val = n.val; omega
  | ⟨1, _⟩ => show win1_1.index t (1 : Fin 2) * 2 + 1 * k.val = k.val; omega

/-- Entry (p, k) of window 2's block at point t is entry (2000·t + p, k) of its array. -/
theorem emb_w2 (t : Fin cfg1.N) (p : Fin 2000) (n : Fin 100000) (hn : n.val = t.val * 2000 + p.val) (k : Fin 64) :
    ((cfg1.win 2).blk t).view.emb (ix2 p k) = ix2 n k := by
  obtain ⟨ea, eb⟩ := idx_w2 t
  funext a; apply Fin.ext
  match a with
  | ⟨0, _⟩ => show win1_2.index t (0 : Fin 2) * 2000 + 1 * p.val = n.val; omega
  | ⟨1, _⟩ => show win1_2.index t (1 : Fin 2) * 64 + 1 * k.val = k.val; omega

/-- Entry (k, q) of window 3's block at any point is entry (k, q) of its array. -/
theorem emb_w3 (t : Fin cfg1.N) (k : Fin 1) (q : Fin 128) :
    ((cfg1.win 3).blk t).view.emb (ix2 k q) = ix2 k q := by
  obtain ⟨ea, eb⟩ := idx_w3 t
  funext a; apply Fin.ext
  match a with
  | ⟨0, _⟩ => show win1_3.index t (0 : Fin 2) * 1 + 1 * k.val = k.val; omega
  | ⟨1, _⟩ => show win1_3.index t (1 : Fin 2) * 128 + 1 * q.val = q.val; omega

/-- Entry (k, q) of window 4's block at any point is entry (k, q) of its array. -/
theorem emb_w4 (t : Fin cfg1.N) (k : Fin 64) (q : Fin 64) :
    ((cfg1.win 4).blk t).view.emb (ix2 k q) = ix2 k q := by
  obtain ⟨ea, eb⟩ := idx_w4 t
  funext a; apply Fin.ext
  match a with
  | ⟨0, _⟩ => show win1_4.index t (0 : Fin 2) * 64 + 1 * k.val = k.val; omega
  | ⟨1, _⟩ => show win1_4.index t (1 : Fin 2) * 64 + 1 * q.val = q.val; omega

/-- Entry (k, q) of window 5's block at any point is entry (k, q) of its array. -/
theorem emb_w5 (t : Fin cfg1.N) (k : Fin 64) (q : Fin 64) :
    ((cfg1.win 5).blk t).view.emb (ix2 k q) = ix2 k q := by
  obtain ⟨ea, eb⟩ := idx_w5 t
  funext a; apply Fin.ext
  match a with
  | ⟨0, _⟩ => show win1_5.index t (0 : Fin 2) * 64 + 1 * k.val = k.val; omega
  | ⟨1, _⟩ => show win1_5.index t (1 : Fin 2) * 64 + 1 * q.val = q.val; omega

/-- Entry (k, q) of window 6's block at any point is entry (k, q) of its array. -/
theorem emb_w6 (t : Fin cfg1.N) (k : Fin 1) (q : Fin 64) :
    ((cfg1.win 6).blk t).view.emb (ix2 k q) = ix2 k q := by
  obtain ⟨ea, eb⟩ := idx_w6 t
  funext a; apply Fin.ext
  match a with
  | ⟨0, _⟩ => show win1_6.index t (0 : Fin 2) * 1 + 1 * k.val = k.val; omega
  | ⟨1, _⟩ => show win1_6.index t (1 : Fin 2) * 64 + 1 * q.val = q.val; omega

/-- Entry (k, q) of window 7's block at any point is entry (k, q) of its array. -/
theorem emb_w7 (t : Fin cfg1.N) (k : Fin 64) (q : Fin 192) :
    ((cfg1.win 7).blk t).view.emb (ix2 k q) = ix2 k q := by
  obtain ⟨ea, eb⟩ := idx_w7 t
  funext a; apply Fin.ext
  match a with
  | ⟨0, _⟩ => show win1_7.index t (0 : Fin 2) * 64 + 1 * k.val = k.val; omega
  | ⟨1, _⟩ => show win1_7.index t (1 : Fin 2) * 192 + 1 * q.val = q.val; omega

/-- Entry (k, q) of window 8's block at any point is entry (k, q) of its array. -/
theorem emb_w8 (t : Fin cfg1.N) (k : Fin 64) (q : Fin 192) :
    ((cfg1.win 8).blk t).view.emb (ix2 k q) = ix2 k q := by
  obtain ⟨ea, eb⟩ := idx_w8 t
  funext a; apply Fin.ext
  match a with
  | ⟨0, _⟩ => show win1_8.index t (0 : Fin 2) * 64 + 1 * k.val = k.val; omega
  | ⟨1, _⟩ => show win1_8.index t (1 : Fin 2) * 192 + 1 * q.val = q.val; omega

/-- Entry (k, q) of window 9's block at any point is entry (k, q) of its array. -/
theorem emb_w9 (t : Fin cfg1.N) (k : Fin 1) (q : Fin 192) :
    ((cfg1.win 9).blk t).view.emb (ix2 k q) = ix2 k q := by
  obtain ⟨ea, eb⟩ := idx_w9 t
  funext a; apply Fin.ext
  match a with
  | ⟨0, _⟩ => show win1_9.index t (0 : Fin 2) * 1 + 1 * k.val = k.val; omega
  | ⟨1, _⟩ => show win1_9.index t (1 : Fin 2) * 192 + 1 * q.val = q.val; omega

/-- Entry (k, q) of window 10's block at any point is entry (k, q) of its array. -/
theorem emb_w10 (t : Fin cfg1.N) (k : Fin 1) (q : Fin 192) :
    ((cfg1.win 10).blk t).view.emb (ix2 k q) = ix2 k q := by
  obtain ⟨ea, eb⟩ := idx_w10 t
  funext a; apply Fin.ext
  match a with
  | ⟨0, _⟩ => show win1_10.index t (0 : Fin 2) * 1 + 1 * k.val = k.val; omega
  | ⟨1, _⟩ => show win1_10.index t (1 : Fin 2) * 192 + 1 * q.val = q.val; omega

/-- Entry (k, q) of window 11's block at any point is entry (k, q) of its array. -/
theorem emb_w11 (t : Fin cfg1.N) (k : Fin 64) (q : Fin 64) :
    ((cfg1.win 11).blk t).view.emb (ix2 k q) = ix2 k q := by
  obtain ⟨ea, eb⟩ := idx_w11 t
  funext a; apply Fin.ext
  match a with
  | ⟨0, _⟩ => show win1_11.index t (0 : Fin 2) * 64 + 1 * k.val = k.val; omega
  | ⟨1, _⟩ => show win1_11.index t (1 : Fin 2) * 64 + 1 * q.val = q.val; omega

/-- Entry (k, q) of window 12's block at any point is entry (k, q) of its array. -/
theorem emb_w12 (t : Fin cfg1.N) (k : Fin 1) (q : Fin 64) :
    ((cfg1.win 12).blk t).view.emb (ix2 k q) = ix2 k q := by
  obtain ⟨ea, eb⟩ := idx_w12 t
  funext a; apply Fin.ext
  match a with
  | ⟨0, _⟩ => show win1_12.index t (0 : Fin 2) * 1 + 1 * k.val = k.val; omega
  | ⟨1, _⟩ => show win1_12.index t (1 : Fin 2) * 64 + 1 * q.val = q.val; omega

/-- Entry (p, k) of window 13's block at point t is entry (2000·t + p, k) of its array. -/
theorem emb_w13 (t : Fin cfg1.N) (p : Fin 2000) (n : Fin 100000) (hn : n.val = t.val * 2000 + p.val) (k : Fin 128) :
    ((cfg1.win 13).blk t).view.emb (ix2 p k) = ix2 n k := by
  obtain ⟨ea, eb⟩ := idx_w13 t
  funext a; apply Fin.ext
  match a with
  | ⟨0, _⟩ => show win1_13.index t (0 : Fin 2) * 2000 + 1 * p.val = n.val; omega
  | ⟨1, _⟩ => show win1_13.index t (1 : Fin 2) * 128 + 1 * k.val = k.val; omega

end Cert.Hyper.Region1

end
-- ==== Proof.Region1.lean ====
/-
  The second launch: the node update.

  Its grid has 50 points; point t stages rows 2000·t … 2000·t + 1999 of the raw convolution sums, of the two
  inverse-degree columns and of the previous hidden rows, together with the whole of every weight and bias, and writes
  back the same rows of the 128-lane output.  Within a row the body depends on that row of the three row-blocked arrays
  only, so what a point writes back is block t of the array "out" of the whole arrays.  The row blocks tile the output,
  so after the launch the output array is, entry by entry, "out".
-/
import proofs.«119679_j17197049053669_2_alg».proof.Proof.Gen.KernelIdeal.Frame
import proofs.«119679_j17197049053669_2_alg».proof.Proof.Region1Out
import proofs.«119679_j17197049053669_2_alg».proof.Proof.Region1Emb
import Idealize.ShloMosaic.Lib.Pipeline.Value
import Idealize.ShloMosaic.Lib.ValueIdx

set_option maxRecDepth 16384

noncomputable section

open scoped BigOperators

namespace Cert.Hyper.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Hyper

variable (V : (c : Dev nD) → (b : Ref sig .tc) → Buf (Elt Ideal) ((c : Thread nD τ).loc b))

/-! ## The blocks read off the arrays -/

/-- Row p of window 0's block at point t is row 2000·t + p of its array. -/
theorem rd_w0 (c : Dev nD) (t : Fin cfg1.N) (p : Fin 2000) (n : Fin 100000) (hn : n.val = t.val * 2000 + p.val) (k : Fin 128) :
    iblk1 V c 0 t (ix2 p k) = V c main_v47 (ix2 n k) :=
  congrArg (V c main_v47) (emb_w0 t p n hn k)

/-- Row p of window 1's block at point t is row 2000·t + p of its array. -/
theorem rd_w1 (c : Dev nD) (t : Fin cfg1.N) (p : Fin 2000) (n : Fin 100000) (hn : n.val = t.val * 2000 + p.val) (k : Fin 2) :
    iblk1 V c 1 t (ix2 p k) = V c main_v55 (ix2 n k) :=
  congrArg (V c main_v55) (emb_w1 t p n hn k)

/-- Row p of window 2's block at point t is row 2000·t + p of its array. -/
theorem rd_w2 (c : Dev nD) (t : Fin cfg1.N) (p : Fin 2000) (n : Fin 100000) (hn : n.val = t.val * 2000 + p.val) (k : Fin 64) :
    iblk1 V c 2 t (ix2 p k) = V c main_arg1 (ix2 n k) :=
  congrArg (V c main_arg1) (emb_w2 t p n hn k)

/-- Window 3's block at any point is its whole array. -/
theorem rd_w3 (c : Dev nD) (t : Fin cfg1.N) (a : Fin 1) (k : Fin 128) :
    iblk1 V c 3 t (ix2 a k) = V c main_v56 (ix2 a k) :=
  congrArg (V c main_v56) (emb_w3 t a k)

/-- Window 4's block at any point is its whole array. -/
theorem rd_w4 (c : Dev nD) (t : Fin cfg1.N) (a : Fin 64) (k : Fin 64) :
    iblk1 V c 4 t (ix2 a k) = V c main_v57 (ix2 a k) :=
  congrArg (V c main_v57) (emb_w4 t a k)

/-- Window 5's block at any point is its whole array. -/
theorem rd_w5 (c : Dev nD) (t : Fin cfg1.N) (a : Fin 64) (k : Fin 64) :
    iblk1 V c 5 t (ix2 a k) = V c main_v58 (ix2 a k) :=
  congrArg (V c main_v58) (emb_w5 t a k)

/-- Window 6's block at any point is its whole array. -/
theorem rd_w6 (c : Dev nD) (t : Fin cfg1.N) (a : Fin 1) (k : Fin 64) :
    iblk1 V c 6 t (ix2 a k) = V c main_v61 (ix2 a k) :=
  congrArg (V c main_v61) (emb_w6 t a k)

/-- Window 7's block at any point is its whole array. -/
theorem rd_w7 (c : Dev nD) (t : Fin cfg1.N) (a : Fin 64) (k : Fin 192) :
    iblk1 V c 7 t (ix2 a k) = V c main_v59 (ix2 a k) :=
  congrArg (V c main_v59) (emb_w7 t a k)

/-- Window 8's block at any point is its whole array. -/
theorem rd_w8 (c : Dev nD) (t : Fin cfg1.N) (a : Fin 64) (k : Fin 192) :
    iblk1 V c 8 t (ix2 a k) = V c main_v60 (ix2 a k) :=
  congrArg (V c main_v60) (emb_w8 t a k)

/-- Window 9's block at any point is its whole array. -/
theorem rd_w9 (c : Dev nD) (t : Fin cfg1.N) (a : Fin 1) (k : Fin 192) :
    iblk1 V c 9 t (ix2 a k) = V c main_v62 (ix2 a k) :=
  congrArg (V c main_v62) (emb_w9 t a k)

/-- Window 10's block at any point is its whole array. -/
theorem rd_w10 (c : Dev nD) (t : Fin cfg1.N) (a : Fin 1) (k : Fin 192) :
    iblk1 V c 10 t (ix2 a k) = V c main_v63 (ix2 a k) :=
  congrArg (V c main_v63) (emb_w10 t a k)

/-- Window 11's block at any point is its whole array. -/
theorem rd_w11 (c : Dev nD) (t : Fin cfg1.N) (a : Fin 64) (k : Fin 64) :
    iblk1 V c 11 t (ix2 a k) = V c main_arg13 (ix2 a k) :=
  congrArg (V c main_arg13) (emb_w11 t a k)

/-- Window 12's block at any point is its whole array. -/
theorem rd_w12 (c : Dev nD) (t : Fin cfg1.N) (a : Fin 1) (k : Fin 64) :
    iblk1 V c 12 t (ix2 a k) = V c main_v64 (ix2 a k) :=
  congrArg (V c main_v64) (emb_w12 t a k)

/-! ## What a point writes back -/

/-- Lanes 0..63 of row p of what point t's body leaves are lanes 0..63 of row 2000·t + p of "out". -/
theorem point_lo (c : Dev nD) (t : Fin cfg1.N) (p : Fin 2000) (n : Fin 100000) (hn : n.val = t.val * 2000 + p.val) (j : Fin 64) :
    out1_13 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (ix2 p (lo j))
      = out (V c main_v47) (V c main_v55) (V c main_arg1) (V c main_v56) (V c main_v57) (V c main_v58) (V c main_v61) (V c main_v59) (V c main_v60) (V c main_v62) (V c main_v63) (V c main_arg13) (V c main_v64) (ix2 n (lo j)) :=
  block_lo _ _ _ _ _ _ _ _ _ _ _ _ _ _ _ _ _ _ _ _ _ _ _ _ _ _ p n
    (rd_w0 V c t p n hn) (rd_w1 V c t p n hn) (rd_w2 V c t p n hn) (rd_w3 V c t) (rd_w4 V c t) (rd_w5 V c t) (rd_w6 V c t) (rd_w7 V c t) (rd_w8 V c t) (rd_w9 V c t) (rd_w10 V c t) (rd_w11 V c t) (rd_w12 V c t) j

/-- Lanes 64..127 likewise. -/
theorem point_hi (c : Dev nD) (t : Fin cfg1.N) (p : Fin 2000) (n : Fin 100000) (hn : n.val = t.val * 2000 + p.val) (j : Fin 64) :
    out1_13 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (ix2 p (hi j))
      = out (V c main_v47) (V c main_v55) (V c main_arg1) (V c main_v56) (V c main_v57) (V c main_v58) (V c main_v61) (V c main_v59) (V c main_v60) (V c main_v62) (V c main_v63) (V c main_arg13) (V c main_v64) (ix2 n (hi j)) :=
  block_hi _ _ _ _ _ _ _ _ _ _ _ _ _ _ _ _ _ _ _ _ _ _ _ _ _ _ p n
    (rd_w0 V c t p n hn) (rd_w1 V c t p n hn) (rd_w2 V c t p n hn) (rd_w3 V c t) (rd_w4 V c t) (rd_w5 V c t) (rd_w6 V c t) (rd_w7 V c t) (rd_w8 V c t) (rd_w9 V c t) (rd_w10 V c t) (rd_w11 V c t) (rd_w12 V c t) j

/-- What point t writes back is block t of "out" of the thirteen arrays as the launch finds them. -/
theorem flushed_eq (c : Dev nD) (t : Fin cfg1.N) :
    (dat1 (F := Ideal) V c).flushed 13 t
      = ((cfg1.win 13).blk t).view.read (Elt Ideal) (out (V c main_v47) (V c main_v55) (V c main_arg1) (V c main_v56) (V c main_v57) (V c main_v58) (V c main_v61) (V c main_v59) (V c main_v60) (V c main_v62) (V c main_v63) (V c main_arg13) (V c main_v64)) := by
  show (cfg1.win 13).cut (grid1.coords t) ((dat1 (F := Ideal) V c).after 13 t) = _
  rw [after1_13]
  have hN : cfg1.N = 50 := Gen.N_1
  have ht : t.val < cfg1.N := t.isLt
  funext i
  obtain ⟨p, q, rfl⟩ : ∃ (p : Fin 2000) (q : Fin 128), i = ix2 p q := ⟨i 0, i 1, eq_ix2 i⟩
  have hp := p.isLt
  obtain ⟨n, hn⟩ : ∃ n : Fin 100000, n.val = t.val * 2000 + p.val := ⟨⟨t.val * 2000 + p.val, by omega⟩, rfl⟩
  by_cases hq : q.val < 64
  · obtain ⟨j, rfl⟩ : ∃ j : Fin 64, q = lo j := ⟨⟨q.val, hq⟩, Fin.ext rfl⟩
    exact (point_lo V c t p n hn j).trans (congrArg _ (emb_w13 t p n hn (lo j)).symm)
  · obtain ⟨j, rfl⟩ : ∃ j : Fin 64, q = hi j :=
      ⟨⟨q.val - 64, by have := q.isLt; omega⟩, Fin.ext (by show q.val = 64 + (q.val - 64); omega)⟩
    exact (point_hi V c t p n hn j).trans (congrArg _ (emb_w13 t p n hn (hi j)).symm)

/-! ## The blocks tile the output -/

/-- An index of the output is in point t's block iff, on each axis, its coordinate is in the block's range. -/
theorem mem_blk (t : Fin cfg1.N) (i : S100000x128.Idx) :
    i ∈ ((cfg1.win 13).blk t).view.set ↔ ∀ a : Fin 2, win1_13.index t a * S2000x128.size a ≤ (i a).val ∧ (i a).val < win1_13.index t a * S2000x128.size a + S2000x128.size a := by
  show i ∈ ((View.whole main_v65).slice (win1_13.rect t)).set ↔ _
  rw [View.set_slice_whole, Rect.mem_set_unit]
  exact Iff.rfl

/-- Every entry of the output lies in the block of the point "row / 2000". -/
theorem cover (i : S100000x128.Idx) : ∃ t : Fin cfg1.N, (cfg1.win 13).flush t = true ∧ i ∈ ((cfg1.win 13).blk t).view.set := by
  have hi0 : (i 0).val < 100000 := (i 0).isLt
  have hi1 : (i 1).val < 128 := (i 1).isLt
  have hN : cfg1.N = 50 := Gen.N_1
  refine ⟨⟨(i 0).val / 2000, by rw [hN]; omega⟩, flush1_13 _, ?_⟩
  rw [mem_blk]
  obtain ⟨e0, e1⟩ := idx_w13 ⟨(i 0).val / 2000, by rw [hN]; omega⟩
  intro a
  match a with
  | ⟨0, _⟩ =>
    show win1_13.index _ (0 : Fin 2) * 2000 ≤ (i 0).val ∧ (i 0).val < win1_13.index _ (0 : Fin 2) * 2000 + 2000
    rw [e0]; show (i 0).val / 2000 * 2000 ≤ (i 0).val ∧ (i 0).val < (i 0).val / 2000 * 2000 + 2000; omega
  | ⟨1, _⟩ =>
    show win1_13.index _ (1 : Fin 2) * 128 ≤ (i 1).val ∧ (i 1).val < win1_13.index _ (1 : Fin 2) * 128 + 128
    rw [e1]; omega

/-- After the launch the output array is "out" of the thirteen arrays as the launch found them. -/
theorem final (c : Dev nD) : (dat1 (F := Ideal) V c).arrAt 13 cfg1.N = out (V c main_v47) (V c main_v55) (V c main_arg1) (V c main_v56) (V c main_v57) (V c main_v58) (V c main_v61) (V c main_v59) (V c main_v60) (V c main_v62) (V c main_v63) (V c main_arg13) (V c main_v64) :=
  (dat1 (F := Ideal) V c).arrAt_eq_of_cover 13 _ (fun t _ => flushed_eq V c t) cover

end Cert.Hyper.Region1

end
-- ==== Proof.LibSegments.lean ====
/-
  Segment sums, row gathers and appended self-loops, read at an element.

  (1) A rank-1 scatter-add — operand [N], one signed position per update (scatter indices [E, 1]),
      updates [E] — read at position n is the operand's element plus the sum of the updates whose
      position is n.
  (2) A row gather — operand [N, C], one signed row number per result row (start indices [E, 1]),
      result [E, C] — read at (e, o) is the operand at (the row number clamped into [0, N - 1], o).
  (3) A vector of E0 positions followed by 0, 1, …, N - 1 reads n at place E0 + n.
  (4) A count of the updates landing on a position that at least one update lands on is a real
      number at least one, and the inverse square root of such a number is real.
  All sizes and the index width are arbitrary.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost

noncomputable section

open scoped BigOperators
open Idealize.ShloMosaic Idealize.ShloMosaic.ValueIdx

namespace Segments

/-! ## A scatter's result index, by its coordinates -/

/-- An update index lands on operand index i exactly when, on every operand axis, the window's
    start plus the window coordinate is i's coordinate (as integers): being inside the operand is
    then automatic, and the landing index is determined axis by axis. -/
theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  constructor
  · intro h a
    split_ifs at h with hin
    have hi := Option.some.inj h
    have := congrArg (fun f => (f a).val) hi
    simp only at this
    have h0 := (hin a).1
    omega
  · intro h
    have hin : ∀ a, 0 ≤ d.start j idx a + d.window j a ∧ d.start j idx a + d.window j a < s.size a := by
      intro a
      have := h a
      have hlt := (i a).isLt
      omega
    rw [dif_pos hin]
    congr 1
    funext a
    refine Fin.ext ?_
    have := h a
    show (d.start j idx a + d.window j a).toNat = (i a).val
    omega

/-- A rank-1 index set is its one coordinate range … -/
def idxEquiv1 {n0 : Nat} : (⟨1, ![n0]⟩ : Shape).Idx ≃ Fin n0 where
  toFun i := i 0
  invFun p := ix1 p
  left_inv i := (eq_ix1 i).symm
  right_inv _ := rfl

/-- … so a sum over it is the sum over the coordinate. -/
theorem sum_idx1 {M : Type*} [AddCommMonoid M] {n0 : Nat} (f : (⟨1, ![n0]⟩ : Shape).Idx → M) :
    ∑ i, f i = ∑ a : Fin n0, f (ix1 a) := by
  rw [← Equiv.sum_comp (idxEquiv1 (n0 := n0)).symm f]
  rfl

/-! ## Rank 1: operand [N], positions [E, 1], updates [E] -/

/-- The dimension numbers of a scatter of scalars into a rank-1 operand: the updates have no window
    axis; the operand's axis 0 is inserted and is the one the position addresses; the position is
    the length-1 vector on the scatter indices' axis 1. -/
abbrev rows1Dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  { updateWindowDims := [], insertedWindowDims := [0], scatterDimsToOperandDims := [0], indexVectorDim := 1, wf := wf }

section Rows1
variable {N E w : Nat} (wf : ScatterDims.WF ⟨1, ![N]⟩ ⟨2, ![E, 1]⟩ ⟨1, ![E]⟩ [] [0] [0] 1)

/-- On operand axis 0 the window of update e starts at the position idx[e, 0], read signed. -/
theorem rows1_start0 (idx : IVec ⟨2, ![E, 1]⟩ w) (e : Fin E) :
    (rows1Dims N E wf).start (ix1 e) idx 0 = (idx (ix2 e (0 : Fin 1))).toInt := by
  unfold ScatterDims.start
  rw [dif_pos (show (0 : Fin 1) ∈ (rows1Dims N E wf).scatterDimsToOperandDims from List.mem_singleton.mpr rfl)]
  have hsi : (rows1Dims N E wf).siIdx (ix1 e) ⟨List.idxOf (0 : Fin 1) (rows1Dims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the inserted operand axis 0 the window coordinate is 0. -/
theorem rows1_window0 (e : Fin E) : (rows1Dims N E wf).window (ix1 e) 0 = 0 := by
  unfold ScatterDims.window
  have h : ¬ (0 : Fin 1) ∈ (rows1Dims N E wf).sKept := (show (0 : Fin 1) ∉ ([] : List (Fin 1)) by decide)
  rw [dif_neg h]

/-- Update e lands on operand element n exactly when its position idx[e, 0], read signed, is n. -/
theorem rows1_resultIdx?_iff (idx : IVec ⟨2, ![E, 1]⟩ w) (e : Fin E) (n : Fin N) :
    (rows1Dims N E wf).resultIdx? (ix1 e) idx = some (ix1 n) ↔
      (idx (ix2 e (0 : Fin 1))).toInt = (n.val : ℤ) := by
  rw [resultIdx?_eq_some_iff, Fin.forall_fin_one, rows1_start0, rows1_window0]
  show ((idx (ix2 e (0 : Fin 1))).toInt + ((0 : ℕ) : ℤ) = (n.val : ℤ)) ↔ _
  omega

/-- THE RANK-1 SCATTER-ADD READ AT n: the operand's element plus the sum of the updates e whose
    position idx[e, 0], read signed, is n. A position outside [0, N) equals no n, so that update is
    dropped. -/
theorem scatterAdd_rows1_apply (x : (⟨1, ![N]⟩ : Shape).Idx → EReal) (idx : IVec ⟨2, ![E, 1]⟩ w)
    (u : (⟨1, ![E]⟩ : Shape).Idx → EReal) (n : Fin N) :
    Host.scatterAdd (F := Ideal) (φ := .f32) (rows1Dims N E wf) x idx u (ix1 n) =
      x (ix1 n) + ∑ e : Fin E, if (idx (ix2 e (0 : Fin 1))).toInt = (n.val : ℤ) then u (ix1 e) else 0 := by
  show Ideal.hostScatterAdd (rows1Dims N E wf) x idx u (ix1 n) = _
  unfold Ideal.hostScatterAdd
  congr 1
  rw [Finset.sum_filter, sum_idx1]
  refine Finset.sum_congr rfl fun e _ => ?_
  simp only [rows1_resultIdx?_iff]

/-- The same reading for ANY record of dimension numbers whose four lists are those of a rank-1
    scatter of scalars (each hypothesis is closed by reflexivity on a record written out field by
    field). -/
theorem scatterAdd_rows1_apply_of_dims (D : ScatterDims ⟨1, ![N]⟩ ⟨2, ![E, 1]⟩ ⟨1, ![E]⟩)
    (h1 : D.updateWindowDims = []) (h2 : D.insertedWindowDims = [0]) (h3 : D.scatterDimsToOperandDims = [0])
    (h4 : D.indexVectorDim = 1) (x : (⟨1, ![N]⟩ : Shape).Idx → EReal) (idx : IVec ⟨2, ![E, 1]⟩ w)
    (u : (⟨1, ![E]⟩ : Shape).Idx → EReal) (n : Fin N) :
    Host.scatterAdd (F := Ideal) (φ := .f32) D x idx u (ix1 n) =
      x (ix1 n) + ∑ e : Fin E, if (idx (ix2 e (0 : Fin 1))).toInt = (n.val : ℤ) then u (ix1 e) else 0 := by
  obtain ⟨uw, iw, sd, iv, wf'⟩ := D
  simp only at h1 h2 h3 h4
  subst h1 h2 h3 h4
  exact scatterAdd_rows1_apply wf' x idx u n

end Rows1

/-! ## Row gather: operand [N, C], row numbers [E, 1], result [E, C] -/

section GatherRows
variable {α : Type}

/-- The dimension numbers of a row gather from a rank-2 operand: the result's axis 1 is the offset
    axis and reads the operand's axis 1 in full (slice sizes [1, C]); the operand's axis 0 is
    collapsed and is the one the row number addresses; the row number is the length-1 vector on the
    start indices' axis 1. -/
abbrev rowsGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, o): the operand at row idx[e, 0], read signed and clamped into
    [0, N - 1], and column o. The row read depends neither on o nor on the row length C. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (o : Fin C) :
    Host.gather (rowsGatherDims N E C wf) x idx (ix2 e o) =
      x (ix2 (⟨min (idx (ix2 e (0 : Fin 1))).toInt.toNat (N - 1), by omega⟩ : Fin N) o) := by
  unfold Host.gather
  congr 1
  funext a
  refine Fin.ext ?_
  match a with
  | ⟨0, _⟩ =>
    -- axis 0: the clamped row number; no batching coordinate; collapsed, so no offset coordinate
    show (rowsGatherDims N E C wf).start (ix2 e o) idx 0 + (rowsGatherDims N E C wf).batchCoord (ix2 e o) 0 +
      (rowsGatherDims N E C wf).offCoord (ix2 e o) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGatherDims N E C wf).startIndexMap from List.mem_singleton.mpr rfl)]
    have hsi : (rowsGatherDims N E C wf).siIdx (ix2 e o) ⟨List.idxOf (0 : Fin 2) (rowsGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1: not addressed by the row number, so the slice starts at 0; the offset coordinate is o
    show (rowsGatherDims N E C wf).start (ix2 e o) idx 1 + (rowsGatherDims N E C wf).batchCoord (ix2 e o) 1 +
      (rowsGatherDims N E C wf).offCoord (ix2 e o) 1 = o.val
    rw [GatherDims.batchCoord_eq_zero _ _ _ List.not_mem_nil]
    have hs : (rowsGatherDims N E C wf).start (ix2 e o) idx 1 = 0 := by
      unfold GatherDims.start
      have h : ¬ (1 : Fin 2) ∈ (rowsGatherDims N E C wf).startIndexMap := (show (1 : Fin 2) ∉ ([0] : List (Fin 2)) by decide)
      rw [dif_neg h]
    have ho : (rowsGatherDims N E C wf).offCoord (ix2 e o) 1 = o.val := by
      unfold GatherDims.offCoord
      have h : (1 : Fin 2) ∈ (rowsGatherDims N E C wf).sKept := (show (1 : Fin 2) ∈ ([1] : List (Fin 2)) by decide)
      rw [dif_pos h]
      rfl
    rw [hs, ho]
    omega

/-- The same reading for ANY record of dimension numbers whose seven fields are those of a row
    gather (each hypothesis is closed by reflexivity on a record written out field by field). -/
theorem gather_rows_apply_of_dims {N E C w : Nat} (hN : 0 < N)
    (D : GatherDims ⟨2, ![N, C]⟩ ⟨2, ![E, 1]⟩ ⟨2, ![E, C]⟩)
    (h1 : D.offsetDims = [1]) (h2 : D.collapsedSliceDims = [0]) (h3 : D.operandBatchingDims = [])
    (h4 : D.startIndicesBatchingDims = []) (h5 : D.startIndexMap = [0]) (h6 : D.indexVectorDim = 1)
    (h7 : D.sliceSizes = ![1, C])
    (x : (⟨2, ![N, C]⟩ : Shape).Idx → α) (idx : IVec ⟨2, ![E, 1]⟩ w) (e : Fin E) (o : Fin C) :
    Host.gather D x idx (ix2 e o) =
      x (ix2 (⟨min (idx (ix2 e (0 : Fin 1))).toInt.toNat (N - 1), by omega⟩ : Fin N) o) := by
  obtain ⟨od, cd, ob, sb, sm, iv, ss, wf'⟩ := D
  simp only at h1 h2 h3 h4 h5 h6 h7
  subst h1 h2 h3 h4 h5 h6 h7
  exact gather_rows_apply hN wf' x idx e o

end GatherRows

/-! ## Positions followed by 0, 1, …, N - 1 -/

/-- A 32-bit word holding a natural number below 2 ^ 31 reads that number when read signed. -/
theorem toInt_ofNat32 (k : Nat) (hk : k < 2 ^ 31) : (BitVec.ofNat 32 k).toInt = (k : ℤ) := by
  rw [BitVec.toInt_eq_toNat_cond, BitVec.toNat_ofNat]
  have h : k % 2 ^ 32 = k := Nat.mod_eq_of_lt (by omega)
  rw [h, if_pos (by omega)]

/-- A vector of E0 positions with 0, 1, …, N - 1 appended, laid out as a column [E0 + N, 1], reads
    n at place E0 + n, as a signed integer: the appended part is every position once. -/
theorem selfloop_toInt (E0 N Et : Nat) (hEt : E0 + N = Et) (hN31 : N < 2 ^ 31) (a : IVec ⟨1, ![E0]⟩ 32)
    (hc : Shape.Concatenates [(⟨1, ![E0]⟩ : Shape), ⟨1, ![N]⟩] ⟨1, ![Et]⟩ 0)
    (hb : (⟨1, ![Et]⟩ : Shape).BroadcastsInDim ⟨2, ![Et, 1]⟩ ![0]) (n : Fin N) :
    (broadcastInDim ⟨2, ![Et, 1]⟩ ![0] hb
      (concatenate ⟨1, ![Et]⟩ 0 [⟨⟨1, ![E0]⟩, a⟩, ⟨⟨1, ![N]⟩, iotaInDim ⟨1, ![N]⟩ 32 0⟩] hc)
      (ix2 (⟨E0 + n.val, by omega⟩ : Fin Et) (0 : Fin 1))).toInt = (n.val : ℤ) := by
  have hn := n.isLt
  have e1 := broadcastInDim_apply (s := ⟨1, ![Et]⟩) (t := ⟨2, ![Et, 1]⟩) ![0] hb
    (concatenate ⟨1, ![Et]⟩ 0 [⟨⟨1, ![E0]⟩, a⟩, ⟨⟨1, ![N]⟩, iotaInDim ⟨1, ![N]⟩ 32 0⟩] hc)
    (ix2 (⟨E0 + n.val, by omega⟩ : Fin Et) (0 : Fin 1)) (ix1 (⟨E0 + n.val, by omega⟩ : Fin Et)) (fun b => by
      obtain rfl : b = 0 := Subsingleton.elim _ _
      show E0 + n.val = if Et = 1 then 0 else E0 + n.val
      split_ifs with h1
      · omega
      · rfl)
  have e2 := concatenate_pair_apply_right (t := ⟨1, ![Et]⟩) (s₁ := ⟨1, ![E0]⟩) (s₂ := ⟨1, ![N]⟩) (0 : Fin 1)
    a (iotaInDim ⟨1, ![N]⟩ 32 0) hc (ix1 (⟨E0 + n.val, by omega⟩ : Fin Et)) rfl rfl (ix1 n)
    (fun b hb' => absurd (Subsingleton.elim _ _) hb')
    (by show n.val + E0 = E0 + n.val; omega)
  rw [e1, e2, iotaInDim_apply]
  exact toInt_ofNat32 n.val (by omega)

/-! ## Counting the updates that land on a position -/

/-- The coercion from the reals to the extended reals goes through a finite sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The number of updates whose position is n — the scatter-add of ones into zeros read at n —
    is a real number, and at least one as soon as some update's position is n. -/
theorem degree_real_pos {N E w : Nat} (idx : IVec ⟨2, ![E, 1]⟩ w) (n : Fin N)
    (hself : ∃ e : Fin E, (idx (ix2 e (0 : Fin 1))).toInt = (n.val : ℤ)) :
    ∃ r : ℝ, 1 ≤ r ∧
      (0 : EReal) + ∑ e : Fin E, (if (idx (ix2 e (0 : Fin 1))).toInt = (n.val : ℤ) then (1 : EReal) else 0) = (r : EReal) := by
  obtain ⟨e0, he0⟩ := hself
  refine ⟨∑ e : Fin E, (if (idx (ix2 e (0 : Fin 1))).toInt = (n.val : ℤ) then (1 : ℝ) else 0), ?_, ?_⟩
  · have hnn : ∀ e ∈ (Finset.univ : Finset (Fin E)),
        (0 : ℝ) ≤ (if (idx (ix2 e (0 : Fin 1))).toInt = (n.val : ℤ) then (1 : ℝ) else 0) := by
      intro e _
      split_ifs
      · exact zero_le_one
      · exact le_refl _
    have h := Finset.single_le_sum hnn (Finset.mem_univ e0)
    rw [if_pos he0] at h
    exact h
  · rw [zero_add, coe_finset_sum]
    refine Finset.sum_congr rfl fun e _ => ?_
    split_ifs
    · exact EReal.coe_one.symm
    · exact EReal.coe_zero.symm

/-- The inverse square root of a real number at least one is a real number. -/
theorem rsqrt_real_of_pos (r : ℝ) (hr : 1 ≤ r) : ∃ s : ℝ, Ideal.rsqrt (r : EReal) = (s : EReal) := by
  refine ⟨(Real.sqrt r)⁻¹, ?_⟩
  rw [Ideal.rsqrt_coe, if_neg (by linarith), if_neg (by linarith)]

end Segments

end
-- ==== Proof.LibScatterRows.lean ====
/-
  Row scatter-add read at an element.

  A segment sum over rows — operand [N, C] (or [N, B, C]), one signed row number per update row
  (scatter indices [E, 1]), updates [E, C] (or [E, B, C]) — adds update row e into operand row
  idx[e, 0] and drops it when that row number is outside [0, N). Read at element (n, o) of the
  result this is the operand's element plus the sum, over the update rows e whose row number is n,
  of the update's element (e, o). All sizes and the index width are arbitrary.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace ScatterRows

/-! ## A scatter's result index, by its coordinates -/

/-- An update index lands on operand index i exactly when, on every operand axis, the window's
    start plus the window coordinate is i's coordinate (as integers): being inside the operand is
    then automatic, and the landing index is determined axis by axis. -/
theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  constructor
  · intro h a
    split_ifs at h with hin
    have hi := Option.some.inj h
    have := congrArg (fun f => (f a).val) hi
    simp only at this
    have h0 := (hin a).1
    omega
  · intro h
    have hin : ∀ a, 0 ≤ d.start j idx a + d.window j a ∧ d.start j idx a + d.window j a < s.size a := by
      intro a
      have := h a
      have hlt := (i a).isLt
      omega
    rw [dif_pos hin]
    congr 1
    funext a
    refine Fin.ext ?_
    have := h a
    show (d.start j idx a + d.window j a).toNat = (i a).val
    omega

/-! ## Rank 2: operand [N, C], row numbers [E, 1], updates [E, C] -/

/-- The dimension numbers of a row scatter over a rank-2 operand: the updates' axis 1 is the window
    axis and goes to the operand's axis 1; the operand's axis 0 is inserted and is the one the row
    number addresses; the row number is the length-1 vector on the scatter indices' axis 1. -/
abbrev rows2Dims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1, wf := wf }

section Rows2
variable {N E C w : Nat} (wf : ScatterDims.WF ⟨2, ![N, C]⟩ ⟨2, ![E, 1]⟩ ⟨2, ![E, C]⟩ [1] [0] [0] 1)

/-- On operand axis 0 the window of update (e, o) starts at the row number idx[e, 0], read signed. -/
theorem rows2_start0 (idx : IVec ⟨2, ![E, 1]⟩ w) (e : Fin E) (o : Fin C) :
    (rows2Dims N E C wf).start (ix2 e o) idx 0 = (idx (ix2 e (0 : Fin 1))).toInt := by
  unfold ScatterDims.start
  rw [dif_pos (show (0 : Fin 2) ∈ (rows2Dims N E C wf).scatterDimsToOperandDims from List.mem_singleton.mpr rfl)]
  have hsi : (rows2Dims N E C wf).siIdx (ix2 e o) ⟨List.idxOf (0 : Fin 2) (rows2Dims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which the row number does not address, the window starts at 0. -/
theorem rows2_start1 (idx : IVec ⟨2, ![E, 1]⟩ w) (e : Fin E) (o : Fin C) :
    (rows2Dims N E C wf).start (ix2 e o) idx 1 = 0 := by
  unfold ScatterDims.start
  have h : ¬ (1 : Fin 2) ∈ (rows2Dims N E C wf).scatterDimsToOperandDims := (show (1 : Fin 2) ∉ ([0] : List (Fin 2)) by decide)
  rw [dif_neg h]

/-- On the inserted operand axis 0 the window coordinate is 0. -/
theorem rows2_window0 (e : Fin E) (o : Fin C) : (rows2Dims N E C wf).window (ix2 e o) 0 = 0 := by
  unfold ScatterDims.window
  have h : ¬ (0 : Fin 2) ∈ (rows2Dims N E C wf).sKept := (show (0 : Fin 2) ∉ ([1] : List (Fin 2)) by decide)
  rw [dif_neg h]

/-- On operand axis 1 the window coordinate of update (e, o) is the column o. -/
theorem rows2_window1 (e : Fin E) (o : Fin C) : (rows2Dims N E C wf).window (ix2 e o) 1 = o.val := by
  unfold ScatterDims.window
  have h : (1 : Fin 2) ∈ (rows2Dims N E C wf).sKept := (show (1 : Fin 2) ∈ ([1] : List (Fin 2)) by decide)
  rw [dif_pos h]
  rfl

/-- Update (e, o') lands on operand element (n, o) exactly when its row number idx[e, 0], read
    signed, is n and its column o' is o. -/
theorem rows2_resultIdx?_iff (idx : IVec ⟨2, ![E, 1]⟩ w) (e : Fin E) (o' : Fin C) (n : Fin N) (o : Fin C) :
    (rows2Dims N E C wf).resultIdx? (ix2 e o') idx = some (ix2 n o) ↔
      (idx (ix2 e (0 : Fin 1))).toInt = (n.val : ℤ) ∧ o' = o := by
  rw [resultIdx?_eq_some_iff, Fin.forall_fin_two, rows2_start0, rows2_window0, rows2_start1, rows2_window1]
  show ((idx (ix2 e (0 : Fin 1))).toInt + ((0 : ℕ) : ℤ) = (n.val : ℤ) ∧ (0 : ℤ) + ((o'.val : ℕ) : ℤ) = (o.val : ℤ)) ↔ _
  rw [Fin.ext_iff]
  omega

/-- THE ROW SCATTER-ADD READ AT (n, o): the operand's element plus the sum of the updates' elements
    (e, o) over the update rows e whose row number idx[e, 0], read signed, is n. A row number outside
    [0, N) equals no n, so that update row is dropped. -/
theorem scatterAdd_rows2_apply (x : (⟨2, ![N, C]⟩ : Shape).Idx → EReal) (idx : IVec ⟨2, ![E, 1]⟩ w)
    (u : (⟨2, ![E, C]⟩ : Shape).Idx → EReal) (n : Fin N) (o : Fin C) :
    Host.scatterAdd (F := Ideal) (φ := .f32) (rows2Dims N E C wf) x idx u (ix2 n o) =
      x (ix2 n o) + ∑ e : Fin E, if (idx (ix2 e (0 : Fin 1))).toInt = (n.val : ℤ) then u (ix2 e o) else 0 := by
  show Ideal.hostScatterAdd (rows2Dims N E C wf) x idx u (ix2 n o) = _
  unfold Ideal.hostScatterAdd
  congr 1
  rw [Finset.sum_filter, sum_idx2]
  refine Finset.sum_congr rfl fun e _ => ?_
  simp only [rows2_resultIdx?_iff]
  by_cases ht : (idx (ix2 e (0 : Fin 1))).toInt = (n.val : ℤ)
  · simp only [ht, true_and, if_true]
    exact Finset.sum_ite_eq' Finset.univ o _ |>.trans (if_pos (Finset.mem_univ o))
  · simp only [ht, false_and, if_false, Finset.sum_const_zero]

/-- The same reading for ANY record of dimension numbers whose four lists are those of a row scatter
    (each hypothesis is closed by reflexivity on a record written out field by field). -/
theorem scatterAdd_rows2_apply_of_dims (D : ScatterDims ⟨2, ![N, C]⟩ ⟨2, ![E, 1]⟩ ⟨2, ![E, C]⟩)
    (h1 : D.updateWindowDims = [1]) (h2 : D.insertedWindowDims = [0]) (h3 : D.scatterDimsToOperandDims = [0])
    (h4 : D.indexVectorDim = 1) (x : (⟨2, ![N, C]⟩ : Shape).Idx → EReal) (idx : IVec ⟨2, ![E, 1]⟩ w)
    (u : (⟨2, ![E, C]⟩ : Shape).Idx → EReal) (n : Fin N) (o : Fin C) :
    Host.scatterAdd (F := Ideal) (φ := .f32) D x idx u (ix2 n o) =
      x (ix2 n o) + ∑ e : Fin E, if (idx (ix2 e (0 : Fin 1))).toInt = (n.val : ℤ) then u (ix2 e o) else 0 := by
  obtain ⟨uw, iw, sd, iv, wf'⟩ := D
  simp only at h1 h2 h3 h4
  subst h1 h2 h3 h4
  exact scatterAdd_rows2_apply wf' x idx u n o

end Rows2

/-! ## Rank 3: operand [N, B, C], row numbers [E, 1], updates [E, B, C] -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A statement about every one of three axes is the statement about axis 0, axis 1 and axis 2. -/
theorem forall_fin3 {P : Fin 3 → Prop} : (∀ a, P a) ↔ P 0 ∧ P 1 ∧ P 2 := by
  constructor
  · intro h; exact ⟨h 0, h 1, h 2⟩
  · rintro ⟨h0, h1, h2⟩ a
    match a with
    | ⟨0, _⟩ => exact h0
    | ⟨1, _⟩ => exact h1
    | ⟨2, _⟩ => exact h2

/-- The dimension numbers of a row scatter over a rank-3 operand: the updates' axes 1 and 2 are the
    window axes and go to the operand's axes 1 and 2; the operand's axis 0 is inserted and is the
    one the row number addresses; the row number is the length-1 vector on the scatter indices'
    axis 1. -/
abbrev rows3Dims (N E B C : Nat)
    (wf : ScatterDims.WF ⟨3, ![N, B, C]⟩ ⟨2, ![E, 1]⟩ ⟨3, ![E, B, C]⟩ [1, 2] [0] [0] 1) :
    ScatterDims ⟨3, ![N, B, C]⟩ ⟨2, ![E, 1]⟩ ⟨3, ![E, B, C]⟩ :=
  { updateWindowDims := [1, 2], insertedWindowDims := [0], scatterDimsToOperandDims := [0], indexVectorDim := 1, wf := wf }

section Rows3
variable {N E B C w : Nat} (wf : ScatterDims.WF ⟨3, ![N, B, C]⟩ ⟨2, ![E, 1]⟩ ⟨3, ![E, B, C]⟩ [1, 2] [0] [0] 1)

/-- On operand axis 0 the window of update (e, b, d) starts at the row number idx[e, 0], read signed. -/
theorem rows3_start0 (idx : IVec ⟨2, ![E, 1]⟩ w) (e : Fin E) (b : Fin B) (d : Fin C) :
    (rows3Dims N E B C wf).start (ix3 e b d) idx 0 = (idx (ix2 e (0 : Fin 1))).toInt := by
  unfold ScatterDims.start
  rw [dif_pos (show (0 : Fin 3) ∈ (rows3Dims N E B C wf).scatterDimsToOperandDims from List.mem_singleton.mpr rfl)]
  have hsi : (rows3Dims N E B C wf).siIdx (ix3 e b d) ⟨List.idxOf (0 : Fin 3) (rows3Dims N E B C wf).scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

/-- On operand axis 1, which the row number does not address, the window starts at 0. -/
theorem rows3_start1 (idx : IVec ⟨2, ![E, 1]⟩ w) (e : Fin E) (b : Fin B) (d : Fin C) :
    (rows3Dims N E B C wf).start (ix3 e b d) idx 1 = 0 := by
  unfold ScatterDims.start
  have h : ¬ (1 : Fin 3) ∈ (rows3Dims N E B C wf).scatterDimsToOperandDims := (show (1 : Fin 3) ∉ ([0] : List (Fin 3)) by decide)
  rw [dif_neg h]

/-- On operand axis 2, which the row number does not address, the window starts at 0. -/
theorem rows3_start2 (idx : IVec ⟨2, ![E, 1]⟩ w) (e : Fin E) (b : Fin B) (d : Fin C) :
    (rows3Dims N E B C wf).start (ix3 e b d) idx 2 = 0 := by
  unfold ScatterDims.start
  have h : ¬ (2 : Fin 3) ∈ (rows3Dims N E B C wf).scatterDimsToOperandDims := (show (2 : Fin 3) ∉ ([0] : List (Fin 3)) by decide)
  rw [dif_neg h]

/-- On the inserted operand axis 0 the window coordinate is 0. -/
theorem rows3_window0 (e : Fin E) (b : Fin B) (d : Fin C) : (rows3Dims N E B C wf).window (ix3 e b d) 0 = 0 := by
  unfold ScatterDims.window
  have h : ¬ (0 : Fin 3) ∈ (rows3Dims N E B C wf).sKept := (show (0 : Fin 3) ∉ ([1, 2] : List (Fin 3)) by decide)
  rw [dif_neg h]

/-- On operand axis 1 the window coordinate of update (e, b, d) is b. -/
theorem rows3_window1 (e : Fin E) (b : Fin B) (d : Fin C) : (rows3Dims N E B C wf).window (ix3 e b d) 1 = b.val := by
  unfold ScatterDims.window
  have h : (1 : Fin 3) ∈ (rows3Dims N E B C wf).sKept := (show (1 : Fin 3) ∈ ([1, 2] : List (Fin 3)) by decide)
  rw [dif_pos h]
  rfl

/-- On operand axis 2 the window coordinate of update (e, b, d) is d. -/
theorem rows3_window2 (e : Fin E) (b : Fin B) (d : Fin C) : (rows3Dims N E B C wf).window (ix3 e b d) 2 = d.val := by
  unfold ScatterDims.window
  have h : (2 : Fin 3) ∈ (rows3Dims N E B C wf).sKept := (show (2 : Fin 3) ∈ ([1, 2] : List (Fin 3)) by decide)
  rw [dif_pos h]
  rfl

/-- Update (e, b', d') lands on operand element (n, b, d) exactly when its row number idx[e, 0], read
    signed, is n and its two window coordinates are (b, d). -/
theorem rows3_resultIdx?_iff (idx : IVec ⟨2, ![E, 1]⟩ w) (e : Fin E) (b' : Fin B) (d' : Fin C) (n : Fin N)
    (b : Fin B) (d : Fin C) :
    (rows3Dims N E B C wf).resultIdx? (ix3 e b' d') idx = some (ix3 n b d) ↔
      (idx (ix2 e (0 : Fin 1))).toInt = (n.val : ℤ) ∧ b' = b ∧ d' = d := by
  rw [resultIdx?_eq_some_iff, forall_fin3, rows3_start0, rows3_window0, rows3_start1, rows3_window1,
    rows3_start2, rows3_window2]
  show ((idx (ix2 e (0 : Fin 1))).toInt + ((0 : ℕ) : ℤ) = (n.val : ℤ) ∧ (0 : ℤ) + ((b'.val : ℕ) : ℤ) = (b.val : ℤ) ∧
    (0 : ℤ) + ((d'.val : ℕ) : ℤ) = (d.val : ℤ)) ↔ _
  rw [Fin.ext_iff, Fin.ext_iff]
  omega

/-- THE ROW SCATTER-ADD READ AT (n, b, d): the operand's element plus the sum of the updates' elements
    (e, b, d) over the update rows e whose row number idx[e, 0], read signed, is n. A row number
    outside [0, N) equals no n, so that update row is dropped. -/
theorem scatterAdd_rows3_apply (x : (⟨3, ![N, B, C]⟩ : Shape).Idx → EReal) (idx : IVec ⟨2, ![E, 1]⟩ w)
    (u : (⟨3, ![E, B, C]⟩ : Shape).Idx → EReal) (n : Fin N) (b : Fin B) (d : Fin C) :
    Host.scatterAdd (F := Ideal) (φ := .f32) (rows3Dims N E B C wf) x idx u (ix3 n b d) =
      x (ix3 n b d) + ∑ e : Fin E, if (idx (ix2 e (0 : Fin 1))).toInt = (n.val : ℤ) then u (ix3 e b d) else 0 := by
  show Ideal.hostScatterAdd (rows3Dims N E B C wf) x idx u (ix3 n b d) = _
  unfold Ideal.hostScatterAdd
  congr 1
  rw [Finset.sum_filter, sum_idx3]
  refine Finset.sum_congr rfl fun e _ => ?_
  simp only [rows3_resultIdx?_iff]
  by_cases ht : (idx (ix2 e (0 : Fin 1))).toInt = (n.val : ℤ)
  · simp only [ht, true_and, if_true]
    have hin : ∀ b' : Fin B, (∑ d' : Fin C, if b' = b ∧ d' = d then u (ix3 e b' d') else 0) =
        if b' = b then u (ix3 e b' d) else 0 := by
      intro b'
      by_cases hb : b' = b
      · simp only [hb, true_and, if_true]
        exact (Finset.sum_ite_eq' Finset.univ d _).trans (if_pos (Finset.mem_univ d))
      · simp only [hb, false_and, if_false, Finset.sum_const_zero]
    simp only [hin]
    exact (Finset.sum_ite_eq' Finset.univ b _).trans (if_pos (Finset.mem_univ b))
  · simp only [ht, false_and, if_false, Finset.sum_const_zero]

/-- The same reading for ANY record of dimension numbers whose four lists are those of a row scatter
    (each hypothesis is closed by reflexivity on a record written out field by field). -/
theorem scatterAdd_rows3_apply_of_dims (D : ScatterDims ⟨3, ![N, B, C]⟩ ⟨2, ![E, 1]⟩ ⟨3, ![E, B, C]⟩)
    (h1 : D.updateWindowDims = [1, 2]) (h2 : D.insertedWindowDims = [0]) (h3 : D.scatterDimsToOperandDims = [0])
    (h4 : D.indexVectorDim = 1) (x : (⟨3, ![N, B, C]⟩ : Shape).Idx → EReal) (idx : IVec ⟨2, ![E, 1]⟩ w)
    (u : (⟨3, ![E, B, C]⟩ : Shape).Idx → EReal) (n : Fin N) (b : Fin B) (d : Fin C) :
    Host.scatterAdd (F := Ideal) (φ := .f32) D x idx u (ix3 n b d) =
      x (ix3 n b d) + ∑ e : Fin E, if (idx (ix2 e (0 : Fin 1))).toInt = (n.val : ℤ) then u (ix3 e b d) else 0 := by
  obtain ⟨uw, iw, sd, iv, wf'⟩ := D
  simp only at h1 h2 h3 h4
  subst h1 h2 h3 h4
  exact scatterAdd_rows3_apply wf' x idx u n b d

end Rows3

end ScatterRows

end
-- ==== Proof.Layout.lean ====
/-
  Two layouts of one pair of arrays, carried through the operations both programs apply.

  One program keeps two 64-lane arrays side by side in one 128-lane array, and two per-row scalars side by side in a
  2-column array; the other keeps them apart.  Every operation used on such arrays acts row by row and, within a row,
  lane by lane: a gather of rows reads whole rows, a scatter-add of rows adds whole rows, and a pointwise product
  multiplies lane by lane.  So each of them takes a side-by-side pair to the side-by-side pair of the results.  All
  statements are on the extended reals, for arbitrary row counts; no entry is assumed finite.
-/
import Idealize.ShloMosaic.PureOps.Ideal
import Idealize.ShloMosaic.Lib.ValueIdx
import proofs.«119679_j17197049053669_2_alg».proof.Proof.Spec
import proofs.«119679_j17197049053669_2_alg».proof.Proof.LibSegments
import proofs.«119679_j17197049053669_2_alg».proof.Proof.LibScatterRows

noncomputable section

open scoped BigOperators
open Idealize.ShloMosaic Idealize.ShloMosaic.ValueIdx

namespace Cert.Hyper.Layout

open Cert.Hyper

/-! ## Gather of rows -/

/-- A gather of rows reads, for result row e, one whole operand row: the row number idx[e, 0] read signed and clamped
    into [0, N - 1].  That row does not depend on the row length, so the three gathers read the same row of their
    operands, and the side-by-side relation of the operands' rows is the side-by-side relation of the results' rows. -/
theorem fused_gather {N E w : Nat} (hN : 0 < N)
    (D128 : GatherDims ⟨2, ![N, 128]⟩ ⟨2, ![E, 1]⟩ ⟨2, ![E, 128]⟩)
    (D64 : GatherDims ⟨2, ![N, 64]⟩ ⟨2, ![E, 1]⟩ ⟨2, ![E, 64]⟩)
    (a1 : D128.offsetDims = [1]) (a2 : D128.collapsedSliceDims = [0]) (a3 : D128.operandBatchingDims = [])
    (a4 : D128.startIndicesBatchingDims = []) (a5 : D128.startIndexMap = [0]) (a6 : D128.indexVectorDim = 1)
    (a7 : D128.sliceSizes = ![1, 128])
    (b1 : D64.offsetDims = [1]) (b2 : D64.collapsedSliceDims = [0]) (b3 : D64.operandBatchingDims = [])
    (b4 : D64.startIndicesBatchingDims = []) (b5 : D64.startIndexMap = [0]) (b6 : D64.indexVectorDim = 1)
    (b7 : D64.sliceSizes = ![1, 64])
    {A : (⟨2, ![N, 128]⟩ : Shape).Idx → EReal} {A0 A1 : (⟨2, ![N, 64]⟩ : Shape).Idx → EReal}
    (h : Fused A A0 A1) (idx : IVec ⟨2, ![E, 1]⟩ w) :
    Fused (Host.gather D128 A idx) (Host.gather D64 A0 idx) (Host.gather D64 A1 idx) := by
  intro e j
  rw [Segments.gather_rows_apply_of_dims hN D128 a1 a2 a3 a4 a5 a6 a7 A idx e (lo j),
    Segments.gather_rows_apply_of_dims hN D128 a1 a2 a3 a4 a5 a6 a7 A idx e (hi j),
    Segments.gather_rows_apply_of_dims hN D64 b1 b2 b3 b4 b5 b6 b7 A0 idx e j,
    Segments.gather_rows_apply_of_dims hN D64 b1 b2 b3 b4 b5 b6 b7 A1 idx e j]
  exact h _ j

/-! ## Scatter-add of rows -/

/-- A scatter-add of rows, read at (n, o), is the operand's entry plus the sum of the updates' entries (e, o) over the
    update rows e sent to row n.  Which rows are sent to n depends on the row numbers only, so in lane lo j (resp. hi j)
    of the wide result every summand is the summand in lane j of the first (resp. second) narrow result. -/
theorem fused_scatterAdd {N E w : Nat}
    (S128 : ScatterDims ⟨2, ![N, 128]⟩ ⟨2, ![E, 1]⟩ ⟨2, ![E, 128]⟩)
    (S64 : ScatterDims ⟨2, ![N, 64]⟩ ⟨2, ![E, 1]⟩ ⟨2, ![E, 64]⟩)
    (a1 : S128.updateWindowDims = [1]) (a2 : S128.insertedWindowDims = [0])
    (a3 : S128.scatterDimsToOperandDims = [0]) (a4 : S128.indexVectorDim = 1)
    (b1 : S64.updateWindowDims = [1]) (b2 : S64.insertedWindowDims = [0])
    (b3 : S64.scatterDimsToOperandDims = [0]) (b4 : S64.indexVectorDim = 1)
    {X : (⟨2, ![N, 128]⟩ : Shape).Idx → EReal} {X0 X1 : (⟨2, ![N, 64]⟩ : Shape).Idx → EReal}
    {U : (⟨2, ![E, 128]⟩ : Shape).Idx → EReal} {U0 U1 : (⟨2, ![E, 64]⟩ : Shape).Idx → EReal}
    (hX : Fused X X0 X1) (hU : Fused U U0 U1) (idx : IVec ⟨2, ![E, 1]⟩ w) :
    Fused (Host.scatterAdd (F := Ideal) (φ := .f32) S128 X idx U)
      (Host.scatterAdd (F := Ideal) (φ := .f32) S64 X0 idx U0)
      (Host.scatterAdd (F := Ideal) (φ := .f32) S64 X1 idx U1) := by
  intro n j
  rw [ScatterRows.scatterAdd_rows2_apply_of_dims S128 a1 a2 a3 a4 X idx U n (lo j),
    ScatterRows.scatterAdd_rows2_apply_of_dims S128 a1 a2 a3 a4 X idx U n (hi j),
    ScatterRows.scatterAdd_rows2_apply_of_dims S64 b1 b2 b3 b4 X0 idx U0 n j,
    ScatterRows.scatterAdd_rows2_apply_of_dims S64 b1 b2 b3 b4 X1 idx U1 n j,
    (hX n j).1, (hX n j).2]
  constructor
  · congr 1
    refine Finset.sum_congr rfl fun e _ => ?_
    rw [(hU e j).1]
  · congr 1
    refine Finset.sum_congr rfl fun e _ => ?_
    rw [(hU e j).2]

/-- The same for the per-row scalars: column 0 (resp. 1) of the 2-column scatter-add of rows is the scatter-add of
    scalars of the first (resp. second) vector, the update rows sent to a position being the same in all three. -/
theorem paired_scatterAdd {N E w : Nat}
    (S2 : ScatterDims ⟨2, ![N, 2]⟩ ⟨2, ![E, 1]⟩ ⟨2, ![E, 2]⟩)
    (S1 : ScatterDims ⟨1, ![N]⟩ ⟨2, ![E, 1]⟩ ⟨1, ![E]⟩)
    (a1 : S2.updateWindowDims = [1]) (a2 : S2.insertedWindowDims = [0])
    (a3 : S2.scatterDimsToOperandDims = [0]) (a4 : S2.indexVectorDim = 1)
    (b1 : S1.updateWindowDims = []) (b2 : S1.insertedWindowDims = [0])
    (b3 : S1.scatterDimsToOperandDims = [0]) (b4 : S1.indexVectorDim = 1)
    {X : (⟨2, ![N, 2]⟩ : Shape).Idx → EReal} {x0 x1 : (⟨1, ![N]⟩ : Shape).Idx → EReal}
    {T : (⟨2, ![E, 2]⟩ : Shape).Idx → EReal} {t0 t1 : (⟨1, ![E]⟩ : Shape).Idx → EReal}
    (hX : Paired X x0 x1) (hT : Paired T t0 t1) (idx : IVec ⟨2, ![E, 1]⟩ w) :
    Paired (Host.scatterAdd (F := Ideal) (φ := .f32) S2 X idx T)
      (Host.scatterAdd (F := Ideal) (φ := .f32) S1 x0 idx t0)
      (Host.scatterAdd (F := Ideal) (φ := .f32) S1 x1 idx t1) := by
  intro n
  rw [ScatterRows.scatterAdd_rows2_apply_of_dims S2 a1 a2 a3 a4 X idx T n (0 : Fin 2),
    ScatterRows.scatterAdd_rows2_apply_of_dims S2 a1 a2 a3 a4 X idx T n (1 : Fin 2),
    Segments.scatterAdd_rows1_apply_of_dims S1 b1 b2 b3 b4 x0 idx t0 n,
    Segments.scatterAdd_rows1_apply_of_dims S1 b1 b2 b3 b4 x1 idx t1 n,
    (hX n).1, (hX n).2]
  constructor
  · congr 1
    refine Finset.sum_congr rfl fun e _ => ?_
    rw [(hT e).1]
  · congr 1
    refine Finset.sum_congr rfl fun e _ => ?_
    rw [(hT e).2]

/-! ## Pointwise product -/

/-- A pointwise product multiplies lane by lane: in lane lo j the wide product is A0's entry times d0's row value, which
    is the first narrow product's entry in lane j; likewise in lane hi j with A1 and d1. -/
theorem fused_mulf {n : Nat} {φ : FTy}
    {A M : (⟨2, ![n, 128]⟩ : Shape).Idx → EReal} {A0 A1 B0 B1 : (⟨2, ![n, 64]⟩ : Shape).Idx → EReal}
    {d0 d1 : (⟨1, ![n]⟩ : Shape).Idx → EReal}
    (hA : Fused A A0 A1) (hM : Lanes M d0 d1) (hB0 : Cols B0 d0) (hB1 : Cols B1 d1) :
    Fused (mulf (F := Ideal) (φ := φ) A M) (mulf (F := Ideal) (φ := φ) A0 B0) (mulf (F := Ideal) (φ := φ) A1 B1) := by
  intro p j
  rw [mulf_apply, mulf_apply, mulf_apply, mulf_apply, (hA p j).1, (hA p j).2, (hM p j).1, (hM p j).2,
    hB0 p j, hB1 p j]
  exact ⟨rfl, rfl⟩

/-- An array whose first 64 lanes repeat column 0 of a 2-column array and whose last 64 lanes repeat its column 1
    repeats, along those lanes, the two vectors that are the 2-column array's columns. -/
theorem lanes_of_paired {n : Nat}
    {M : (⟨2, ![n, 128]⟩ : Shape).Idx → EReal} {D : (⟨2, ![n, 2]⟩ : Shape).Idx → EReal}
    {d0 d1 : (⟨1, ![n]⟩ : Shape).Idx → EReal}
    (hlo : ∀ (p : Fin n) (j : Fin 64), M (ix2 p (lo j)) = D (ix2 p (0 : Fin 2)))
    (hhi : ∀ (p : Fin n) (j : Fin 64), M (ix2 p (hi j)) = D (ix2 p (1 : Fin 2)))
    (hD : Paired D d0 d1) : Lanes M d0 d1 := by
  intro p j
  rw [hlo p j, hhi p j]
  exact hD p

/-! ## Constants -/

/-- Three arrays all of whose entries are one value z are side by side: every entry compared is z. -/
theorem fused_const {n : Nat} {z : EReal}
    {X : (⟨2, ![n, 128]⟩ : Shape).Idx → EReal} {X0 X1 : (⟨2, ![n, 64]⟩ : Shape).Idx → EReal}
    (hX : ∀ i, X i = z) (hX0 : ∀ i, X0 i = z) (hX1 : ∀ i, X1 i = z) : Fused X X0 X1 := by
  intro p j
  rw [hX, hX, hX0, hX1]
  exact ⟨rfl, rfl⟩

/-- The same for a 2-column array and two vectors. -/
theorem paired_const {n : Nat} {z : EReal}
    {X : (⟨2, ![n, 2]⟩ : Shape).Idx → EReal} {x0 x1 : (⟨1, ![n]⟩ : Shape).Idx → EReal}
    (hX : ∀ i, X i = z) (hx0 : ∀ i, x0 i = z) (hx1 : ∀ i, x1 i = z) : Paired X x0 x1 := by
  intro p
  rw [hX, hX, hx0, hx1]
  exact ⟨rfl, rfl⟩

/-! ## An entrywise function of the per-row scalars -/

/-- Applying one function to every entry keeps the columns of the 2-column array equal to the two vectors. -/
theorem paired_map {n : Nat} (f : EReal → EReal)
    {D : (⟨2, ![n, 2]⟩ : Shape).Idx → EReal} {d0 d1 : (⟨1, ![n]⟩ : Shape).Idx → EReal}
    (hD : Paired D d0 d1) : Paired (fun i => f (D i)) (fun i => f (d0 i)) (fun i => f (d1 i)) := by
  intro p
  exact ⟨congrArg f (hD p).1, congrArg f (hD p).2⟩

end Cert.Hyper.Layout

end
-- ==== Proof.ConvPure.lean ====
/-
  The convolution core of the two programs as functions of the same arrays.

  The reference program runs the hypergraph convolution once per edge type, on 64-lane arrays: a mask vector of the edges
  of that type, the masked rows of the projected features gathered at the edges' nodes and added up per hyperedge, the
  hyperedge degree and its guarded reciprocal, the scaled hyperedge rows gathered back at the edges and added up per node,
  and the node degree with its guarded reciprocal.  The fused program does both edge types in one pass: the two mask vectors
  are the two columns of one one-hot array, every 64-lane array is one half of a 128-lane array, and the two degree vectors
  are the two columns of a 2-column array.

  This module writes the fused program's arrays as functions of the projected features and of the three index arrays, and
  shows stage by stage that each of them holds the reference's two arrays side by side.  Every operation involved acts on
  whole rows (gather, scatter-add) or entry by entry (products, comparisons, quotients, selections), so side-by-side arrays
  go to side-by-side arrays; both programs apply the same entrywise functions, spell the same index arrays, and add in the
  same order, so nothing is commuted or distributed and no entry is assumed finite.
-/
import proofs.«119679_j17197049053669_2_alg».proof.Proof.Gen.KernelIdeal
import proofs.«119679_j17197049053669_2_alg».proof.Proof.RefReadP
import proofs.«119679_j17197049053669_2_alg».proof.Proof.Layout
import proofs.«119679_j17197049053669_2_alg».proof.Proof.Spec
import Idealize.ShloMosaic.Lib.Pipeline.Value
import Idealize.ShloMosaic.Lib.ValueLayout
import Idealize.ShloMosaic.Lib.ValueIdx
import Idealize.ShloMosaic.Lib.IdealHost

noncomputable section

open scoped BigOperators

namespace Cert.Hyper.Conv

open Cert.KernelIdeal Cert.KernelIdeal.Gen
open Cert.ReferenceIdeal.Read
open Idealize.ShloMosaic Idealize.ShloMosaic.ValueIdx
open Cert.Hyper Cert.Hyper.Layout

/-! ## Two columns side by side along 128 lanes -/

/-- A 2-column array's column 0 repeated along 64 lanes, joined with its column 1 repeated along 64 lanes: on the first 64
    lanes the joined array reads column 0. -/
theorem spread_lo {n : Nat} (D : (⟨2, ![n, 2]⟩ : Shape).Idx → EReal)
    (hs0 : (⟨2, ![n, 2]⟩ : Shape).Slices ![0, 0] ⟨2, ![n, 1]⟩) (hs1 : (⟨2, ![n, 2]⟩ : Shape).Slices ![0, 1] ⟨2, ![n, 1]⟩)
    (hb : (⟨2, ![n, 1]⟩ : Shape).BroadcastsInDim ⟨2, ![n, 64]⟩ ![0, 1])
    (hc : Shape.Concatenates [(⟨2, ![n, 64]⟩ : Shape), ⟨2, ![n, 64]⟩] ⟨2, ![n, 128]⟩ 1) (p : Fin n) (j : Fin 64) :
    concatenate ⟨2, ![n, 128]⟩ 1
      [⟨⟨2, ![n, 64]⟩, broadcastInDim ⟨2, ![n, 64]⟩ ![0, 1] hb (extractStridedSlice ⟨2, ![n, 1]⟩ ![0, 0] D hs0)⟩,
       ⟨⟨2, ![n, 64]⟩, broadcastInDim ⟨2, ![n, 64]⟩ ![0, 1] hb (extractStridedSlice ⟨2, ![n, 1]⟩ ![0, 1] D hs1)⟩] hc
      (ix2 p (lo j)) = D (ix2 p (0 : Fin 2)) := by
  refine Eq.trans (concatenate_pair_apply_left (t := ⟨2, ![n, 128]⟩) (s₁ := ⟨2, ![n, 64]⟩) (s₂ := ⟨2, ![n, 64]⟩) (1 : Fin 2) _ _ hc
    (ix2 p (lo j)) rfl (ix2 p j) (fun b => match b with | ⟨0, _⟩ => rfl | ⟨1, _⟩ => rfl)) ?_
  refine Eq.trans (broadcastInDim_apply _ hb _ (ix2 p j) (ix2 p (0 : Fin 1)) (fun a => match a with
    | ⟨0, _⟩ => by
      show p.val = if n = 1 then 0 else p.val
      have := p.isLt
      split <;> omega
    | ⟨1, _⟩ => by show 0 = if (1 : Nat) = 1 then 0 else j.val; rw [if_pos rfl])) ?_
  exact slice2_axis1_apply 0 D hs0 p (0 : Fin 1) (0 : Fin 2) rfl

/-- ... and on the last 64 lanes it reads column 1. -/
theorem spread_hi {n : Nat} (D : (⟨2, ![n, 2]⟩ : Shape).Idx → EReal)
    (hs0 : (⟨2, ![n, 2]⟩ : Shape).Slices ![0, 0] ⟨2, ![n, 1]⟩) (hs1 : (⟨2, ![n, 2]⟩ : Shape).Slices ![0, 1] ⟨2, ![n, 1]⟩)
    (hb : (⟨2, ![n, 1]⟩ : Shape).BroadcastsInDim ⟨2, ![n, 64]⟩ ![0, 1])
    (hc : Shape.Concatenates [(⟨2, ![n, 64]⟩ : Shape), ⟨2, ![n, 64]⟩] ⟨2, ![n, 128]⟩ 1) (p : Fin n) (j : Fin 64) :
    concatenate ⟨2, ![n, 128]⟩ 1
      [⟨⟨2, ![n, 64]⟩, broadcastInDim ⟨2, ![n, 64]⟩ ![0, 1] hb (extractStridedSlice ⟨2, ![n, 1]⟩ ![0, 0] D hs0)⟩,
       ⟨⟨2, ![n, 64]⟩, broadcastInDim ⟨2, ![n, 64]⟩ ![0, 1] hb (extractStridedSlice ⟨2, ![n, 1]⟩ ![0, 1] D hs1)⟩] hc
      (ix2 p (hi j)) = D (ix2 p (1 : Fin 2)) := by
  refine Eq.trans (concatenate_pair_apply_right (t := ⟨2, ![n, 128]⟩) (s₁ := ⟨2, ![n, 64]⟩) (s₂ := ⟨2, ![n, 64]⟩) (1 : Fin 2) _ _ hc
    (ix2 p (hi j)) rfl rfl (ix2 p j)
    (fun b => match b with | ⟨0, _⟩ => fun _ => rfl | ⟨1, _⟩ => fun h => absurd rfl h)
    (by show j.val + 64 = 64 + j.val; omega)) ?_
  refine Eq.trans (broadcastInDim_apply _ hb _ (ix2 p j) (ix2 p (0 : Fin 1)) (fun a => match a with
    | ⟨0, _⟩ => by
      show p.val = if n = 1 then 0 else p.val
      have := p.isLt
      split <;> omega
    | ⟨1, _⟩ => by show 0 = if (1 : Nat) = 1 then 0 else j.val; rw [if_pos rfl])) ?_
  exact slice2_axis1_apply 1 D hs1 p (0 : Fin 1) (1 : Fin 2) rfl

/-- The reciprocal of a degree, zero where the degree is not positive: the entrywise function both programs apply. -/
def guardInv (d : EReal) : EReal :=
  Scalar.select (FloatOps.cmpf (F := Ideal) (φ := .f32) .ogt d (Ideal.ofBits .f32 0x00000000#32))
    (Ideal.div (Ideal.ofBits .f32 0x3F800000#32) d) (Ideal.ofBits .f32 0x00000000#32)

/-! ## The fused program's arrays -/

section Fused

variable (xw : (⟨S100000x128, .f32⟩ : BufTy).Contents (Elt Ideal))
  (a2 a3 a4 : (⟨S2000000, .i32⟩ : BufTy).Contents (Elt Ideal))

/-- The one-hot array of the edge types: entry (e, t) is 1 if edge e has type t and 0 otherwise. -/
def kT : (⟨S2000000x2, .f32⟩ : BufTy).Contents (Elt Ideal) :=
  uitofp (F := Ideal) .f32 (cmpi .eq
    (broadcastInDim S2000000x2 ![0, 1] bcast_S2000000x1_S2000000x2_0_1
      (broadcastInDim S2000000x1 ![0] bcast_S2000000_S2000000x1_0 a4))
    (broadcastInDim S2000000x2 ![0, 1] bcast_S1x2_S2000000x2_0_1 (iotaInDim S1x2 32 1)))

/-- The lane mask: column t of the one-hot array repeated over lanes 64 t .. 64 t + 63. -/
def kMask : (⟨S2000000x128, .f32⟩ : BufTy).Contents (Elt Ideal) :=
  concatenate S2000000x128 1
    [⟨S2000000x64, broadcastInDim S2000000x64 ![0, 1] bcast_S2000000x1_S2000000x64_0_1
        (extractStridedSlice S2000000x1 ![0, 0] (kT a4) slices_S2000000x2_S2000000x1_0_0)⟩,
     ⟨S2000000x64, broadcastInDim S2000000x64 ![0, 1] bcast_S2000000x1_S2000000x64_0_1
        (extractStridedSlice S2000000x1 ![0, 1] (kT a4) slices_S2000000x2_S2000000x1_0_1)⟩]
    concatenates_S2000000x64_S2000000x64_S2000000x128_d1

/-- An index vector as a one-column index array. -/
def kCol (a : (⟨S2000000, .i32⟩ : BufTy).Contents (Elt Ideal)) : (⟨S2000000x1, .i32⟩ : BufTy).Contents (Elt Ideal) :=
  broadcastInDim S2000000x1 ![0] bcast_S2000000_S2000000x1_0 a

/-- The node numbers with the negative ones moved up by the number of nodes, as a one-column index array. -/
def kWrapN : (⟨S2000000x1, .i32⟩ : BufTy).Contents (Elt Ideal) :=
  broadcastInDim S2000000x1 ![0] bcast_S2000000_S2000000x1_0
    (select (cmpi .slt a2 (broadcastInDim S2000000 ![] bcast_S_S2000000 (constantI S_ 32 0#32)))
      (addi a2 (broadcastInDim S2000000 ![] bcast_S_S2000000 (constantI S_ 32 100000#32))) a2)

/-- The same for the hyperedge numbers and the number of hyperedges. -/
def kWrapH : (⟨S2000000x1, .i32⟩ : BufTy).Contents (Elt Ideal) :=
  broadcastInDim S2000000x1 ![0] bcast_S2000000_S2000000x1_0
    (select (cmpi .slt a3 (broadcastInDim S2000000 ![] bcast_S_S2000000 (constantI S_ 32 0#32)))
      (addi a3 (broadcastInDim S2000000 ![] bcast_S_S2000000 (constantI S_ 32 200000#32))) a3)

/-- The masked rows of the projected features at the edges' nodes. -/
def kG1 : (⟨S2000000x128, .f32⟩ : BufTy).Contents (Elt Ideal) :=
  mulf (F := Ideal) (φ := .f32) (Host.gather gather_S100000x128_S2000000x1_S2000000x128_1_0_n_n_0_1_1128 xw (kWrapN a2)) (kMask a4)

/-- Their sums per hyperedge. -/
def kE : (⟨S200000x128, .f32⟩ : BufTy).Contents (Elt Ideal) :=
  Host.scatterAdd (F := Ideal) scatter_S200000x128_S2000000x1_S2000000x128_1_0_0_1
    (broadcastInDim S200000x128 ![] bcast_S_S200000x128 (constant (F := Ideal) S_ .f32 0x00000000#32)) (kCol a3) (kG1 xw a2 a4)

/-- The hyperedge degrees, per edge type. -/
def kB : (⟨S200000x2, .f32⟩ : BufTy).Contents (Elt Ideal) :=
  Host.scatterAdd (F := Ideal) scatter_S200000x2_S2000000x1_S2000000x2_1_0_0_1
    (broadcastInDim S200000x2 ![] bcast_S_S200000x2 (constant (F := Ideal) S_ .f32 0x00000000#32)) (kCol a3) (kT a4)

/-- Their guarded reciprocals. -/
def kBinv : (⟨S200000x2, .f32⟩ : BufTy).Contents (Elt Ideal) :=
  select (cmpf (F := Ideal) .ogt (kB a3 a4) (broadcastInDim S200000x2 ![] bcast_S_S200000x2 (constant (F := Ideal) S_ .f32 0x00000000#32)))
    (Host.divf (F := Ideal) (broadcastInDim S200000x2 ![] bcast_S_S200000x2 (constant (F := Ideal) S_ .f32 0x3F800000#32)) (kB a3 a4))
    (broadcastInDim S200000x2 ![] bcast_S_S200000x2 (id (constant (F := Ideal) S_ .f32 0x00000000#32)))

/-- The reciprocals repeated over the lanes of their edge type. -/
def kBinvFull : (⟨S200000x128, .f32⟩ : BufTy).Contents (Elt Ideal) :=
  concatenate S200000x128 1
    [⟨S200000x64, broadcastInDim S200000x64 ![0, 1] bcast_S200000x1_S200000x64_0_1
        (extractStridedSlice S200000x1 ![0, 0] (kBinv a3 a4) slices_S200000x2_S200000x1_0_0)⟩,
     ⟨S200000x64, broadcastInDim S200000x64 ![0, 1] bcast_S200000x1_S200000x64_0_1
        (extractStridedSlice S200000x1 ![0, 1] (kBinv a3 a4) slices_S200000x2_S200000x1_0_1)⟩]
    concatenates_S200000x64_S200000x64_S200000x128_d1

/-- The scaled hyperedge rows. -/
def kE2 : (⟨S200000x128, .f32⟩ : BufTy).Contents (Elt Ideal) :=
  mulf (F := Ideal) (φ := .f32) (kE xw a2 a3 a4) (kBinvFull a3 a4)

/-- The masked hyperedge rows at the edges' hyperedges. -/
def kG2 : (⟨S2000000x128, .f32⟩ : BufTy).Contents (Elt Ideal) :=
  mulf (F := Ideal) (φ := .f32) (Host.gather gather_S200000x128_S2000000x1_S2000000x128_1_0_n_n_0_1_1128 (kE2 xw a2 a3 a4) (kWrapH a3)) (kMask a4)

/-- Their sums per node: the convolution before the node-degree scaling. -/
def kRaw : (⟨S100000x128, .f32⟩ : BufTy).Contents (Elt Ideal) :=
  Host.scatterAdd (F := Ideal) scatter_S100000x128_S2000000x1_S2000000x128_1_0_0_1
    (broadcastInDim S100000x128 ![] bcast_S_S100000x128 (constant (F := Ideal) S_ .f32 0x00000000#32)) (kCol a2) (kG2 xw a2 a3 a4)

/-- The node degrees, per edge type. -/
def kD : (⟨S100000x2, .f32⟩ : BufTy).Contents (Elt Ideal) :=
  Host.scatterAdd (F := Ideal) scatter_S100000x2_S2000000x1_S2000000x2_1_0_0_1
    (broadcastInDim S100000x2 ![] bcast_S_S100000x2 (constant (F := Ideal) S_ .f32 0x00000000#32)) (kCol a2) (kT a4)

/-- Their guarded reciprocals. -/
def kDinv : (⟨S100000x2, .f32⟩ : BufTy).Contents (Elt Ideal) :=
  select (cmpf (F := Ideal) .ogt (kD a2 a4) (broadcastInDim S100000x2 ![] bcast_S_S100000x2 (constant (F := Ideal) S_ .f32 0x00000000#32)))
    (Host.divf (F := Ideal) (broadcastInDim S100000x2 ![] bcast_S_S100000x2 (constant (F := Ideal) S_ .f32 0x3F800000#32)) (kD a2 a4))
    (broadcastInDim S100000x2 ![] bcast_S_S100000x2 (id (constant (F := Ideal) S_ .f32 0x00000000#32)))

/-! ## The one-hot array and the two mask vectors -/

/-- The one-hot array at an entry: the comparison of the edge's type with the column number. -/
theorem kT_apply (e : Fin 2000000) (t : Fin 2) :
    kT a4 (ix2 e t) = FloatOps.uitofp (F := Ideal) .f32 (IntOp.cmpi .eq (a4 (ix1 e)) (BitVec.ofNat 32 t.val)) := by
  show FloatOps.uitofp (F := Ideal) .f32 (IntOp.cmpi .eq _ _) = _
  rw [broadcastInDim_apply _ bcast_S2000000x1_S2000000x2_0_1 _ (ix2 e t) (ix2 e (0 : Fin 1)) (fun a => match a with
      | ⟨0, _⟩ => by show e.val = if (2000000 : Nat) = 1 then 0 else e.val; rw [if_neg (by decide)]
      | ⟨1, _⟩ => by show 0 = if (1 : Nat) = 1 then 0 else t.val; rw [if_pos rfl]),
    broadcastInDim_apply _ bcast_S2000000_S2000000x1_0 a4 (ix2 e (0 : Fin 1)) (ix1 e) (fun a => match a with
      | ⟨0, _⟩ => by show e.val = if (2000000 : Nat) = 1 then 0 else e.val; rw [if_neg (by decide)]),
    broadcastInDim_apply _ bcast_S1x2_S2000000x2_0_1 (iotaInDim S1x2 32 1) (ix2 e t) (ix2 (0 : Fin 1) t) (fun a => match a with
      | ⟨0, _⟩ => by show 0 = if (1 : Nat) = 1 then 0 else e.val; rw [if_pos rfl]
      | ⟨1, _⟩ => by show t.val = if (2 : Nat) = 1 then 0 else t.val; rw [if_neg (by decide)])]
  rfl

/-- The reference's mask vector of edge type 0 at an entry. -/
theorem mask0_apply (e : Fin 2000000) :
    val_main_v2 (F := Ideal) a4 (ix1 e) = FloatOps.uitofp (F := Ideal) .f32 (IntOp.cmpi .eq (a4 (ix1 e)) 0#32) := by
  rw [val_main_v2_apply, val_main_v1_apply, val_main_v0_apply, val_main_c_apply]

/-- The reference's mask vector of edge type 1 at an entry. -/
theorem mask1_apply (e : Fin 2000000) :
    val_main_v61 (F := Ideal) a4 (ix1 e) = FloatOps.uitofp (F := Ideal) .f32 (IntOp.cmpi .eq (a4 (ix1 e)) 1#32) := by
  rw [val_main_v61_apply, val_main_v60_apply, val_main_v59_apply, val_main_c_13_apply]

/-- The one-hot array's two columns are the two mask vectors. -/
theorem onehot_paired : Paired (kT a4) (val_main_v2 (F := Ideal) a4) (val_main_v61 (F := Ideal) a4) := by
  intro e
  rw [kT_apply, kT_apply, mask0_apply, mask1_apply]
  exact ⟨rfl, rfl⟩

/-- The lane mask repeats the two mask vectors along the two halves of the lanes. -/
theorem mask_lanes : Lanes (kMask a4) (val_main_v2 (F := Ideal) a4) (val_main_v61 (F := Ideal) a4) :=
  lanes_of_paired (fun p j => spread_lo (kT a4) _ _ _ _ p j) (fun p j => spread_hi (kT a4) _ _ _ _ p j) (onehot_paired a4)

/-! ## The reference's vectors repeated along 64 lanes, and its zero arrays -/

theorem cols_v32 : Cols (val_main_v32 (F := Ideal) a4) (val_main_v2 (F := Ideal) a4) := by
  intro p j
  rw [val_main_v32_apply, val_main_v31_apply]
  exact congrArg _ (eq_ix1 _)

theorem cols_v48 : Cols (val_main_v48 (F := Ideal) a4) (val_main_v2 (F := Ideal) a4) := by
  intro p j
  rw [val_main_v48_apply, val_main_v47_apply]
  exact congrArg _ (eq_ix1 _)

theorem cols_v91 : Cols (val_main_v91 (F := Ideal) a4) (val_main_v61 (F := Ideal) a4) := by
  intro p j
  rw [val_main_v91_apply, val_main_v90_apply]
  exact congrArg _ (eq_ix1 _)

theorem cols_v107 : Cols (val_main_v107 (F := Ideal) a4) (val_main_v61 (F := Ideal) a4) := by
  intro p j
  rw [val_main_v107_apply, val_main_v106_apply]
  exact congrArg _ (eq_ix1 _)

theorem cols_v38 : Cols (val_main_v38 (F := Ideal) a3 a4) (val_main_v18 (F := Ideal) a3 a4) := by
  intro p j
  rw [val_main_v38_apply, val_main_v37_apply]
  exact congrArg _ (eq_ix1 _)

theorem cols_v97 : Cols (val_main_v97 (F := Ideal) a3 a4) (val_main_v77 (F := Ideal) a3 a4) := by
  intro p j
  rw [val_main_v97_apply, val_main_v96_apply]
  exact congrArg _ (eq_ix1 _)

theorem cols_v54 : Cols (val_main_v54 (F := Ideal) a2 a4) (val_main_v23 (F := Ideal) a2 a4) := by
  intro p j
  rw [val_main_v54_apply, val_main_v53_apply]
  exact congrArg _ (eq_ix1 _)

theorem cols_v113 : Cols (val_main_v113 (F := Ideal) a2 a4) (val_main_v82 (F := Ideal) a2 a4) := by
  intro p j
  rw [val_main_v113_apply, val_main_v112_apply]
  exact congrArg _ (eq_ix1 _)

/-- A scalar zero repeated over any shape is zero at every entry. -/
theorem zeros_apply {T : Shape} (h : (⟨0, ![]⟩ : Shape).BroadcastsInDim T ![]) (i : T.Idx) :
    broadcastInDim T ![] h (constant (F := Ideal) S_ .f32 0x00000000#32) i = Ideal.ofBits .f32 0x00000000#32 :=
  broadcastInDim_scalar_apply h _ i

/-! ## The first hop: node rows to hyperedge rows -/

section Hops

variable (x0 : (⟨Cert.ReferenceIdeal.S100000x16, .f32⟩ : BufTy).Contents (Elt Ideal))
  (x5 : (⟨Cert.ReferenceIdeal.S2x16x64, .f32⟩ : BufTy).Contents (Elt Ideal))

/-- The masked gathered rows. -/
theorem g1_fused (hxw : Fused xw (val_main_v7 (F := Ideal) x0 x5) (val_main_v66 (F := Ideal) x0 x5)) :
    Fused (kG1 xw a2 a4) (val_main_v33 (F := Ideal) x0 a2 a4 x5) (val_main_v92 (F := Ideal) x0 a2 a4 x5) :=
  fused_mulf (fused_gather (by decide) _ _ rfl rfl rfl rfl rfl rfl rfl rfl rfl rfl rfl rfl rfl rfl hxw (kWrapN a2))
    (mask_lanes a4) (cols_v32 a4) (cols_v91 a4)

/-- Their sums per hyperedge. -/
theorem e_fused (hxw : Fused xw (val_main_v7 (F := Ideal) x0 x5) (val_main_v66 (F := Ideal) x0 x5)) :
    Fused (kE xw a2 a3 a4) (val_main_v36 (F := Ideal) x0 a2 a3 a4 x5) (val_main_v95 (F := Ideal) x0 a2 a3 a4 x5) :=
  fused_scatterAdd _ _ rfl rfl rfl rfl rfl rfl rfl rfl
    (fused_const (z := Ideal.ofBits .f32 0x00000000#32) (fun i => zeros_apply _ i)
      (fun i => by rw [val_main_v34_apply, val_main_cst_9_apply]; rfl)
      (fun i => by rw [val_main_v93_apply, val_main_cst_24_apply]; rfl))
    (g1_fused xw a2 a4 x0 x5 hxw) (kCol a3)

/-! ## The degrees and their guarded reciprocals -/

/-- The hyperedge degrees: the 2-column sum of the one-hot rows holds the two sums of the mask vectors. -/
theorem b_paired : Paired (kB a3 a4) (val_main_v10 (F := Ideal) a3 a4) (val_main_v69 (F := Ideal) a3 a4) :=
  paired_scatterAdd _ _ rfl rfl rfl rfl rfl rfl rfl rfl
    (paired_const (z := Ideal.ofBits .f32 0x00000000#32) (fun i => zeros_apply _ i)
      (fun i => by rw [val_main_v8_apply, val_main_cst_apply]; rfl)
      (fun i => by rw [val_main_v67_apply, val_main_cst_14_apply]; rfl))
    (onehot_paired a4) (kCol a3)

/-- The node degrees. -/
theorem d_paired : Paired (kD a2 a4) (val_main_v13 (F := Ideal) a2 a4) (val_main_v72 (F := Ideal) a2 a4) :=
  paired_scatterAdd _ _ rfl rfl rfl rfl rfl rfl rfl rfl
    (paired_const (z := Ideal.ofBits .f32 0x00000000#32) (fun i => zeros_apply _ i)
      (fun i => by rw [val_main_v11_apply, val_main_cst_0_apply]; rfl)
      (fun i => by rw [val_main_v70_apply, val_main_cst_15_apply]; rfl))
    (onehot_paired a4) (kCol a2)

/-- The fused program's guarded reciprocal of the hyperedge degrees, entry by entry. -/
theorem kBinv_apply (i : S200000x2.Idx) : kBinv a3 a4 i = guardInv (kB a3 a4 i) := by
  unfold kBinv guardInv
  rw [select_apply, cmpf_apply, hostDivf_apply, broadcastInDim_scalar_apply, broadcastInDim_scalar_apply,
    broadcastInDim_scalar_apply]
  rfl

/-- ... and of the node degrees. -/
theorem kDinv_apply (i : S100000x2.Idx) : kDinv a2 a4 i = guardInv (kD a2 a4 i) := by
  unfold kDinv guardInv
  rw [select_apply, cmpf_apply, hostDivf_apply, broadcastInDim_scalar_apply, broadcastInDim_scalar_apply,
    broadcastInDim_scalar_apply]
  rfl

/-- The reference's guarded reciprocals, entry by entry. -/
theorem recip18_apply (i : Cert.ReferenceIdeal.S200000.Idx) :
    val_main_v18 (F := Ideal) a3 a4 i = guardInv (val_main_v10 (F := Ideal) a3 a4 i) := by
  rw [val_main_v18_apply, val_main_v15_apply, val_main_v17_apply, val_main_v14_apply, val_main_cst_1_apply,
    val_main_v16_apply, val_main_cst_2_apply, val_main_call0_v1_apply, val_main_call0_v0_apply, val_main_cst_3_apply]
  rfl

theorem recip77_apply (i : Cert.ReferenceIdeal.S200000.Idx) :
    val_main_v77 (F := Ideal) a3 a4 i = guardInv (val_main_v69 (F := Ideal) a3 a4 i) := by
  rw [val_main_v77_apply, val_main_v74_apply, val_main_v76_apply, val_main_v73_apply, val_main_cst_16_apply,
    val_main_v75_apply, val_main_cst_17_apply, val_main_call2_v1_apply, val_main_call2_v0_apply, val_main_cst_18_apply]
  rfl

theorem recip23_apply (i : Cert.ReferenceIdeal.S100000.Idx) :
    val_main_v23 (F := Ideal) a2 a4 i = guardInv (val_main_v13 (F := Ideal) a2 a4 i) := by
  rw [val_main_v23_apply, val_main_v20_apply, val_main_v22_apply, val_main_v19_apply, val_main_cst_4_apply,
    val_main_v21_apply, val_main_cst_5_apply, val_main_call1_v1_apply, val_main_call1_v0_apply, val_main_cst_6_apply]
  rfl

theorem recip82_apply (i : Cert.ReferenceIdeal.S100000.Idx) :
    val_main_v82 (F := Ideal) a2 a4 i = guardInv (val_main_v72 (F := Ideal) a2 a4 i) := by
  rw [val_main_v82_apply, val_main_v79_apply, val_main_v81_apply, val_main_v78_apply, val_main_cst_19_apply,
    val_main_v80_apply, val_main_cst_20_apply, val_main_call3_v1_apply, val_main_call3_v0_apply, val_main_cst_21_apply]
  rfl

/-- The guarded reciprocals of the hyperedge degrees are side by side. -/
theorem binv_paired : Paired (kBinv a3 a4) (val_main_v18 (F := Ideal) a3 a4) (val_main_v77 (F := Ideal) a3 a4) := by
  intro p
  obtain ⟨h0, h1⟩ := b_paired a3 a4 p
  rw [kBinv_apply, kBinv_apply, recip18_apply, recip77_apply, h0, h1]
  exact ⟨rfl, rfl⟩

/-- The guarded reciprocals of the node degrees are side by side. -/
theorem dinv_paired' : Paired (kDinv a2 a4) (val_main_v23 (F := Ideal) a2 a4) (val_main_v82 (F := Ideal) a2 a4) := by
  intro p
  obtain ⟨h0, h1⟩ := d_paired a2 a4 p
  rw [kDinv_apply, kDinv_apply, recip23_apply, recip82_apply, h0, h1]
  exact ⟨rfl, rfl⟩

/-- The hyperedge reciprocals repeated over the lanes of their edge type. -/
theorem binvfull_lanes : Lanes (kBinvFull a3 a4) (val_main_v18 (F := Ideal) a3 a4) (val_main_v77 (F := Ideal) a3 a4) :=
  lanes_of_paired (fun p j => spread_lo (kBinv a3 a4) _ _ _ _ p j) (fun p j => spread_hi (kBinv a3 a4) _ _ _ _ p j)
    (binv_paired a3 a4)

/-! ## The second hop: hyperedge rows back to node rows -/

/-- The scaled hyperedge rows. -/
theorem e2_fused (hxw : Fused xw (val_main_v7 (F := Ideal) x0 x5) (val_main_v66 (F := Ideal) x0 x5)) :
    Fused (kE2 xw a2 a3 a4) (val_main_v39 (F := Ideal) x0 a2 a3 a4 x5) (val_main_v98 (F := Ideal) x0 a2 a3 a4 x5) :=
  fused_mulf (e_fused xw a2 a3 a4 x0 x5 hxw) (binvfull_lanes a3 a4) (cols_v38 a3 a4) (cols_v97 a3 a4)

/-- The masked rows gathered at the edges' hyperedges. -/
theorem g2_fused (hxw : Fused xw (val_main_v7 (F := Ideal) x0 x5) (val_main_v66 (F := Ideal) x0 x5)) :
    Fused (kG2 xw a2 a3 a4) (val_main_v49 (F := Ideal) x0 a2 a3 a4 x5) (val_main_v108 (F := Ideal) x0 a2 a3 a4 x5) :=
  fused_mulf (fused_gather (by decide) _ _ rfl rfl rfl rfl rfl rfl rfl rfl rfl rfl rfl rfl rfl rfl
      (e2_fused xw a2 a3 a4 x0 x5 hxw) (kWrapH a3))
    (mask_lanes a4) (cols_v48 a4) (cols_v107 a4)

/-- Their sums per node: the two convolutions before the node-degree scaling, side by side. -/
theorem raw_fused' (hxw : Fused xw (val_main_v7 (F := Ideal) x0 x5) (val_main_v66 (F := Ideal) x0 x5)) :
    Fused (kRaw xw a2 a3 a4) (val_main_v52 (F := Ideal) x0 a2 a3 a4 x5) (val_main_v111 (F := Ideal) x0 a2 a3 a4 x5) :=
  fused_scatterAdd _ _ rfl rfl rfl rfl rfl rfl rfl rfl
    (fused_const (z := Ideal.ofBits .f32 0x00000000#32) (fun i => zeros_apply _ i)
      (fun i => by rw [val_main_v50_apply, val_main_cst_12_apply]; rfl)
      (fun i => by rw [val_main_v109_apply, val_main_cst_27_apply]; rfl))
    (g2_fused xw a2 a3 a4 x0 x5 hxw) (kCol a2)

end Hops

end Fused

end Cert.Hyper.Conv

end
-- ==== Proof.ConvStretch.lean ====
/-
  The host stretches between the two launches of the fused program, read one at a time.

  Between the launches the fused program runs six stretches of host operations: the one-hot array of the edge types; the
  first hop (mask, gather at the nodes, sums per hyperedge) with the hyperedge degrees; the guarded selection of their
  reciprocals; the second hop (scaling, gather at the hyperedges, sums per node) with the node degrees; the guarded
  selection of their reciprocals; and the reshaping of the weights.  Each stretch is read here at the buffers the later
  stretches use, for ANY contents before it, as a named function of the contents of the buffers it starts from.  The named
  functions take the array produced by the stretch before as an argument, so every reading is about one stretch only and
  the terms stay small; composing the readings is a chain of rewrites.
-/
import proofs.«119679_j17197049053669_2_alg».proof.Proof.Gen.KernelIdeal.Launch
import proofs.«119679_j17197049053669_2_alg».proof.Proof.LibReadLine
import Idealize.ShloMosaic.Lib.Pipeline.Value
import Idealize.ShloMosaic.Lib.IdealHost

set_option maxRecDepth 16384

noncomputable section

namespace Cert.Hyper.Conv

open Cert.KernelIdeal Cert.KernelIdeal.Gen
open Idealize.ShloMosaic Idealize.ShloMosaic.TcCoe Idealize.SL.Sem
open Cert.Lib.ReadLine

/-! ## The stretches' functions -/

/-- The one-hot array of the edge types. -/
def sOneHot (a4 : (⟨S2000000, .i32⟩ : BufTy).Contents (Elt Ideal)) : (⟨S2000000x2, .f32⟩ : BufTy).Contents (Elt Ideal) :=
  uitofp (F := Ideal) .f32 (cmpi .eq
    (broadcastInDim S2000000x2 ![0, 1] bcast_S2000000x1_S2000000x2_0_1
      (broadcastInDim S2000000x1 ![0] bcast_S2000000_S2000000x1_0 a4))
    (broadcastInDim S2000000x2 ![0, 1] bcast_S1x2_S2000000x2_0_1 (iotaInDim S1x2 32 1)))

/-- The lane mask of a one-hot array: column t repeated over lanes 64 t .. 64 t + 63. -/
def sMask (T : (⟨S2000000x2, .f32⟩ : BufTy).Contents (Elt Ideal)) : (⟨S2000000x128, .f32⟩ : BufTy).Contents (Elt Ideal) :=
  concatenate S2000000x128 1
    [⟨S2000000x64, broadcastInDim S2000000x64 ![0, 1] bcast_S2000000x1_S2000000x64_0_1
        (extractStridedSlice S2000000x1 ![0, 0] T slices_S2000000x2_S2000000x1_0_0)⟩,
     ⟨S2000000x64, broadcastInDim S2000000x64 ![0, 1] bcast_S2000000x1_S2000000x64_0_1
        (extractStridedSlice S2000000x1 ![0, 1] T slices_S2000000x2_S2000000x1_0_1)⟩]
    concatenates_S2000000x64_S2000000x64_S2000000x128_d1

/-- An index vector as a one-column index array. -/
def sCol (a : (⟨S2000000, .i32⟩ : BufTy).Contents (Elt Ideal)) : (⟨S2000000x1, .i32⟩ : BufTy).Contents (Elt Ideal) :=
  broadcastInDim S2000000x1 ![0] bcast_S2000000_S2000000x1_0 a

/-- An index vector with its negative entries moved up by lim, as a one-column index array. -/
def sWrap (lim : BitVec 32) (a : (⟨S2000000, .i32⟩ : BufTy).Contents (Elt Ideal)) : (⟨S2000000x1, .i32⟩ : BufTy).Contents (Elt Ideal) :=
  broadcastInDim S2000000x1 ![0] bcast_S2000000_S2000000x1_0
    (select (cmpi .slt a (broadcastInDim S2000000 ![] bcast_S_S2000000 (constantI S_ 32 0#32)))
      (addi a (broadcastInDim S2000000 ![] bcast_S_S2000000 (constantI S_ 32 lim))) a)

/-- The first hop: the masked rows of xw at the edges' nodes, added up per hyperedge. -/
def sE (xw : (⟨S100000x128, .f32⟩ : BufTy).Contents (Elt Ideal)) (a2 a3 : (⟨S2000000, .i32⟩ : BufTy).Contents (Elt Ideal))
    (M : (⟨S2000000x128, .f32⟩ : BufTy).Contents (Elt Ideal)) : (⟨S200000x128, .f32⟩ : BufTy).Contents (Elt Ideal) :=
  Host.scatterAdd (F := Ideal) scatter_S200000x128_S2000000x1_S2000000x128_1_0_0_1
    (broadcastInDim S200000x128 ![] bcast_S_S200000x128 (constant (F := Ideal) S_ .f32 0x00000000#32)) (sCol a3)
    (mulf (F := Ideal) (φ := .f32)
      (Host.gather gather_S100000x128_S2000000x1_S2000000x128_1_0_n_n_0_1_1128 xw (sWrap 100000#32 a2)) M)

/-- The hyperedge degrees per edge type: the one-hot rows added up per hyperedge. -/
def sB (a3 : (⟨S2000000, .i32⟩ : BufTy).Contents (Elt Ideal)) (T : (⟨S2000000x2, .f32⟩ : BufTy).Contents (Elt Ideal)) :
    (⟨S200000x2, .f32⟩ : BufTy).Contents (Elt Ideal) :=
  Host.scatterAdd (F := Ideal) scatter_S200000x2_S2000000x1_S2000000x2_1_0_0_1
    (broadcastInDim S200000x2 ![] bcast_S_S200000x2 (constant (F := Ideal) S_ .f32 0x00000000#32)) (sCol a3) T

/-- Where a hyperedge degree is positive. -/
def sPosH (B : (⟨S200000x2, .f32⟩ : BufTy).Contents (Elt Ideal)) : (⟨S200000x2, .i1⟩ : BufTy).Contents (Elt Ideal) :=
  cmpf (F := Ideal) .ogt B (broadcastInDim S200000x2 ![] bcast_S_S200000x2 (constant (F := Ideal) S_ .f32 0x00000000#32))

/-- The reciprocals of the hyperedge degrees. -/
def sRecH (B : (⟨S200000x2, .f32⟩ : BufTy).Contents (Elt Ideal)) : (⟨S200000x2, .f32⟩ : BufTy).Contents (Elt Ideal) :=
  Host.divf (F := Ideal) (broadcastInDim S200000x2 ![] bcast_S_S200000x2 (constant (F := Ideal) S_ .f32 0x3F800000#32)) B

/-- The guarded selection: R where P holds, the scalar z elsewhere. -/
def sSelH (P : (⟨S200000x2, .i1⟩ : BufTy).Contents (Elt Ideal)) (R : (⟨S200000x2, .f32⟩ : BufTy).Contents (Elt Ideal))
    (z : (⟨S_, .f32⟩ : BufTy).Contents (Elt Ideal)) : (⟨S200000x2, .f32⟩ : BufTy).Contents (Elt Ideal) :=
  select P R (broadcastInDim S200000x2 ![] bcast_S_S200000x2 (id z))

/-- A 2-column array of hyperedge scalars repeated over the lanes of each edge type. -/
def sFullH (Bi : (⟨S200000x2, .f32⟩ : BufTy).Contents (Elt Ideal)) : (⟨S200000x128, .f32⟩ : BufTy).Contents (Elt Ideal) :=
  concatenate S200000x128 1
    [⟨S200000x64, broadcastInDim S200000x64 ![0, 1] bcast_S200000x1_S200000x64_0_1
        (extractStridedSlice S200000x1 ![0, 0] Bi slices_S200000x2_S200000x1_0_0)⟩,
     ⟨S200000x64, broadcastInDim S200000x64 ![0, 1] bcast_S200000x1_S200000x64_0_1
        (extractStridedSlice S200000x1 ![0, 1] Bi slices_S200000x2_S200000x1_0_1)⟩]
    concatenates_S200000x64_S200000x64_S200000x128_d1

/-- The second hop: the scaled hyperedge rows, masked, at the edges' hyperedges, added up per node. -/
def sRaw (E : (⟨S200000x128, .f32⟩ : BufTy).Contents (Elt Ideal)) (Bi : (⟨S200000x2, .f32⟩ : BufTy).Contents (Elt Ideal))
    (a2 a3 : (⟨S2000000, .i32⟩ : BufTy).Contents (Elt Ideal)) (M : (⟨S2000000x128, .f32⟩ : BufTy).Contents (Elt Ideal)) :
    (⟨S100000x128, .f32⟩ : BufTy).Contents (Elt Ideal) :=
  Host.scatterAdd (F := Ideal) scatter_S100000x128_S2000000x1_S2000000x128_1_0_0_1
    (broadcastInDim S100000x128 ![] bcast_S_S100000x128 (constant (F := Ideal) S_ .f32 0x00000000#32)) (sCol a2)
    (mulf (F := Ideal) (φ := .f32)
      (Host.gather gather_S200000x128_S2000000x1_S2000000x128_1_0_n_n_0_1_1128 (mulf (F := Ideal) (φ := .f32) E (sFullH Bi))
        (sWrap 200000#32 a3)) M)

/-- The node degrees per edge type. -/
def sD (a2 : (⟨S2000000, .i32⟩ : BufTy).Contents (Elt Ideal)) (T : (⟨S2000000x2, .f32⟩ : BufTy).Contents (Elt Ideal)) :
    (⟨S100000x2, .f32⟩ : BufTy).Contents (Elt Ideal) :=
  Host.scatterAdd (F := Ideal) scatter_S100000x2_S2000000x1_S2000000x2_1_0_0_1
    (broadcastInDim S100000x2 ![] bcast_S_S100000x2 (constant (F := Ideal) S_ .f32 0x00000000#32)) (sCol a2) T

/-- Where a node degree is positive. -/
def sPosN (D : (⟨S100000x2, .f32⟩ : BufTy).Contents (Elt Ideal)) : (⟨S100000x2, .i1⟩ : BufTy).Contents (Elt Ideal) :=
  cmpf (F := Ideal) .ogt D (broadcastInDim S100000x2 ![] bcast_S_S100000x2 (constant (F := Ideal) S_ .f32 0x00000000#32))

/-- The reciprocals of the node degrees. -/
def sRecN (D : (⟨S100000x2, .f32⟩ : BufTy).Contents (Elt Ideal)) : (⟨S100000x2, .f32⟩ : BufTy).Contents (Elt Ideal) :=
  Host.divf (F := Ideal) (broadcastInDim S100000x2 ![] bcast_S_S100000x2 (constant (F := Ideal) S_ .f32 0x3F800000#32)) D

/-- The guarded selection for the nodes. -/
def sSelN (P : (⟨S100000x2, .i1⟩ : BufTy).Contents (Elt Ideal)) (R : (⟨S100000x2, .f32⟩ : BufTy).Contents (Elt Ideal))
    (z : (⟨S_, .f32⟩ : BufTy).Contents (Elt Ideal)) : (⟨S100000x2, .f32⟩ : BufTy).Contents (Elt Ideal) :=
  select P R (broadcastInDim S100000x2 ![] bcast_S_S100000x2 (id z))

/-! ## Values carried to an outlined function's buffers and back

An operation of an outlined function carries each value to its buffer's own type and reads its operands back from theirs.
For a literal buffer the two types are the same by computation, so carrying is the identity; one equation per buffer. -/

section Carried
open Idealize.ShloMosaic.StableHlo

theorem ofBuf_arg4 (p1 p2 p3) (v : (⟨S2000000, .i32⟩ : BufTy).Contents (Elt Ideal)) :
    (TRef.of (T := ⟨S2000000, .i32⟩) main_arg4 p1 p2 p3).ofBuf v = v := rfl
theorem toBuf_v6 (p1 p2 p3) (v : (⟨S2000000x2, .f32⟩ : BufTy).Contents (Elt Ideal)) :
    (TRef.of (T := ⟨S2000000x2, .f32⟩) main_v6 p1 p2 p3).toBuf v = v := rfl
theorem ofBuf_cst_4 (p1 p2 p3) (v : (⟨S_, .f32⟩ : BufTy).Contents (Elt Ideal)) :
    (TRef.of (T := ⟨S_, .f32⟩) main_cst_4 p1 p2 p3).ofBuf v = v := rfl
theorem ofBuf_v27 (p1 p2 p3) (v : (⟨S200000x2, .i1⟩ : BufTy).Contents (Elt Ideal)) :
    (TRef.of (T := ⟨S200000x2, .i1⟩) main_v27 p1 p2 p3).ofBuf v = v := rfl
theorem ofBuf_v29 (p1 p2 p3) (v : (⟨S200000x2, .f32⟩ : BufTy).Contents (Elt Ideal)) :
    (TRef.of (T := ⟨S200000x2, .f32⟩) main_v29 p1 p2 p3).ofBuf v = v := rfl
theorem toBuf_v30 (p1 p2 p3) (v : (⟨S200000x2, .f32⟩ : BufTy).Contents (Elt Ideal)) :
    (TRef.of (T := ⟨S200000x2, .f32⟩) main_v30 p1 p2 p3).toBuf v = v := rfl
theorem ofBuf_cst_11 (p1 p2 p3) (v : (⟨S_, .f32⟩ : BufTy).Contents (Elt Ideal)) :
    (TRef.of (T := ⟨S_, .f32⟩) main_cst_11 p1 p2 p3).ofBuf v = v := rfl
theorem ofBuf_v52 (p1 p2 p3) (v : (⟨S100000x2, .i1⟩ : BufTy).Contents (Elt Ideal)) :
    (TRef.of (T := ⟨S100000x2, .i1⟩) main_v52 p1 p2 p3).ofBuf v = v := rfl
theorem ofBuf_v54 (p1 p2 p3) (v : (⟨S100000x2, .f32⟩ : BufTy).Contents (Elt Ideal)) :
    (TRef.of (T := ⟨S100000x2, .f32⟩) main_v54 p1 p2 p3).ofBuf v = v := rfl
theorem toBuf_v55 (p1 p2 p3) (v : (⟨S100000x2, .f32⟩ : BufTy).Contents (Elt Ideal)) :
    (TRef.of (T := ⟨S100000x2, .f32⟩) main_v55 p1 p2 p3).toBuf v = v := rfl

end Carried

/-! ## The stretches, each from arbitrary contents -/

section Lines
variable (V : Valuation τ sig (Elt Ideal))

/-! The one-hot stretch. -/

theorem s1_v6 : StableHlo.after hostOps1 V (Proc.devRef .tc main_v6) = sOneHot (V (Proc.devRef .tc main_arg4)) := by
  read_line
  simp only [ofBuf_arg4, toBuf_v6]
  rfl
theorem keep1_v5 : StableHlo.after hostOps1 V (Proc.devRef .tc main_v5) = V (Proc.devRef .tc main_v5) := by read_line
theorem keep1_arg2 : StableHlo.after hostOps1 V (Proc.devRef .tc main_arg2) = V (Proc.devRef .tc main_arg2) := by read_line
theorem keep1_arg3 : StableHlo.after hostOps1 V (Proc.devRef .tc main_arg3) = V (Proc.devRef .tc main_arg3) := by read_line

/-! The first hop and the hyperedge degrees. -/

theorem s11_v11 : StableHlo.after hostOps1_1 V (Proc.devRef .tc main_v11) = sMask (V (Proc.devRef .tc main_v6)) := by
  read_line
  rfl
theorem s11_v22 : StableHlo.after hostOps1_1 V (Proc.devRef .tc main_v22)
    = sE (V (Proc.devRef .tc main_v5)) (V (Proc.devRef .tc main_arg2)) (V (Proc.devRef .tc main_arg3))
        (sMask (V (Proc.devRef .tc main_v6))) := by
  read_line
  rfl
theorem s11_v27 : StableHlo.after hostOps1_1 V (Proc.devRef .tc main_v27)
    = sPosH (sB (V (Proc.devRef .tc main_arg3)) (V (Proc.devRef .tc main_v6))) := by
  read_line
  rfl
theorem s11_v29 : StableHlo.after hostOps1_1 V (Proc.devRef .tc main_v29)
    = sRecH (sB (V (Proc.devRef .tc main_arg3)) (V (Proc.devRef .tc main_v6))) := by
  read_line
  rfl
theorem s11_cst_4 : StableHlo.after hostOps1_1 V (Proc.devRef .tc main_cst_4) = constant (F := Ideal) S_ .f32 0x00000000#32 := by
  read_line
theorem keep11_v6 : StableHlo.after hostOps1_1 V (Proc.devRef .tc main_v6) = V (Proc.devRef .tc main_v6) := by read_line
theorem keep11_arg2 : StableHlo.after hostOps1_1 V (Proc.devRef .tc main_arg2) = V (Proc.devRef .tc main_arg2) := by read_line
theorem keep11_arg3 : StableHlo.after hostOps1_1 V (Proc.devRef .tc main_arg3) = V (Proc.devRef .tc main_arg3) := by read_line

/-! The guarded selection of the hyperedge reciprocals. -/

theorem s12_v30 : StableHlo.after hostOps1_2 V (Proc.devRef .tc main_v30)
    = sSelH (V (Proc.devRef .tc main_v27)) (V (Proc.devRef .tc main_v29)) (V (Proc.devRef .tc main_cst_4)) := by
  read_line
  simp only [ofBuf_cst_4, ofBuf_v27, ofBuf_v29, toBuf_v30]
  rfl
theorem keep12_v22 : StableHlo.after hostOps1_2 V (Proc.devRef .tc main_v22) = V (Proc.devRef .tc main_v22) := by read_line
theorem keep12_v11 : StableHlo.after hostOps1_2 V (Proc.devRef .tc main_v11) = V (Proc.devRef .tc main_v11) := by read_line
theorem keep12_v6 : StableHlo.after hostOps1_2 V (Proc.devRef .tc main_v6) = V (Proc.devRef .tc main_v6) := by read_line
theorem keep12_arg2 : StableHlo.after hostOps1_2 V (Proc.devRef .tc main_arg2) = V (Proc.devRef .tc main_arg2) := by read_line
theorem keep12_arg3 : StableHlo.after hostOps1_2 V (Proc.devRef .tc main_arg3) = V (Proc.devRef .tc main_arg3) := by read_line

/-! The second hop and the node degrees. -/

theorem s13_v47 : StableHlo.after hostOps1_3 V (Proc.devRef .tc main_v47)
    = sRaw (V (Proc.devRef .tc main_v22)) (V (Proc.devRef .tc main_v30)) (V (Proc.devRef .tc main_arg2))
        (V (Proc.devRef .tc main_arg3)) (V (Proc.devRef .tc main_v11)) := by
  read_line
  rfl
theorem s13_v52 : StableHlo.after hostOps1_3 V (Proc.devRef .tc main_v52)
    = sPosN (sD (V (Proc.devRef .tc main_arg2)) (V (Proc.devRef .tc main_v6))) := by
  read_line
  rfl
theorem s13_v54 : StableHlo.after hostOps1_3 V (Proc.devRef .tc main_v54)
    = sRecN (sD (V (Proc.devRef .tc main_arg2)) (V (Proc.devRef .tc main_v6))) := by
  read_line
  rfl
theorem s13_cst_11 : StableHlo.after hostOps1_3 V (Proc.devRef .tc main_cst_11) = constant (F := Ideal) S_ .f32 0x00000000#32 := by
  read_line

/-! The guarded selection of the node reciprocals. -/

theorem s14_v55 : StableHlo.after hostOps1_4 V (Proc.devRef .tc main_v55)
    = sSelN (V (Proc.devRef .tc main_v52)) (V (Proc.devRef .tc main_v54)) (V (Proc.devRef .tc main_cst_11)) := by
  read_line
  simp only [ofBuf_cst_11, ofBuf_v52, ofBuf_v54, toBuf_v55]
  rfl
theorem keep14_v47 : StableHlo.after hostOps1_4 V (Proc.devRef .tc main_v47) = V (Proc.devRef .tc main_v47) := by read_line

/-! The reshaping of the weights writes neither. -/

theorem keep15_v47 : StableHlo.after hostOps1_5 V (Proc.devRef .tc main_v47) = V (Proc.devRef .tc main_v47) := by read_line
theorem keep15_v55 : StableHlo.after hostOps1_5 V (Proc.devRef .tc main_v55) = V (Proc.devRef .tc main_v55) := by read_line

end Lines

end Cert.Hyper.Conv

end
-- ==== Proof.Region0.lean ====
/-
  The first launch: the projected features.

  Its grid has 25 points; point t stages rows 4000·t … 4000·t + 3999 of the node features, the whole 16 × 128 weight, and
  writes back the same rows of the output.  The body is one matrix product into a zero accumulator, which on the
  extended reals is the plain sum over the 16 contracted positions.  The row blocks tile the output, so after the
  launch the output array is, entry by entry, `proj`: row n of the features against column q of the weight.
-/
import proofs.«119679_j17197049053669_2_alg».proof.Proof.Gen.KernelIdeal.Frame
import proofs.«119679_j17197049053669_2_alg».proof.Proof.LibDotCols
import Idealize.ShloMosaic.Lib.Pipeline.Value
import Idealize.ShloMosaic.Lib.ValueIdx

set_option maxRecDepth 16384

noncomputable section

open scoped BigOperators

namespace Cert.Hyper.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- Row `n` of the features against column `q` of the weight. -/
def proj (x : S100000x16.Idx → EReal) (w : S16x128.Idx → EReal) : S100000x128.Idx → EReal :=
  fun i => ∑ k : Fin 16, x (ix2 (i 0) k) * w (ix2 k (i 1))

/-- The body's stored value at an entry: the sum over the 16 contracted positions (rounding to the narrower
    format and a cast to the same shape change nothing on the extended reals). -/
theorem pay_apply (x0 : Vec Ideal S4000x16 .f32) (x1 : Vec Ideal S16x128 .f32) (p : Fin 4000) (q : Fin 128) :
    k0_pay1 (F := Ideal) x0 x1 (ix2 p q) = ∑ k : Fin 16, x0 (ix2 p k) * x1 (ix2 k q) := by
  unfold k0_pay1
  refine (Cert.Lib.DotCols.matmul_cols_apply dot_S4000x16_S16x128_S4000x128_1_0_0_1_n_n rfl none _ _ p q).trans ?_
  refine Finset.sum_congr rfl fun k _ => ?_
  rw [truncf_apply, truncf_apply, shapeCast_self]

/-- The index maps over the 25 points: the feature block and the output block are the point's row block, the weight
    block is the whole weight. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of `proj` of the two arrays as the launch finds them. -/
theorem flushed_eq (c : Dev nD) (t : Fin cfg0.N) :
    (dat0 (F := Ideal) V c).flushed 2 t
      = ((cfg0.win 2).blk t).view.read (Elt Ideal) (proj (V c main_arg0) (V c main_v4)) := by
  show (cfg0.win 2).cut (grid0.coords t) ((dat0 (F := Ideal) V c).after 2 t) = _
  rw [after0_2]
  unfold out0_2
  rw [View.canon_unit_zero hz]
  simp only [View.ld_unit_zero (S := S4000x16) hz, View.ld_unit_zero (S := S16x128) hz]
  obtain ⟨e0, e1, e2, e3, e4, e5⟩ := idx_facts t
  funext j
  obtain ⟨p, q, rfl⟩ : ∃ (p : Fin 4000) (q : Fin 128), j = ix2 p q := ⟨j 0, j 1, eq_ix2 j⟩
  show k0_pay1 (F := Ideal) (iblk0 V c 0 t) (iblk0 V c 1 t) (ix2 p q)
    = proj (V c main_arg0) (V c main_v4) (((cfg0.win 2).blk t).view.emb (ix2 p q))
  refine (pay_apply (iblk0 V c 0 t) (iblk0 V c 1 t) p q).trans ?_
  unfold proj
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 4000 + 1 * p.val = win0_2.index t (0 : Fin 2) * 4000 + 1 * p.val; omega
    | ⟨1, _⟩ => show win0_0.index t (1 : Fin 2) * 16 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 16 + 1 * k.val = k.val; omega
    | ⟨1, _⟩ => show win0_1.index t (1 : Fin 2) * 128 + 1 * q.val = win0_2.index t (1 : Fin 2) * 128 + 1 * q.val; omega
  congr 1
  · exact congrArg (V c main_arg0) h0
  · exact congrArg (V c main_v4) h1

/-- An index of the output is in point `t`'s block iff its row is in the point's row block. -/
theorem mem_blk (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v5).slice (win0_2.rect t)).set ↔ _
  rw [View.set_slice_whole, Rect.mem_set_unit]
  exact Iff.rfl

/-- Every entry of the output lies in the block of the point `row / 4000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 25 := Gen.N_0
  refine ⟨⟨(i 0).val / 4000, by rw [hN]; omega⟩, flush0_2 _, ?_⟩
  rw [mem_blk]
  obtain ⟨e0, e1, e2, e3, e4, e5⟩ := idx_facts ⟨(i 0).val / 4000, by rw [hN]; omega⟩
  intro a
  match a with
  | ⟨0, _⟩ =>
    show win0_2.index _ (0 : Fin 2) * 4000 ≤ (i 0).val ∧ (i 0).val < win0_2.index _ (0 : Fin 2) * 4000 + 4000
    rw [e4]; show (i 0).val / 4000 * 4000 ≤ (i 0).val ∧ (i 0).val < (i 0).val / 4000 * 4000 + 4000; omega
  | ⟨1, _⟩ =>
    show win0_2.index _ (1 : Fin 2) * 128 ≤ (i 1).val ∧ (i 1).val < win0_2.index _ (1 : Fin 2) * 128 + 128
    rw [e5]; omega

/-- After the launch the output array is `proj` of the two arrays as the launch found them. -/
theorem final (c : Dev nD) : (dat0 (F := Ideal) V c).arrAt 2 cfg0.N = proj (V c main_arg0) (V c main_v4) :=
  (dat0 (F := Ideal) V c).arrAt_eq_of_cover 2 _ (fun t _ => flushed_eq V c t) cover

end Cert.Hyper.Region0

end
-- ==== Proof.ConvCore.lean ====
/-
  The convolution core of the fused program at the second launch's entry, against the reference's per-type stages.

  The contents of the fused program's buffers at the second launch's entry are the host stretches' readings composed
  (ConvStretch); composed, they are the arrays of ConvPure at the contents after the first launch.  The first launch's
  output holds the two edge types' projected features side by side (Region0), so by ConvPure the node-side sums hold the
  reference's two convolutions side by side and the 2-column reciprocal array holds its two reciprocal vectors.  Scaling,
  adding the bias and reading a lane of either half then gives the reference's convolution rows, entry by entry.
-/
import proofs.«119679_j17197049053669_2_alg».proof.Proof.ConvPure
import proofs.«119679_j17197049053669_2_alg».proof.Proof.ConvStretch
import proofs.«119679_j17197049053669_2_alg».proof.Proof.KHost
import proofs.«119679_j17197049053669_2_alg».proof.Proof.KHostWin
import proofs.«119679_j17197049053669_2_alg».proof.Proof.Region0
import proofs.«119679_j17197049053669_2_alg».proof.Proof.Region1Out
import proofs.«119679_j17197049053669_2_alg».proof.Proof.LibReadLine
import proofs.«119679_j17197049053669_2_alg».proof.Proof.Gen.KernelIdeal.Frame

set_option maxRecDepth 16384

noncomputable section

open scoped BigOperators

namespace Cert.Hyper.Conv

open Cert.KernelIdeal Cert.KernelIdeal.Gen
open Cert.ReferenceIdeal.Read
open Idealize.ShloMosaic Idealize.ShloMosaic.TcCoe Idealize.ShloMosaic.ValueIdx Idealize.SL.Sem
open Cert.Lib.ReadLine Cert.Hyper Cert.Hyper.Layout Cert.Hyper.KHost

/-! ## Indices from their coordinates -/

/-- A rank-2 index with the given coordinates is the index built from them. -/
theorem idx_eq2 {n0 n1 : Nat} (i : (⟨2, ![n0, n1]⟩ : Shape).Idx) (a : Fin n0) (b : Fin n1)
    (h0 : (i 0).val = a.val) (h1 : (i 1).val = b.val) : i = ix2 a b := by
  funext d
  match d with
  | ⟨0, _⟩ => exact Fin.ext h0
  | ⟨1, _⟩ => exact Fin.ext h1

/-- The same for a rank-3 index. -/
theorem idx_eq3 {n0 n1 n2 : Nat} (i : (⟨3, ![n0, n1, n2]⟩ : Shape).Idx) (a : Fin n0) (b : Fin n1) (c : Fin n2)
    (h0 : (i 0).val = a.val) (h1 : (i 1).val = b.val) (h2 : (i 2).val = c.val) : i = ix3 a b c := by
  funext d
  match d with
  | ⟨0, _⟩ => exact Fin.ext h0
  | ⟨1, _⟩ => exact Fin.ext h1
  | ⟨2, _⟩ => exact Fin.ext h2

section Run

variable (m : (ℓ : Loc nD τ sig) → Buf (Elt Ideal) ℓ) (ρ : Dev nD → PrngReg) (c : Dev nD)

/-! The launch memory's arrays, as both programs receive them. -/

set_option quotPrecheck false

local notation "X0" => (m ((c : Thread nD τ).loc main_arg0) : S100000x16.Idx → EReal)
local notation "X2" => (m ((c : Thread nD τ).loc main_arg2) : S2000000.Idx → BitVec 32)
local notation "X3" => (m ((c : Thread nD τ).loc main_arg3) : S2000000.Idx → BitVec 32)
local notation "X4" => (m ((c : Thread nD τ).loc main_arg4) : S2000000.Idx → BitVec 32)
local notation "X5" => (m ((c : Thread nD τ).loc main_arg5) : S2x16x64.Idx → EReal)
local notation "X6" => (m ((c : Thread nD τ).loc main_arg6) : S2x64.Idx → EReal)

/-! ## The fused program's arrays at the second launch's entry

The arrays of ConvPure are the stretches' functions composed: each equation unfolds one definition on each side. -/

section Named

variable (xw : (⟨S100000x128, .f32⟩ : BufTy).Contents (Elt Ideal))
  (a2 a3 a4 : (⟨S2000000, .i32⟩ : BufTy).Contents (Elt Ideal))

theorem kT_eq : kT a4 = sOneHot a4 := rfl
theorem kMask_eq : kMask a4 = sMask (kT a4) := rfl
theorem kE_eq : kE xw a2 a3 a4 = sE xw a2 a3 (kMask a4) := rfl
theorem kB_eq : kB a3 a4 = sB a3 (kT a4) := rfl
theorem kBinv_eq : kBinv a3 a4
    = sSelH (sPosH (kB a3 a4)) (sRecH (kB a3 a4)) (constant (F := Ideal) S_ .f32 0x00000000#32) := rfl
theorem kRaw_eq : kRaw xw a2 a3 a4 = sRaw (kE xw a2 a3 a4) (kBinv a3 a4) a2 a3 (kMask a4) := rfl
theorem kD_eq : kD a2 a4 = sD a2 (kT a4) := rfl
theorem kDinv_eq : kDinv a2 a4
    = sSelN (sPosN (kD a2 a4)) (sRecN (kD a2 a4)) (constant (F := Ideal) S_ .f32 0x00000000#32) := rfl

end Named

/-! The contents after each stretch, at the buffers the later stretches read, as functions of the contents after the first
launch.  Each line instantiates one stretch's reading at the contents before it and rewrites with the lines above. -/

theorem W3_v6 : W3 m ρ c (Proc.devRef .tc main_v6) = sOneHot (W2 m ρ c (Proc.devRef .tc main_arg4)) := s1_v6 (W2 m ρ c)
theorem W3_v5 : W3 m ρ c (Proc.devRef .tc main_v5) = W2 m ρ c (Proc.devRef .tc main_v5) := keep1_v5 (W2 m ρ c)
theorem W3_arg2 : W3 m ρ c (Proc.devRef .tc main_arg2) = W2 m ρ c (Proc.devRef .tc main_arg2) := keep1_arg2 (W2 m ρ c)
theorem W3_arg3 : W3 m ρ c (Proc.devRef .tc main_arg3) = W2 m ρ c (Proc.devRef .tc main_arg3) := keep1_arg3 (W2 m ρ c)

theorem W4_v6 : W4 m ρ c (Proc.devRef .tc main_v6) = sOneHot (W2 m ρ c (Proc.devRef .tc main_arg4)) :=
  (keep11_v6 (W3 m ρ c)).trans (W3_v6 m ρ c)
theorem W4_arg2 : W4 m ρ c (Proc.devRef .tc main_arg2) = W2 m ρ c (Proc.devRef .tc main_arg2) :=
  (keep11_arg2 (W3 m ρ c)).trans (W3_arg2 m ρ c)
theorem W4_arg3 : W4 m ρ c (Proc.devRef .tc main_arg3) = W2 m ρ c (Proc.devRef .tc main_arg3) :=
  (keep11_arg3 (W3 m ρ c)).trans (W3_arg3 m ρ c)
theorem W4_v11 : W4 m ρ c (Proc.devRef .tc main_v11) = sMask (sOneHot (W2 m ρ c (Proc.devRef .tc main_arg4))) :=
  (s11_v11 (W3 m ρ c)).trans (congrArg sMask (W3_v6 m ρ c))
theorem W4_v22 : W4 m ρ c (Proc.devRef .tc main_v22)
    = sE (W2 m ρ c (Proc.devRef .tc main_v5)) (W2 m ρ c (Proc.devRef .tc main_arg2)) (W2 m ρ c (Proc.devRef .tc main_arg3))
        (sMask (sOneHot (W2 m ρ c (Proc.devRef .tc main_arg4)))) := by
  refine (s11_v22 (W3 m ρ c)).trans ?_
  rw [W3_v5, W3_arg2, W3_arg3, W3_v6]
theorem W4_v27 : W4 m ρ c (Proc.devRef .tc main_v27)
    = sPosH (sB (W2 m ρ c (Proc.devRef .tc main_arg3)) (sOneHot (W2 m ρ c (Proc.devRef .tc main_arg4)))) := by
  refine (s11_v27 (W3 m ρ c)).trans ?_
  rw [W3_arg3, W3_v6]
theorem W4_v29 : W4 m ρ c (Proc.devRef .tc main_v29)
    = sRecH (sB (W2 m ρ c (Proc.devRef .tc main_arg3)) (sOneHot (W2 m ρ c (Proc.devRef .tc main_arg4)))) := by
  refine (s11_v29 (W3 m ρ c)).trans ?_
  rw [W3_arg3, W3_v6]
theorem W4_cst_4 : W4 m ρ c (Proc.devRef .tc main_cst_4) = constant (F := Ideal) S_ .f32 0x00000000#32 := s11_cst_4 (W3 m ρ c)

theorem W5_v30 : W5 m ρ c (Proc.devRef .tc main_v30)
    = sSelH (sPosH (sB (W2 m ρ c (Proc.devRef .tc main_arg3)) (sOneHot (W2 m ρ c (Proc.devRef .tc main_arg4)))))
        (sRecH (sB (W2 m ρ c (Proc.devRef .tc main_arg3)) (sOneHot (W2 m ρ c (Proc.devRef .tc main_arg4)))))
        (constant (F := Ideal) S_ .f32 0x00000000#32) := by
  refine (s12_v30 (W4 m ρ c)).trans ?_
  rw [W4_v27, W4_v29, W4_cst_4]
theorem W5_v22 : W5 m ρ c (Proc.devRef .tc main_v22)
    = sE (W2 m ρ c (Proc.devRef .tc main_v5)) (W2 m ρ c (Proc.devRef .tc main_arg2)) (W2 m ρ c (Proc.devRef .tc main_arg3))
        (sMask (sOneHot (W2 m ρ c (Proc.devRef .tc main_arg4)))) :=
  (keep12_v22 (W4 m ρ c)).trans (W4_v22 m ρ c)
theorem W5_v11 : W5 m ρ c (Proc.devRef .tc main_v11) = sMask (sOneHot (W2 m ρ c (Proc.devRef .tc main_arg4))) :=
  (keep12_v11 (W4 m ρ c)).trans (W4_v11 m ρ c)
theorem W5_v6 : W5 m ρ c (Proc.devRef .tc main_v6) = sOneHot (W2 m ρ c (Proc.devRef .tc main_arg4)) :=
  (keep12_v6 (W4 m ρ c)).trans (W4_v6 m ρ c)
theorem W5_arg2 : W5 m ρ c (Proc.devRef .tc main_arg2) = W2 m ρ c (Proc.devRef .tc main_arg2) :=
  (keep12_arg2 (W4 m ρ c)).trans (W4_arg2 m ρ c)
theorem W5_arg3 : W5 m ρ c (Proc.devRef .tc main_arg3) = W2 m ρ c (Proc.devRef .tc main_arg3) :=
  (keep12_arg3 (W4 m ρ c)).trans (W4_arg3 m ρ c)

theorem W6_v47 : W6 m ρ c (Proc.devRef .tc main_v47)
    = sRaw (sE (W2 m ρ c (Proc.devRef .tc main_v5)) (W2 m ρ c (Proc.devRef .tc main_arg2)) (W2 m ρ c (Proc.devRef .tc main_arg3))
          (sMask (sOneHot (W2 m ρ c (Proc.devRef .tc main_arg4)))))
        (sSelH (sPosH (sB (W2 m ρ c (Proc.devRef .tc main_arg3)) (sOneHot (W2 m ρ c (Proc.devRef .tc main_arg4)))))
          (sRecH (sB (W2 m ρ c (Proc.devRef .tc main_arg3)) (sOneHot (W2 m ρ c (Proc.devRef .tc main_arg4)))))
          (constant (F := Ideal) S_ .f32 0x00000000#32))
        (W2 m ρ c (Proc.devRef .tc main_arg2)) (W2 m ρ c (Proc.devRef .tc main_arg3))
        (sMask (sOneHot (W2 m ρ c (Proc.devRef .tc main_arg4)))) := by
  refine (s13_v47 (W5 m ρ c)).trans ?_
  rw [W5_v22, W5_v30, W5_arg2, W5_arg3, W5_v11]
theorem W6_v52 : W6 m ρ c (Proc.devRef .tc main_v52)
    = sPosN (sD (W2 m ρ c (Proc.devRef .tc main_arg2)) (sOneHot (W2 m ρ c (Proc.devRef .tc main_arg4)))) := by
  refine (s13_v52 (W5 m ρ c)).trans ?_
  rw [W5_arg2, W5_v6]
theorem W6_v54 : W6 m ρ c (Proc.devRef .tc main_v54)
    = sRecN (sD (W2 m ρ c (Proc.devRef .tc main_arg2)) (sOneHot (W2 m ρ c (Proc.devRef .tc main_arg4)))) := by
  refine (s13_v54 (W5 m ρ c)).trans ?_
  rw [W5_arg2, W5_v6]
theorem W6_cst_11 : W6 m ρ c (Proc.devRef .tc main_cst_11) = constant (F := Ideal) S_ .f32 0x00000000#32 :=
  s13_cst_11 (W5 m ρ c)

theorem W7_v47 : W7 m ρ c (Proc.devRef .tc main_v47)
    = sRaw (sE (W2 m ρ c (Proc.devRef .tc main_v5)) (W2 m ρ c (Proc.devRef .tc main_arg2)) (W2 m ρ c (Proc.devRef .tc main_arg3))
          (sMask (sOneHot (W2 m ρ c (Proc.devRef .tc main_arg4)))))
        (sSelH (sPosH (sB (W2 m ρ c (Proc.devRef .tc main_arg3)) (sOneHot (W2 m ρ c (Proc.devRef .tc main_arg4)))))
          (sRecH (sB (W2 m ρ c (Proc.devRef .tc main_arg3)) (sOneHot (W2 m ρ c (Proc.devRef .tc main_arg4)))))
          (constant (F := Ideal) S_ .f32 0x00000000#32))
        (W2 m ρ c (Proc.devRef .tc main_arg2)) (W2 m ρ c (Proc.devRef .tc main_arg3))
        (sMask (sOneHot (W2 m ρ c (Proc.devRef .tc main_arg4)))) :=
  (keep14_v47 (W6 m ρ c)).trans (W6_v47 m ρ c)
theorem W7_v55 : W7 m ρ c (Proc.devRef .tc main_v55)
    = sSelN (sPosN (sD (W2 m ρ c (Proc.devRef .tc main_arg2)) (sOneHot (W2 m ρ c (Proc.devRef .tc main_arg4)))))
        (sRecN (sD (W2 m ρ c (Proc.devRef .tc main_arg2)) (sOneHot (W2 m ρ c (Proc.devRef .tc main_arg4)))))
        (constant (F := Ideal) S_ .f32 0x00000000#32) := by
  refine (s14_v55 (W6 m ρ c)).trans ?_
  rw [W6_v52, W6_v54, W6_cst_11]

/-- The node-side sums at the second launch's entry, as the named function of the contents after the first launch. -/
theorem read_raw :
    W8 m ρ c (Proc.devRef .tc main_v47) = kRaw (W2 m ρ c (Proc.devRef .tc main_v5)) (W2 m ρ c (Proc.devRef .tc main_arg2))
      (W2 m ρ c (Proc.devRef .tc main_arg3)) (W2 m ρ c (Proc.devRef .tc main_arg4)) := by
  rw [kRaw_eq, kE_eq, kBinv_eq, kB_eq, kMask_eq, kT_eq]
  exact (keep15_v47 (W7 m ρ c)).trans (W7_v47 m ρ c)

/-- The guarded reciprocals of the node degrees at the second launch's entry. -/
theorem read_dinv :
    W8 m ρ c (Proc.devRef .tc main_v55) = kDinv (W2 m ρ c (Proc.devRef .tc main_arg2)) (W2 m ρ c (Proc.devRef .tc main_arg4)) := by
  rw [kDinv_eq, kD_eq, kT_eq]
  exact (keep15_v55 (W7 m ρ c)).trans (W7_v55 m ρ c)

/-! ## The projected features -/

/-- The first launch's output holds the two edge types' projected features side by side: entry (p, q) of the output is
    row p of the features against column q of the joined weight, and the joined weight's two halves are the two matrices. -/
theorem xw_fused :
    Fused (W2 m ρ c (Proc.devRef .tc main_v5) : S100000x128.Idx → EReal)
      (val_main_v7 (F := Ideal) X0 X5) (val_main_v66 (F := Ideal) X0 X5) := by
  intro p j
  rw [leaf_xw, Region0.final, val_main_v7_apply, val_main_v66_apply]
  unfold Region0.proj
  constructor
  · refine Finset.sum_congr rfl fun k _ => congrArg₂ (· * ·) ?_ ?_
    · rw [in_x]
      exact (congrArg _ (eq_ix2 _)).symm
    · refine (in_w_lo m ρ c k j).trans ?_
      rw [val_main_v4_apply, val_main_v3_apply]
      exact (congrArg _ (idx_eq3 _ (0 : Fin 2) k j rfl
        (by show (k.val * 64 + j.val) / 64 % 16 = k.val; omega)
        (by show (k.val * 64 + j.val) % 64 = j.val; omega))).symm
  · refine Finset.sum_congr rfl fun k _ => congrArg₂ (· * ·) ?_ ?_
    · rw [in_x]
      exact (congrArg _ (eq_ix2 _)).symm
    · refine (in_w_hi m ρ c k j).trans ?_
      rw [val_main_v63_apply, val_main_v62_apply]
      exact (congrArg _ (idx_eq3 _ (1 : Fin 2) k j rfl
        (by show (k.val * 64 + j.val) / 64 % 16 = k.val; omega)
        (by show (k.val * 64 + j.val) % 64 = j.val; omega))).symm

/-! ## The convolution core -/

/-- The node-side sums of the fused program hold the reference's two, side by side. -/
theorem raw_fused :
    Fused (W8 m ρ c (Proc.devRef .tc main_v47) : S100000x128.Idx → EReal)
      (val_main_v52 (F := Ideal) X0 X2 X3 X4 X5) (val_main_v111 (F := Ideal) X0 X2 X3 X4 X5) := by
  rw [read_raw, leaf_nodes, leaf_hedges, leaf_attr]
  exact raw_fused' _ _ _ _ _ _ (xw_fused m ρ c)

/-- The guarded reciprocals of the node degrees: the 2-column array's columns are the reference's two vectors. -/
theorem dinv_paired :
    Paired (W8 m ρ c (Proc.devRef .tc main_v55) : S100000x2.Idx → EReal)
      (val_main_v23 (F := Ideal) X2 X4) (val_main_v82 (F := Ideal) X2 X4) := by
  rw [read_dinv, leaf_nodes, leaf_attr]
  exact dinv_paired' _ _

/-- Node n's row for edge type 0 in the reference: its node-side sum scaled by the guarded reciprocal of its degree, plus the
    bias. -/
theorem ref_row0 (n : Fin 100000) (k : Fin 64) :
    val_main_v58 (F := Ideal) X0 X2 X3 X4 X5 X6 (ix2 n k)
      = val_main_v52 (F := Ideal) X0 X2 X3 X4 X5 (ix2 n k) * val_main_v23 (F := Ideal) X2 X4 (ix1 n)
          + X6 (ix2 (0 : Fin 2) k) := by
  rw [val_main_v58_apply, val_main_v55_apply, val_main_v54_apply, val_main_v53_apply, val_main_v57_apply,
    val_main_v56_apply, val_main_v6_apply, val_main_v5_apply,
    show idx_main_v53 (idx_main_v54 (ix2 n k)) = ix1 n from eq_ix1 _,
    show idx_main_v5 (idx_main_v6 (idx_main_v56 (idx_main_v57 (ix2 n k)))) = ix2 (0 : Fin 2) k from
      idx_eq2 _ _ _ rfl (by show k.val % 64 = k.val; omega)]
  rfl

/-- The same for edge type 1. -/
theorem ref_row1 (n : Fin 100000) (k : Fin 64) :
    val_main_v117 (F := Ideal) X0 X2 X3 X4 X5 X6 (ix2 n k)
      = val_main_v111 (F := Ideal) X0 X2 X3 X4 X5 (ix2 n k) * val_main_v82 (F := Ideal) X2 X4 (ix1 n)
          + X6 (ix2 (1 : Fin 2) k) := by
  rw [val_main_v117_apply, val_main_v114_apply, val_main_v113_apply, val_main_v112_apply, val_main_v116_apply,
    val_main_v115_apply, val_main_v65_apply, val_main_v64_apply,
    show idx_main_v112 (idx_main_v113 (ix2 n k)) = ix1 n from eq_ix1 _,
    show idx_main_v64 (idx_main_v65 (idx_main_v115 (idx_main_v116 (ix2 n k)))) = ix2 (1 : Fin 2) k from
      idx_eq2 _ _ _ rfl (by show k.val % 64 = k.val; omega)]
  rfl

/-- Node n's row for edge type 0 at the second launch's entry — the first half of the node-side sums scaled by the first
    column of the reciprocals, plus the first half of the bias row — is the reference's. -/
theorem conv_row0 (n : Fin 100000) (k : Fin 64) :
    Region1.nrow0 (V8 m ρ c main_v47) (V8 m ρ c main_v55) (V8 m ρ c main_v56) n k
      = val_main_v58 (F := Ideal) X0 X2 X3 X4 X5 X6 (ix2 n k) := by
  rw [ref_row0]
  unfold Region1.nrow0
  exact congrArg₂ (· + ·) (congrArg₂ (· * ·) (raw_fused m ρ c n k).1 (dinv_paired m ρ c n).1) (win_bconv_lo m ρ c k)

/-- Node n's row for edge type 1: the second halves and the second column. -/
theorem conv_row1 (n : Fin 100000) (k : Fin 64) :
    Region1.nrow1 (V8 m ρ c main_v47) (V8 m ρ c main_v55) (V8 m ρ c main_v56) n k
      = val_main_v117 (F := Ideal) X0 X2 X3 X4 X5 X6 (ix2 n k) := by
  rw [ref_row1]
  unfold Region1.nrow1
  exact congrArg₂ (· + ·) (congrArg₂ (· * ·) (raw_fused m ρ c n k).2 (dinv_paired m ρ c n).2) (win_bconv_hi m ρ c k)

end Run

end Cert.Hyper.Conv

end
-- ==== Proof.RefHead.lean ====
/-
  The dense tail of the reference program, read at one entry.

  After the two hypergraph convolutions the reference works node by node: it joins the two 64-lane convolution rows of a
  node into one 128-lane row, mixes it with a 128 x 64 matrix, rectifies, forms the two gate pre-activations, the three
  gates, the next hidden row, and the prediction row. Each of these stages is an array over all nodes; this module reads
  each stage at a single entry (n, j) and finds there the scalar function of Spec.lean applied to node n's two
  convolution rows, its previous hidden row, and the weights.

  Two facts are not mere reading. (1) A sum over the 128 joined lanes is the sum over the first 64 plus the sum over the
  last 64; the joined row holds the first convolution row on the first half and the second on the last half, so the
  mixing product splits into the two products of the specification. This holds in any commutative additive monoid, so no
  entry has to be finite. (2) The reference spells the logistic function out as 1 / (1 + exp (-z)) with the constant 1
  written as a bit pattern; the pattern denotes the real number 1, and the quotient is then the logistic function by its
  definition. Every sum and product is met in the order in which the specification writes it: no commutativity is used.

  The two convolution stages are never opened: they appear only as the functions that supply the two rows.
-/
import proofs.«119679_j17197049053669_2_alg».proof.Proof.Spec
import proofs.«119679_j17197049053669_2_alg».proof.Proof.RefReadP
import Idealize.ShloMosaic.Lib.IdealHost

set_option maxRecDepth 16384

noncomputable section

open scoped BigOperators
open Idealize.ShloMosaic Idealize.ShloMosaic.ValueIdx
open Cert.ReferenceIdeal Cert.ReferenceIdeal.Gen Cert.ReferenceIdeal.Read

namespace Cert.Hyper.Ref

/-! ## Splitting a 128-lane sum, and the joined row -/

/-- A sum over 128 lanes is the sum over the first 64 plus the sum over the last 64. -/
theorem sum_halves {M : Type*} [AddCommMonoid M] (f : Fin 128 → M) :
    ∑ k : Fin 128, f k = (∑ k : Fin 64, f (lo k)) + ∑ k : Fin 64, f (hi k) :=
  Fin.sum_univ_add (a := 64) (b := 64) f

/-- A rank-2 index with the given coordinates is the index built from them. -/
theorem idx_eq2 {n0 n1 : Nat} (i : (⟨2, ![n0, n1]⟩ : Shape).Idx) (a : Fin n0) (b : Fin n1)
    (h0 : (i 0).val = a.val) (h1 : (i 1).val = b.val) : i = ix2 a b := by
  funext d
  match d with
  | ⟨0, _⟩ => exact Fin.ext h0
  | ⟨1, _⟩ => exact Fin.ext h1

/-- Two 64-lane arrays joined along the lanes hold the first array on the first 64 lanes. -/
theorem join_lo (y0 y1 : S100000x64.Idx → EReal) (n : Fin 100000) (k : Fin 64) :
    concatenate S100000x128 1 [⟨S100000x64, y0⟩, ⟨S100000x64, y1⟩] concatenates_S100000x64_S100000x64_S100000x128_d1
      (ix2 n (lo k)) = y0 (ix2 n k) :=
  concatenate_pair_apply_left 1 y0 y1 concatenates_S100000x64_S100000x64_S100000x128_d1 (ix2 n (lo k)) rfl (ix2 n k)
    (fun b => match b with | ⟨0, _⟩ => rfl | ⟨1, _⟩ => rfl)

/-- ... and the second array on the last 64 lanes. -/
theorem join_hi (y0 y1 : S100000x64.Idx → EReal) (n : Fin 100000) (k : Fin 64) :
    concatenate S100000x128 1 [⟨S100000x64, y0⟩, ⟨S100000x64, y1⟩] concatenates_S100000x64_S100000x64_S100000x128_d1
      (ix2 n (hi k)) = y1 (ix2 n k) :=
  concatenate_pair_apply_right 1 y0 y1 concatenates_S100000x64_S100000x64_S100000x128_d1 (ix2 n (hi k)) rfl rfl (ix2 n k)
    (fun b => match b with | ⟨0, _⟩ => fun _ => rfl | ⟨1, _⟩ => fun hb => absurd rfl hb)
    (by show k.val + 64 = 64 + k.val; omega)

/-- The logistic function spelt out with the constant 1 as a bit pattern. -/
theorem logistic_spelt (z : EReal) :
    Ideal.div (Ideal.ofBits .f32 0x3F800000#32) (Ideal.ofBits .f32 0x3F800000#32 + Ideal.exp (-z)) = Ideal.logistic z := by
  rw [Ideal.ofBits_one_f32]; rfl

section Entry

variable (x0 : (⟨S100000x16, .f32⟩ : BufTy).Contents (Elt Ideal)) (x1 : (⟨S100000x64, .f32⟩ : BufTy).Contents (Elt Ideal))
  (x2 x3 x4 : (⟨S2000000, .i32⟩ : BufTy).Contents (Elt Ideal)) (x5 : (⟨S2x16x64, .f32⟩ : BufTy).Contents (Elt Ideal))
  (x6 : (⟨S2x64, .f32⟩ : BufTy).Contents (Elt Ideal)) (x7 : (⟨S128x64, .f32⟩ : BufTy).Contents (Elt Ideal))
  (x8 : (⟨S64, .f32⟩ : BufTy).Contents (Elt Ideal)) (x9 x10 : (⟨S192x64, .f32⟩ : BufTy).Contents (Elt Ideal))
  (x11 x12 : (⟨S192, .f32⟩ : BufTy).Contents (Elt Ideal)) (x13 : (⟨S64x64, .f32⟩ : BufTy).Contents (Elt Ideal))
  (x14 : (⟨S64, .f32⟩ : BufTy).Contents (Elt Ideal)) (n : Fin 100000)

/-! The arguments of the specification at node `n`: its two convolution rows, its previous hidden row, and the weights
as functions of their coordinates (row of the product first). -/

local notation "C0" => (fun k : Fin 64 => val_main_v58 (F := Ideal) x0 x2 x3 x4 x5 x6 (ix2 n k))
local notation "C1" => (fun k : Fin 64 => val_main_v117 (F := Ideal) x0 x2 x3 x4 x5 x6 (ix2 n k))
local notation "HP" => (fun k : Fin 64 => x1 (ix2 n k))
local notation "WM0" => (fun (k : Fin 64) (j : Fin 64) => x7 (ix2 (lo k) j))
local notation "WM1" => (fun (k : Fin 64) (j : Fin 64) => x7 (ix2 (hi k) j))
local notation "BM" => (fun j : Fin 64 => x8 (ix1 j))
local notation "WI" => (fun (k : Fin 64) (q : Fin 192) => x9 (ix2 q k))
local notation "WH" => (fun (k : Fin 64) (q : Fin 192) => x10 (ix2 q k))
local notation "BI" => (fun q : Fin 192 => x11 (ix1 q))
local notation "BH" => (fun q : Fin 192 => x12 (ix1 q))
local notation "WO" => (fun (k : Fin 64) (j : Fin 64) => x13 (ix2 k j))
local notation "BO" => (fun j : Fin 64 => x14 (ix1 j))

/-! ## The mixing layer -/

/-- The joined row holds the first convolution row on its first half ... -/
theorem joined_lo (k : Fin 64) :
    val_main_v118 (F := Ideal) x0 x2 x3 x4 x5 x6 (ix2 n (lo k)) = val_main_v58 (F := Ideal) x0 x2 x3 x4 x5 x6 (ix2 n k) :=
  join_lo _ _ n k

/-- ... and the second on its last half. -/
theorem joined_hi (k : Fin 64) :
    val_main_v118 (F := Ideal) x0 x2 x3 x4 x5 x6 (ix2 n (hi k)) = val_main_v117 (F := Ideal) x0 x2 x3 x4 x5 x6 (ix2 n k) :=
  join_hi _ _ n k

/-- The mixing product at an entry: the two half products, first half first. -/
theorem mix_entry (j : Fin 64) :
    val_main_v119 (F := Ideal) x0 x2 x3 x4 x5 x6 x7 (ix2 n j)
      = (∑ k : Fin 64, C0 k * WM0 k j) + ∑ k : Fin 64, C1 k * WM1 k j := by
  rw [val_main_v119_apply, sum_halves]
  refine congrArg₂ (· + ·) (Finset.sum_congr rfl fun k _ => ?_) (Finset.sum_congr rfl fun k _ => ?_)
  · rw [show lidx_main_v119 (ix2 n j) (lo k) = ix2 n (lo k) from eq_ix2 _,
      show ridx_main_v119 (ix2 n j) (lo k) = ix2 (lo k) j from eq_ix2 _, joined_lo]
  · rw [show lidx_main_v119 (ix2 n j) (hi k) = ix2 n (hi k) from eq_ix2 _,
      show ridx_main_v119 (ix2 n j) (hi k) = ix2 (hi k) j from eq_ix2 _, joined_hi]

/-- The rectified mixing layer at an entry is the specification's hidden row. -/
theorem hid_entry (j : Fin 64) :
    val_main_v123 (F := Ideal) x0 x2 x3 x4 x5 x6 x7 x8 (ix2 n j) = hid C0 C1 WM0 WM1 BM j := by
  rw [val_main_v123_apply, val_main_v122_apply, mix_entry, val_main_v121_apply, val_main_v120_apply,
    val_main_call4_v0_apply, val_main_call4_cst_apply,
    show idx_main_v120 (idx_main_v121 (ix2 n j)) = ix1 j from eq_ix1 _]
  rfl

/-! ## The gate pre-activations -/

/-- The input-side pre-activations at an entry. -/
theorem gi_entry (q : Fin 192) :
    val_main_v128 (F := Ideal) x0 x2 x3 x4 x5 x6 x7 x8 x9 x11 (ix2 n q) = gi C0 C1 WM0 WM1 BM WI BI q := by
  rw [val_main_v128_apply, val_main_v125_apply, val_main_v127_apply, val_main_v126_apply,
    show idx_main_v126 (idx_main_v127 (ix2 n q)) = ix1 q from eq_ix1 _]
  refine congrArg₂ (· + ·) (Finset.sum_congr rfl fun k _ => ?_) rfl
  rw [show lidx_main_v125 (ix2 n q) k = ix2 n k from eq_ix2 _, hid_entry, val_main_v124_apply,
    show idx_main_v124 (ridx_main_v125 (ix2 n q) k) = ix2 q k from eq_ix2 _]

/-- The hidden-side pre-activations at an entry. -/
theorem gh_entry (q : Fin 192) :
    val_main_v133 (F := Ideal) x1 x10 x12 (ix2 n q) = gh HP WH BH q := by
  rw [val_main_v133_apply, val_main_v130_apply, val_main_v132_apply, val_main_v131_apply,
    show idx_main_v131 (idx_main_v132 (ix2 n q)) = ix1 q from eq_ix1 _]
  refine congrArg₂ (· + ·) (Finset.sum_congr rfl fun k _ => ?_) rfl
  rw [show lidx_main_v130 (ix2 n q) k = ix2 n k from eq_ix2 _, val_main_v129_apply,
    show idx_main_v129 (ridx_main_v130 (ix2 n q) k) = ix2 q k from eq_ix2 _]

/-! ## The six 64-lane pieces of the pre-activations -/

theorem gi0_entry (j : Fin 64) :
    val_main_v134 (F := Ideal) x0 x2 x3 x4 x5 x6 x7 x8 x9 x11 (ix2 n j) = gi C0 C1 WM0 WM1 BM WI BI (lane 0 j) := by
  rw [val_main_v134_apply, show idx_main_v134 (ix2 n j) = ix2 n (lane 0 j) from
    idx_eq2 _ _ _ rfl (by show j.val = 64 * 0 + j.val; omega), gi_entry]

theorem gi1_entry (j : Fin 64) :
    val_main_v135 (F := Ideal) x0 x2 x3 x4 x5 x6 x7 x8 x9 x11 (ix2 n j) = gi C0 C1 WM0 WM1 BM WI BI (lane 1 j) := by
  rw [val_main_v135_apply, show idx_main_v135 (ix2 n j) = ix2 n (lane 1 j) from
    idx_eq2 _ _ _ rfl (by show 64 + j.val = 64 * 1 + j.val; omega), gi_entry]

theorem gi2_entry (j : Fin 64) :
    val_main_v136 (F := Ideal) x0 x2 x3 x4 x5 x6 x7 x8 x9 x11 (ix2 n j) = gi C0 C1 WM0 WM1 BM WI BI (lane 2 j) := by
  rw [val_main_v136_apply, show idx_main_v136 (ix2 n j) = ix2 n (lane 2 j) from
    idx_eq2 _ _ _ rfl (by show 128 + j.val = 64 * 2 + j.val; omega), gi_entry]

theorem gh0_entry (j : Fin 64) :
    val_main_v137 (F := Ideal) x1 x10 x12 (ix2 n j) = gh HP WH BH (lane 0 j) := by
  rw [val_main_v137_apply, show idx_main_v137 (ix2 n j) = ix2 n (lane 0 j) from
    idx_eq2 _ _ _ rfl (by show j.val = 64 * 0 + j.val; omega), gh_entry]

theorem gh1_entry (j : Fin 64) :
    val_main_v138 (F := Ideal) x1 x10 x12 (ix2 n j) = gh HP WH BH (lane 1 j) := by
  rw [val_main_v138_apply, show idx_main_v138 (ix2 n j) = ix2 n (lane 1 j) from
    idx_eq2 _ _ _ rfl (by show 64 + j.val = 64 * 1 + j.val; omega), gh_entry]

theorem gh2_entry (j : Fin 64) :
    val_main_v139 (F := Ideal) x1 x10 x12 (ix2 n j) = gh HP WH BH (lane 2 j) := by
  rw [val_main_v139_apply, show idx_main_v139 (ix2 n j) = ix2 n (lane 2 j) from
    idx_eq2 _ _ _ rfl (by show 128 + j.val = 64 * 2 + j.val; omega), gh_entry]

/-! ## The gates -/

/-- The reset gate at an entry. -/
theorem rgate_entry (j : Fin 64) :
    val_main_v146 (F := Ideal) x0 x1 x2 x3 x4 x5 x6 x7 x8 x9 x10 x11 x12 (ix2 n j)
      = rgate C0 C1 HP WM0 WM1 BM WI WH BI BH j := by
  rw [val_main_v146_apply, val_main_v145_apply, val_main_cst_29_apply, val_main_v144_apply, val_main_v143_apply,
    val_main_cst_28_apply, val_main_v142_apply, val_main_v141_apply, val_main_v140_apply, gi0_entry, gh0_entry]
  simp only [Ideal.hostDivf_def, Ideal.ofBits_def, Ideal.addf_def, Ideal.hostUnary_exp_def, Ideal.hostNegf_def, Ideal.negf_def]
  exact logistic_spelt _

/-- The update gate at an entry. -/
theorem zgate_entry (j : Fin 64) :
    val_main_v153 (F := Ideal) x0 x1 x2 x3 x4 x5 x6 x7 x8 x9 x10 x11 x12 (ix2 n j)
      = zgate C0 C1 HP WM0 WM1 BM WI WH BI BH j := by
  rw [val_main_v153_apply, val_main_v152_apply, val_main_cst_31_apply, val_main_v151_apply, val_main_v150_apply,
    val_main_cst_30_apply, val_main_v149_apply, val_main_v148_apply, val_main_v147_apply, gi1_entry, gh1_entry]
  simp only [Ideal.hostDivf_def, Ideal.ofBits_def, Ideal.addf_def, Ideal.hostUnary_exp_def, Ideal.hostNegf_def, Ideal.negf_def]
  exact logistic_spelt _

/-- The candidate state at an entry. -/
theorem cand_entry (j : Fin 64) :
    val_main_v156 (F := Ideal) x0 x1 x2 x3 x4 x5 x6 x7 x8 x9 x10 x11 x12 (ix2 n j)
      = cand C0 C1 HP WM0 WM1 BM WI WH BI BH j := by
  rw [val_main_v156_apply, val_main_v155_apply, val_main_v154_apply, gi2_entry, rgate_entry, gh2_entry]
  simp only [Ideal.hostUnary_tanh_def, Ideal.addf_def, Ideal.mulf_def]
  rfl

/-! ## The next hidden state and the prediction -/

/-- The reference's next hidden state at an entry is the specification's, at node `n`'s rows. -/
theorem ref_hnext (j : Fin 64) :
    val_main_v161 (F := Ideal) x0 x1 x2 x3 x4 x5 x6 x7 x8 x9 x10 x11 x12 (ix2 n j)
      = Cert.Hyper.hnext (fun k => val_main_v58 (F := Ideal) x0 x2 x3 x4 x5 x6 (ix2 n k))
          (fun k => val_main_v117 (F := Ideal) x0 x2 x3 x4 x5 x6 (ix2 n k)) (fun k => x1 (ix2 n k))
          (fun k j => x7 (ix2 (lo k) j)) (fun k j => x7 (ix2 (hi k) j)) (fun j => x8 (ix1 j))
          (fun k q => x9 (ix2 q k)) (fun k q => x10 (ix2 q k)) (fun q => x11 (ix1 q)) (fun q => x12 (ix1 q)) j := by
  rw [val_main_v161_apply, val_main_v159_apply, val_main_v158_apply, val_main_v157_apply, val_main_cst_32_apply,
    val_main_v160_apply, zgate_entry, cand_entry]
  rfl

/-- The reference's prediction at an entry (its first three columns) is the specification's. -/
theorem ref_pred (j : Fin 3) :
    val_main_v166 (F := Ideal) x0 x1 x2 x3 x4 x5 x6 x7 x8 x9 x10 x11 x12 x13 x14 (ix2 n j)
      = Cert.Hyper.pred (fun k => val_main_v58 (F := Ideal) x0 x2 x3 x4 x5 x6 (ix2 n k))
          (fun k => val_main_v117 (F := Ideal) x0 x2 x3 x4 x5 x6 (ix2 n k)) (fun k => x1 (ix2 n k))
          (fun k j => x7 (ix2 (lo k) j)) (fun k j => x7 (ix2 (hi k) j)) (fun j => x8 (ix1 j))
          (fun k q => x9 (ix2 q k)) (fun k q => x10 (ix2 q k)) (fun q => x11 (ix1 q)) (fun q => x12 (ix1 q))
          (fun k j => x13 (ix2 k j)) (fun j => x14 (ix1 j)) ⟨j.val, by omega⟩ := by
  rw [val_main_v166_apply, val_main_v165_apply, val_main_v162_apply, val_main_v164_apply, val_main_v163_apply,
    show idx_main_v163 (idx_main_v164 (idx_main_v166 (ix2 n j))) = ix1 (⟨j.val, by omega⟩ : Fin 64) from eq_ix1 _]
  refine congrArg₂ (· + ·) (Finset.sum_congr rfl fun k _ => ?_) rfl
  rw [show lidx_main_v162 (idx_main_v166 (ix2 n j)) k = ix2 n k from eq_ix2 _, ref_hnext,
    show ridx_main_v162 (idx_main_v166 (ix2 n j)) k = ix2 k (⟨j.val, by omega⟩ : Fin 64) from eq_ix2 _]

end Entry

end Cert.Hyper.Ref

end
-- ==== Proof.Bridge.lean ====
/-
  The two programs' results, entry by entry.

  The kernel program's first result at (n, j) is lane j of the first half of row n of the second launch's output, which
  is the next hidden state of node n computed from that node's two convolution rows, its previous hidden row and the
  weights; its second result at (n, j), j < 3, is lane j of the second half of that row, the prediction.  The reference's
  two results are the same two functions of ITS convolution rows and of the same weights.  The convolution rows agree
  (the fused 128-lane arrays hold the reference's two 64-lane arrays side by side), and every weight window of the
  launch is the corresponding slice, transpose or reshape of an argument, so the results agree.  Nothing here uses
  finiteness of any entry.
-/
import proofs.«119679_j17197049053669_2_alg».proof.Proof.KHost
import proofs.«119679_j17197049053669_2_alg».proof.Proof.KHostWin
import proofs.«119679_j17197049053669_2_alg».proof.Proof.Region1
import proofs.«119679_j17197049053669_2_alg».proof.Proof.ConvCore
import proofs.«119679_j17197049053669_2_alg».proof.Proof.RefHead

set_option maxRecDepth 16384

noncomputable section

open scoped BigOperators
open Idealize.ShloMosaic Idealize.ShloMosaic.TcCoe Idealize.ShloMosaic.ValueIdx Idealize.SL.Sem
open Cert.KernelIdeal Cert.KernelIdeal.Gen

namespace Cert.Hyper.Bridge

variable (m : (ℓ : Loc nD τ sig) → Buf (Elt Ideal) ℓ) (ρ : Dev nD → PrngReg) (c : Dev nD)

/-- The next hidden state: the kernel program's first result at an entry is the reference's stage at that entry, read at
    the kernel program's own arguments. -/
theorem first_entry (n : Fin 100000) (j : Fin 64) :
    (W10 m ρ c (Proc.devRef .tc main_v66) : S100000x64.Idx → EReal) (ix2 n j)
      = Cert.ReferenceIdeal.Read.val_main_v161 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix2 n j) := by
  refine (KHost.tail_hnext m ρ c n j).trans ?_
  refine (congrFun (Region1.final (V8 m ρ) c) (ix2 n (lo j))).trans ?_
  refine (Region1.out_lo _ _ _ _ _ _ _ _ _ _ _ _ _ n j).trans ?_
  refine (Region1.hnext_congr ?_ ?_ ?_ ?_ ?_ ?_ ?_ ?_ ?_ ?_ j).trans
    (Ref.ref_hnext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) n j).symm
  · exact funext fun k => Conv.conv_row0 m ρ c n k
  · exact funext fun k => Conv.conv_row1 m ρ c n k
  · exact funext fun k => congrFun (KHost.win_hprev m ρ c) (ix2 n k)
  · exact funext fun k => funext fun j => KHost.win_wmix_lo m ρ c k j
  · exact funext fun k => funext fun j => KHost.win_wmix_hi m ρ c k j
  · exact funext fun j => KHost.win_bmix m ρ c j
  · exact funext fun k => funext fun q => KHost.win_wih m ρ c k q
  · exact funext fun k => funext fun q => KHost.win_whh m ρ c k q
  · exact funext fun q => KHost.win_bih m ρ c q
  · exact funext fun q => KHost.win_bhh m ρ c q

/-- The prediction: the same for the second result. -/
theorem second_entry (n : Fin 100000) (j : Fin 3) :
    (W10 m ρ c (Proc.devRef .tc main_v68) : S100000x3.Idx → EReal) (ix2 n j)
      = Cert.ReferenceIdeal.Read.val_main_v166 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (ix2 n j) := by
  refine (KHost.tail_pred m ρ c n j).trans ?_
  refine (congrFun (Region1.final (V8 m ρ) c) (ix2 n (hi ⟨j.val, by omega⟩))).trans ?_
  refine (Region1.out_hi _ _ _ _ _ _ _ _ _ _ _ _ _ n ⟨j.val, by omega⟩).trans ?_
  refine (Region1.pred_congr ?_ ?_ ?_ ?_ ?_ ?_ ?_ ?_ ?_ ?_ ?_ ?_ ⟨j.val, by omega⟩).trans
    (Ref.ref_pred (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) n j).symm
  · exact funext fun k => Conv.conv_row0 m ρ c n k
  · exact funext fun k => Conv.conv_row1 m ρ c n k
  · exact funext fun k => congrFun (KHost.win_hprev m ρ c) (ix2 n k)
  · exact funext fun k => funext fun j => KHost.win_wmix_lo m ρ c k j
  · exact funext fun k => funext fun j => KHost.win_wmix_hi m ρ c k j
  · exact funext fun j => KHost.win_bmix m ρ c j
  · exact funext fun k => funext fun q => KHost.win_wih m ρ c k q
  · exact funext fun k => funext fun q => KHost.win_whh m ρ c k q
  · exact funext fun q => KHost.win_bih m ρ c q
  · exact funext fun q => KHost.win_bhh m ρ c q
  · exact funext fun k => funext fun j => congrFun (KHost.win_wout m ρ c) (ix2 k j)
  · exact funext fun j => KHost.win_bout m ρ c j

/-- The first result as a whole array. -/
theorem first_eq :
    (W10 m ρ c (Proc.devRef .tc main_v66) : S100000x64.Idx → EReal)
      = Cert.ReferenceIdeal.Read.val_main_v161 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  funext fun i => by rw [eq_ix2 i]; exact first_entry m ρ c (i 0) (i 1)

/-- The second result as a whole array. -/
theorem second_eq :
    (W10 m ρ c (Proc.devRef .tc main_v68) : S100000x3.Idx → EReal)
      = Cert.ReferenceIdeal.Read.val_main_v166 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  funext fun i => by rw [eq_ix2 i]; exact second_entry m ρ c (i 0) (i 1)

end Cert.Hyper.Bridge

end
-- ==== Proof.lean ====
/-
  A hypergraph message-passing step followed by a gated recurrent update, in two programs.

  Both programs compute, for every node n and each of the two edge types t,

      conv_t[n, ·] = Dinv_t[n] · Σ_{e : node(e) = n, type(e) = t} ( Binv_t[h(e)] · Σ_{e' : h(e') = h(e), type(e') = t} (x W_t)[node(e'), ·] ) + b_t

  (degrees Dinv, Binv as guarded reciprocals of edge counts), then mix the two 64-lane rows with a 128 × 64 matrix,
  rectify, run one gated recurrent cell against the previous hidden state and apply a linear head; the results are the
  next hidden state and the first three columns of the head.

  The kernel program keeps the two edge types side by side: one 128-lane projection (a launch over row blocks), one
  gather / scatter-add pass over 128-lane rows masked by the one-hot of the edge type, and a second launch over row blocks
  that scales by the degree reciprocals, adds the bias, mixes with the two halves of the mixing matrix, and runs the
  cell and the head.  The reference keeps the two types apart and joins them before the mixing product.  On the extended
  reals the two are the same function entry by entry: the fused arrays hold the reference's pairs of arrays side by side
  through every gather, product and scatter-add (Layout, ConvCore), a 128-term sum is the sum of its two 64-term halves,
  and the reference's spelt-out 1 / (1 + exp (−z)) is the logistic function by definition (RefHead).  No step uses
  distributivity or cancellation, so the precondition (finite inputs) is never opened.

  The three frame claims: the two kernel programs' frames are generated; the reference is a straight line of host
  operations, whose run gives its frame.  The idealization rewrote nothing, so that conjunct is trivial.
-/
import proofs.«119679_j17197049053669_2_alg».proof.Defs
import proofs.«119679_j17197049053669_2_alg».proof.Proof.Gen.Kernel
import proofs.«119679_j17197049053669_2_alg».proof.Proof.Gen.Kernel.Frame
import proofs.«119679_j17197049053669_2_alg».proof.Proof.Gen.KernelIdeal
import proofs.«119679_j17197049053669_2_alg».proof.Proof.Gen.KernelIdeal.Frame
import proofs.«119679_j17197049053669_2_alg».proof.Proof.Gen.ReferenceIdeal
import proofs.«119679_j17197049053669_2_alg».proof.Proof.Gen.Pre_finite_inputs
import proofs.«119679_j17197049053669_2_alg».proof.Proof.RefFrame
import proofs.«119679_j17197049053669_2_alg».proof.Proof.KRun
import proofs.«119679_j17197049053669_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The kernel program as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- From memories that agree on the arguments both idealized programs run, and they end with the same two results:
    the kernel program's, read at the last segment boundary, are the reference's stages at the kernel program's
    arguments (Bridge), and the reference's run ends at those stages at its own arguments, which are the same arrays. -/
theorem algebraic : Cert.algebraic_KernelIdeal_ReferenceIdeal := by
  intro m ρ m' ρ' _ hagree
  refine ⟨fun c => Cert.KernelIdeal.Gen.W10 m ρ c (Proc.devRef .tc Cert.KernelIdeal.main_v66),
    fun c => Cert.KernelIdeal.Gen.W10 m ρ c (Proc.devRef .tc Cert.KernelIdeal.main_v68),
    Cert.Hyper.KRun.run (F := Ideal) m ρ, ?_⟩
  refine (θ_run Cert.ReferenceIdeal.defs _ _).mono (fun r h c => ?_) (Cert.ReferenceIdeal.Value.run (F := Ideal) m' ρ')
  obtain ⟨h0, h1, hrest⟩ := h c
  obtain ⟨g0, g1, g2, g3, g4, g5, g6, g7, g8, g9, g10, g11, g12, g13, g14⟩ := hagree c
  refine ⟨h0.trans ?_, h1.trans ?_, hrest⟩
  · rw [Cert.ReferenceIdeal.Read.val_main_v161_eq, g0, g1, g2, g3, g4, g5, g6, g7, g8, g9, g10, g11, g12]
    exact (Cert.Hyper.Bridge.first_eq m ρ c).symm
  · rw [Cert.ReferenceIdeal.Read.val_main_v166_eq, g0, g1, g2, g3, g4, g5, g6, g7, g8, g9, g10, g11, g12, g13, g14]
    exact (Cert.Hyper.Bridge.second_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, Cert.Hyper.frame_ref, trivial, algebraic⟩

end Cert.Proof

end
